-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x128 : Shape := ⟨3, ![3, 128, 128]⟩
abbrev S128 : Shape := ⟨1, ![128]⟩
abbrev S3x128x40 : Shape := ⟨3, ![3, 128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_
  bcast_S_S3x128x40 : S_.BroadcastsInDim S3x128x40 (![] : Fin 0 → Fin S3x128x40.rank)
  reducesTo_S3x128x40_S_d0_1_2 : S3x128x40.ReducesTo [0, 1, 2] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S3x128x40 1) : IVec S_ 1 :=
  let main_c_5 : IVec S_ 1 := constantI S_ 1 1#1
  let main_v17 : IVec S_ 1 := (fun x v => Host.reduce IntOp.andi x v reducesTo_S3x128x40_S_d0_1_2 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S3x128x128 .f32) (main_arg3 : FVec F S128 .f32) (main_arg4 : FVec F S3x128x40 .f32) (main_arg5 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x40 .f32 := Host.absf main_arg4
  let main_cst_4 : FVec F S_ .f32 := constant S_ .f32 0x7F800000#32
  let main_v15 : FVec F S3x128x40 .f32 := broadcastInDim S3x128x40 ![] bcast_S_S3x128x40 main_cst_4
  let main_v16 : IVec S3x128x40 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S3x128x128 : Shape := ⟨3, ![3, 128, 128]⟩
abbrev S128 : Shape := ⟨1, ![128]⟩
abbrev S3x128x40 : Shape := ⟨3, ![3, 128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x384 : Shape := ⟨2, ![50000, 384]⟩
abbrev S1x128x128 : Shape := ⟨3, ![1, 128, 128]⟩
abbrev S128x128 : Shape := ⟨2, ![128, 128]⟩
abbrev S384x128 : Shape := ⟨2, ![384, 128]⟩
abbrev S1x128 : Shape := ⟨2, ![1, 128]⟩
abbrev S2000x384 : Shape := ⟨2, ![2000, 384]⟩
abbrev S2000x128 : Shape := ⟨2, ![2000, 128]⟩
abbrev S1x128x40 : Shape := ⟨3, ![1, 128, 40]⟩
abbrev S128x40 : Shape := ⟨2, ![128, 40]⟩
abbrev S384x40 : Shape := ⟨2, ![384, 40]⟩
abbrev S50000x40 : Shape := ⟨2, ![50000, 40]⟩
abbrev S2000x40 : Shape := ⟨2, ![2000, 40]⟩
abbrev S2000 : Shape := ⟨1, ![2000]⟩
abbrev S2000x1 : Shape := ⟨2, ![2000, 1]⟩

abbrev nBuf : Space → Nat
  | .hbm => 149
  | .vmem => 12
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S128, .f32⟩
  | 4 => ⟨S3x128x40, .f32⟩
  | 5 => ⟨S40, .f32⟩
  | 6 => ⟨S1x800000, .i32⟩
  | 7 => ⟨S800000, .i32⟩
  | 8 => ⟨S1x800000, .i32⟩
  | 9 => ⟨S800000, .i32⟩
  | 10 => ⟨S_, .f32⟩
  | 11 => ⟨S800000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .i1⟩
  | 19 => ⟨S_, .f32⟩
  | 20 => ⟨S50000, .f32⟩
  | 21 => ⟨S50000, .f32⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S800000x1, .f32⟩
  | 57 => ⟨S800000x128, .f32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x128, .f32⟩
  | 72 => ⟨S800000x1, .f32⟩
  | 73 => ⟨S800000x128, .f32⟩
  | 74 => ⟨S800000x128, .f32⟩
  | 75 => ⟨S_, .f32⟩
  | 76 => ⟨S50000x128, .f32⟩
  | 77 => ⟨S800000x1, .i32⟩
  | 78 => ⟨S50000x128, .f32⟩
  | 79 => ⟨S_, .f32⟩
  | 80 => ⟨S50000x128, .f32⟩
  | 81 => ⟨S50000x128, .f32⟩
  | 82 => ⟨S50000x128, .f32⟩
  | 83 => ⟨S50000x384, .f32⟩
  | 84 => ⟨S1x128x128, .f32⟩
  | 85 => ⟨S128x128, .f32⟩
  | 86 => ⟨S1x128x128, .f32⟩
  | 87 => ⟨S128x128, .f32⟩
  | 88 => ⟨S1x128x128, .f32⟩
  | 89 => ⟨S128x128, .f32⟩
  | 90 => ⟨S384x128, .f32⟩
  | 91 => ⟨S50000x384, .bf16⟩
  | 92 => ⟨S384x128, .bf16⟩
  | 93 => ⟨S1x128, .f32⟩
  | 94 => ⟨S50000x128, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S800000x1, .f32⟩
  | 105 => ⟨S800000x128, .f32⟩
  | 106 => ⟨S800000x128, .f32⟩
  | 107 => ⟨S_, .f32⟩
  | 108 => ⟨S50000x128, .f32⟩
  | 109 => ⟨S800000x1, .i32⟩
  | 110 => ⟨S50000x128, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S800000x1, .f32⟩
  | 121 => ⟨S800000x128, .f32⟩
  | 122 => ⟨S800000x128, .f32⟩
  | 123 => ⟨S_, .f32⟩
  | 124 => ⟨S50000x128, .f32⟩
  | 125 => ⟨S800000x1, .i32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S50000x384, .f32⟩
  | 4 => ⟨S1x128x40, .f32⟩
  | 5 => ⟨S128x40, .f32⟩
  | 6 => ⟨S1x128x40, .f32⟩
  | 7 => ⟨S128x40, .f32⟩
  | 8 => ⟨S1x128x40, .f32⟩
  | 9 => ⟨S128x40, .f32⟩
  | 10 => ⟨S384x40, .f32⟩
  | 11 => ⟨S50000x384, .bf16⟩
  | 12 => ⟨S_, .i32⟩
  | 13 => ⟨S_, .f32⟩
  | 14 => ⟨S384x128, .f32⟩
  | 15 => ⟨S384x128, .bf16⟩
  | 16 => ⟨S_, .i32⟩
  | 17 => ⟨S_, .f32⟩
  | 18 => ⟨S128, .f32⟩
  | 19 => ⟨S1x128, .f32⟩
  | 20 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x384, .bf16⟩
  | .local _ .vmem, ⟨1, _⟩ => ⟨S2000x384, .bf16⟩
  | .local _ .vmem, ⟨2, _⟩ => ⟨S384x128, .bf16⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x384, .bf16⟩
  | .local _ .vmem, ⟨7, _⟩ => ⟨S2000x384, .bf16⟩
  | .local _ .vmem, ⟨8, _⟩ => ⟨S384x128, .bf16⟩
  | .local _ .vmem, ⟨9, _⟩ => ⟨S1x128, .f32⟩
  | .local _ .vmem, ⟨10, _⟩ => ⟨S2000x40, .f32⟩
  | .local _ .vmem, ⟨11, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_10 : Ref sig .tc := ⟨.hbm, 63, rfl⟩
abbrev main_v43 : Ref sig .tc := ⟨.hbm, 64, rfl⟩
abbrev main_v44 : Ref sig .tc := ⟨.hbm, 65, rfl⟩
abbrev main_c_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_13 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c_14 : Ref sig .tc := ⟨.hbm, 95, rfl⟩
abbrev main_v71 : Ref sig .tc := ⟨.hbm, 96, rfl⟩
abbrev main_v72 : Ref sig .tc := ⟨.hbm, 97, rfl⟩
abbrev main_c_15 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_16 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_c_17 : Ref sig .tc := ⟨.hbm, 111, rfl⟩
abbrev main_v84 : Ref sig .tc := ⟨.hbm, 112, rfl⟩
abbrev main_v85 : Ref sig .tc := ⟨.hbm, 113, rfl⟩
abbrev main_c_18 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_19 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_20 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_c_21 : Ref sig .tc := ⟨.hbm, 140, rfl⟩
abbrev main_call1_v0 : Ref sig .tc := ⟨.hbm, 141, rfl⟩
abbrev main_v109 : Ref sig .tc := ⟨.hbm, 142, rfl⟩
abbrev main_v110 : Ref sig .tc := ⟨.hbm, 143, rfl⟩
abbrev main_c_22 : Ref sig .tc := ⟨.hbm, 144, rfl⟩
abbrev main_call2_v0 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  concatenates_S50000x128_S50000x128_S50000x128_S50000x384_d1 : Shape.Concatenates [S50000x128, S50000x128, S50000x128] S50000x384 1
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  concatenates_S128x128_S128x128_S128x128_S384x128_d0 : Shape.Concatenates [S128x128, S128x128, S128x128] S384x128 0
  bitsLt_bf16_f32 : FTy.bits .bf16 < FTy.bits .f32
  shapeCasts_S128_S1x128 : S128.ShapeCasts S1x128
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S3x128x40_S1x128x40_0_0_0 : S3x128x40.Slices ![0, 0, 0] S1x128x40
  shapeCasts_S1x128x40_S128x40 : S1x128x40.ShapeCasts S128x40
  slices_S3x128x40_S1x128x40_1_0_0 : S3x128x40.Slices ![1, 0, 0] S1x128x40
  slices_S3x128x40_S1x128x40_2_0_0 : S3x128x40.Slices ![2, 0, 0] S1x128x40
  concatenates_S128x40_S128x40_S128x40_S384x40_d0 : Shape.Concatenates [S128x40, S128x40, S128x40] S384x40 0
  pads_S384x40_S384x128_000_0880 : S384x40.Pads (![0, 0] : Fin 2 → Nat) ![0, 88] ![0, 0] S384x128
  h_S_ : 0 < S_.numel
  pads_S40_S128_0880 : S40.Pads (![0] : Fin 1 → Nat) ![88] ![0] S128
  iota_S2000x128_d1_w32 : S2000x128.Iotas .tc 32 [1]
  reduces_S2000x128_S2000 : S2000x128.Reduces [1] S2000
  shapeCasts_S2000_S2000x1 : S2000.ShapeCasts S2000x1
  broadcasts_S2000x1_S2000x128 : S2000x1.Broadcasts S2000x128
  slices_S2000x128_o0_0_S2000x40 : S2000x128.Slices ![0, 0] S2000x40
  inb_S2000x40_S2000x40_0_0 : ∀ a, (![0, 0] : Fin 2 → Nat) a + S2000x40.size a ≤ S2000x40.size a
  h_S2000x40 : 0 < S2000x40.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x384_S384x128_S2000x128_1_0_0_1_n_n_wf : DotDims.WF S2000x384 S384x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x384.size a ≤ S50000x384.size a
  hwx0_0 : ∀ i : grid0.Coords, EltTy.bits .bf16 = 32 ∨ (Rect.block (s := S50000x384) S2000x384.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .bf16 = 32 ∨ (Rect.block (s := S384x128) S384x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x384.size a ≤ S50000x384.size a
  hwx1_0 : ∀ i : grid1.Coords, EltTy.bits .bf16 = 32 ∨ (Rect.block (s := S50000x384) S2000x384.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x128.size a ≤ S384x128.size a
  hwx1_1 : ∀ i : grid1.Coords, EltTy.bits .bf16 = 32 ∨ (Rect.block (s := S384x128) S384x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x40.size a ≤ S50000x40.size a
  hwx1_3 : ∀ i : grid1.Coords, EltTy.bits .f32 = 32 ∨ (Rect.block (s := S50000x40) S2000x40.size (cc1_transform_3 i) (hinb1_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf

abbrev win0_0 : Pipeline.Window sig grid0 :=
  Pipeline.Window.ofSpec (Memref.whole main_v67) S2000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v68) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v69) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v70) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v108) S2000x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v110) S384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v112) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v113) S2000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x128 : Shape := ⟨3, ![3, 128, 128]⟩
abbrev S128 : Shape := ⟨1, ![128]⟩
abbrev S3x128x40 : Shape := ⟨3, ![3, 128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x128x128 : Shape := ⟨3, ![1, 128, 128]⟩
abbrev S128x128 : Shape := ⟨2, ![128, 128]⟩
abbrev S800000x128 : Shape := ⟨2, ![800000, 128]⟩
abbrev S1x128 : Shape := ⟨2, ![1, 128]⟩
abbrev S1x128x40 : Shape := ⟨3, ![1, 128, 40]⟩
abbrev S128x40 : Shape := ⟨2, ![128, 40]⟩
abbrev S50000x40 : Shape := ⟨2, ![50000, 40]⟩
abbrev S1x40 : Shape := ⟨2, ![1, 40]⟩
abbrev S50000x1 : Shape := ⟨2, ![50000, 1]⟩

abbrev nBuf : Space → Nat
  | .hbm => 169
  | .vmem => 0
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S128, .f32⟩
  | 4 => ⟨S3x128x40, .f32⟩
  | 5 => ⟨S40, .f32⟩
  | 6 => ⟨S1x800000, .i32⟩
  | 7 => ⟨S800000, .i32⟩
  | 8 => ⟨S1x800000, .i32⟩
  | 9 => ⟨S800000, .i32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S1x128x128, .f32⟩
  | 52 => ⟨S128x128, .f32⟩
  | 53 => ⟨S50000x128, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x128, .f32⟩
  | 63 => ⟨S800000x1, .f32⟩
  | 64 => ⟨S800000x128, .f32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S1x128x128, .f32⟩
  | 71 => ⟨S128x128, .f32⟩
  | 72 => ⟨S50000x128, .f32⟩
  | 73 => ⟨S50000x128, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x128, .f32⟩
  | 83 => ⟨S800000x1, .f32⟩
  | 84 => ⟨S800000x128, .f32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S_, .f32⟩
  | 91 => ⟨S50000x128, .f32⟩
  | 92 => ⟨S50000x128, .f32⟩
  | 93 => ⟨S50000x128, .f32⟩
  | 94 => ⟨S1x128x128, .f32⟩
  | 95 => ⟨S128x128, .f32⟩
  | 96 => ⟨S50000x128, .f32⟩
  | 97 => ⟨S50000x128, .f32⟩
  | 98 => ⟨S1x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S1x128x40, .f32⟩
  | 105 => ⟨S128x40, .f32⟩
  | 106 => ⟨S50000x40, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x128, .f32⟩
  | 116 => ⟨S800000x1, .f32⟩
  | 117 => ⟨S800000x128, .f32⟩
  | 118 => ⟨S800000x128, .f32⟩
  | 119 => ⟨S_, .f32⟩
  | 120 => ⟨S50000x128, .f32⟩
  | 121 => ⟨S800000x1, .i32⟩
  | 122 => ⟨S50000x128, .f32⟩
  | 123 => ⟨S1x128x40, .f32⟩
  | 124 => ⟨S128x40, .f32⟩
  | 125 => ⟨S50000x40, .f32⟩
  | 126 => ⟨S50000x40, .f32⟩
  | 127 => ⟨S_, .i32⟩
  | _ => ⟨S50000x128, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x128, .f32⟩
  | 8 => ⟨S800000x1, .f32⟩
  | 9 => ⟨S800000x128, .f32⟩
  | 10 => ⟨S800000x128, .f32⟩
  | 11 => ⟨S_, .f32⟩
  | 12 => ⟨S50000x128, .f32⟩
  | 13 => ⟨S800000x1, .i32⟩
  | 14 => ⟨S50000x128, .f32⟩
  | 15 => ⟨S_, .f32⟩
  | 16 => ⟨S50000x128, .f32⟩
  | 17 => ⟨S50000x128, .f32⟩
  | 18 => ⟨S50000x128, .f32⟩
  | 19 => ⟨S1x128x40, .f32⟩
  | 20 => ⟨S128x40, .f32⟩
  | 21 => ⟨S50000x40, .f32⟩
  | 22 => ⟨S50000x40, .f32⟩
  | 23 => ⟨S1x40, .f32⟩
  | 24 => ⟨S50000x40, .f32⟩
  | 25 => ⟨S50000x40, .f32⟩
  | 26 => ⟨S_, .f32⟩
  | 27 => ⟨S50000, .f32⟩
  | 28 => ⟨S_, .f32⟩
  | 29 => ⟨S50000, .f32⟩
  | 30 => ⟨S50000, .f32⟩
  | 31 => ⟨S50000x1, .f32⟩
  | 32 => ⟨S50000x40, .f32⟩
  | 33 => ⟨S50000x40, .f32⟩
  | 34 => ⟨S50000x40, .f32⟩
  | 35 => ⟨S_, .f32⟩
  | 36 => ⟨S50000, .f32⟩
  | 37 => ⟨S50000x1, .f32⟩
  | 38 => ⟨S50000x1, .f32⟩
  | 39 => ⟨S50000x40, .f32⟩
  | 40 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_call1_cst : Ref sig .tc := ⟨.hbm, 101, rfl⟩
abbrev main_call1_v0 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_14 : Ref sig .tc := ⟨.hbm, 107, rfl⟩
abbrev main_v81 : Ref sig .tc := ⟨.hbm, 108, rfl⟩
abbrev main_v82 : Ref sig .tc := ⟨.hbm, 109, rfl⟩
abbrev main_c_15 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_16 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_c_17 : Ref sig .tc := ⟨.hbm, 127, rfl⟩
abbrev main_v98 : Ref sig .tc := ⟨.hbm, 128, rfl⟩
abbrev main_v99 : Ref sig .tc := ⟨.hbm, 129, rfl⟩
abbrev main_c_18 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_19 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_20 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_call2_cst : Ref sig .tc := ⟨.hbm, 154, rfl⟩
abbrev main_call2_v0 : Ref sig .tc := ⟨.hbm, 155, rfl⟩
abbrev main_call2_cst_0 : Ref sig .tc := ⟨.hbm, 156, rfl⟩
abbrev main_call2_v1 : Ref sig .tc := ⟨.hbm, 157, rfl⟩
abbrev main_call2_v2 : Ref sig .tc := ⟨.hbm, 158, rfl⟩
abbrev main_call2_v3 : Ref sig .tc := ⟨.hbm, 159, rfl⟩
abbrev main_call2_v4 : Ref sig .tc := ⟨.hbm, 160, rfl⟩
abbrev main_call2_v5 : Ref sig .tc := ⟨.hbm, 161, rfl⟩
abbrev main_call2_v6 : Ref sig .tc := ⟨.hbm, 162, rfl⟩
abbrev main_call2_cst_1 : Ref sig .tc := ⟨.hbm, 163, rfl⟩
abbrev main_call2_v7 : Ref sig .tc := ⟨.hbm, 164, rfl⟩
abbrev main_call2_v8 : Ref sig .tc := ⟨.hbm, 165, rfl⟩
abbrev main_call2_v9 : Ref sig .tc := ⟨.hbm, 166, rfl⟩
abbrev main_call2_v10 : Ref sig .tc := ⟨.hbm, 167, rfl⟩
abbrev main_v121 : Ref sig .tc := ⟨.hbm, 168, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S3x128x128_S1x128x128_0_0_0 : S3x128x128.Slices ![0, 0, 0] S1x128x128
  shapeCasts_S1x128x128_S128x128 : S1x128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x128x128_S1x128x128_1_0_0 : S3x128x128.Slices ![1, 0, 0] S1x128x128
  slices_S3x128x128_S1x128x128_2_0_0 : S3x128x128.Slices ![2, 0, 0] S1x128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x40_S1x128x40_0_0_0 : S3x128x40.Slices ![0, 0, 0] S1x128x40
  shapeCasts_S1x128x40_S128x40 : S1x128x40.ShapeCasts S128x40
  slices_S3x128x40_S1x128x40_1_0_0 : S3x128x40.Slices ![1, 0, 0] S1x128x40
  slices_S3x128x40_S1x128x40_2_0_0 : S3x128x40.Slices ![2, 0, 0] S1x128x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.IdealBody0.lean ====
/-
  The first pallas_call (matrix product, bias, relu) as a block-by-block map: what its body leaves in the block it is handed.
  The call walks its 25 grid points; at point t it is handed rows 2000·t … 2000·t + 1999 of the [50000, 384]
  activation array (window 0), the whole [384, *] weight array (window 1) and the [1, 128] bias row (window 2),
  the last two fetched once and then kept. The body reads each handed block whole, also reads its output block
  (a value it never uses), and writes the output block ONCE, whole: the pure value `k0_pay1` of the three
  blocks it read. So after the body the output's staging buffer holds exactly that value
  (`out0_3`, a one-piece `View.canon`), and every input's buffer holds what it was handed. Everything
  here is stated at an arbitrary float instance and at an arbitrary valuation `V` of the buffers when the
  call is entered; the run instantiates `V`.
-/
import proofs.«136246_j62663572848803_1_alg».proof.Proof.Gen.KernelIdeal.Launch
import proofs.«136246_j62663572848803_1_alg».proof.Proof.Gen.KernelIdeal.Skeleton
import proofs.«136246_j62663572848803_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 2000-long axis is looked at once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffers' contents when the call is entered
variable (V : (c : Dev nD) → (b : Ref sig .tc) → Buf (Elt F) ((c : Thread nD τ).loc b))

/-! ## The blocks the call is handed -/

/-- Window `w`'s block at grid point `t`: the part of the window's array (as the call finds it) that the
    window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point — whether the block was fetched at
    that point or, the index map not having moved, kept from the point before — for any proof data over the
    entry valuation whose body leaves the block in place. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is a whole block -/

abbrev r0_0 : Rect S2000x384 := Rect.unit (s := S2000x384) ![0, 0] S2000x384.size inb_S2000x384_S2000x384_0_0
abbrev r0_1 : Rect S384x128 := Rect.unit (s := S384x128) ![0, 0] S384x128.size inb_S384x128_S384x128_0_0
abbrev r0_2 : Rect S1x128 := Rect.unit (s := S1x128) ![0, 0] S1x128.size inb_S1x128_S1x128_0_0
abbrev r0_3 : Rect S2000x128 := Rect.unit (s := S2000x128) ![0, 0] S2000x128.size inb_S2000x128_S2000x128_0_0

/-! ## What the body leaves in the output block -/

/-- The output window's staging buffer after the body, as a function of the three input blocks: its one store,
    the body's arithmetic on the blocks read whole. -/
def out0_3 (x0 : Vec F S2000x384 .bf16) (x1 : Vec F S384x128 .bf16) (x2 : Vec F S1x128 .f32) : Vec F S2000x128 .f32 :=
  View.canon [⟨r0_3, k0_pay1 (View.ld x0 r0_0) (View.ld x1 r0_1) (View.ld x2 r0_2)⟩]

/-- The one store is of the whole block, so it covers every index of it. -/
theorem cover0_3 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

/-! ## The body's triple -/

set_option maxHeartbeats 1000000 in
/-- The body, run on whole staging memrefs — the three inputs' holding `x0 x1 x2`, the output's holding anything —
    reaches its continuation with the inputs' as they were and the output's at `out0_3 x0 x1 x2`. The printed
    function is its skeleton of three loads, one unused load of the output and one store; the symbolic executor
    runs it. -/
theorem sound_kernel0 (c : Dev nD) (E : Set ℕ) (i : grid0.Coords) (arg1 : Memref sig .tc .vmem S2000x384 .bf16) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x128 .f32) (harg4 : arg4.IsWhole)
    (x0 : Vec F S2000x384 .bf16) (x1 : Vec F S384x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__mm_bias_relu_kernel i arg1 harg1 arg2 harg2 arg3 harg3 arg4 harg4) K := by
  simp only [cc0__mm_bias_relu_kernel_eq_skeleton]; unfold cc0__mm_bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The call's proof data -/

/-- What the launch theorems are told about this call on core `c`: its arrays as the call finds them; after the
    body at point `t` each input buffer at its block and the output buffer at `out0_3` of the three blocks; the
    invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorems' body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealBody1.lean ====
/-
  The second pallas_call (matrix product, bias, log-softmax over the 40 real columns of 128 lanes) as a block-by-block map: what its body leaves in the block it is handed.
  The call walks its 25 grid points; at point t it is handed rows 2000·t … 2000·t + 1999 of the [50000, 384]
  activation array (window 0), the whole [384, *] weight array (window 1) and the [1, 128] bias row (window 2),
  the last two fetched once and then kept. The body reads each handed block whole, also reads its output block
  (a value it never uses), and writes the output block ONCE, whole: the pure value `k1_pay1` of the three
  blocks it read. So after the body the output's staging buffer holds exactly that value
  (`out1_3`, a one-piece `View.canon`), and every input's buffer holds what it was handed. Everything
  here is stated at an arbitrary float instance and at an arbitrary valuation `V` of the buffers when the
  call is entered; the run instantiates `V`.
-/
import proofs.«136246_j62663572848803_1_alg».proof.Proof.Gen.KernelIdeal.Launch
import proofs.«136246_j62663572848803_1_alg».proof.Proof.Gen.KernelIdeal.Skeleton
import proofs.«136246_j62663572848803_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 2000-long axis is looked at once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffers' contents when the call is entered
variable (V : (c : Dev nD) → (b : Ref sig .tc) → Buf (Elt F) ((c : Thread nD τ).loc b))

/-! ## The blocks the call is handed -/

/-- Window `w`'s block at grid point `t`: the part of the window's array (as the call finds it) that the
    window's index map selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point — whether the block was fetched at
    that point or, the index map not having moved, kept from the point before — for any proof data over the
    entry valuation whose body leaves the block in place. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is a whole block -/

abbrev r1_0 : Rect S2000x384 := Rect.unit (s := S2000x384) ![0, 0] S2000x384.size inb_S2000x384_S2000x384_0_0
abbrev r1_1 : Rect S384x128 := Rect.unit (s := S384x128) ![0, 0] S384x128.size inb_S384x128_S384x128_0_0
abbrev r1_2 : Rect S1x128 := Rect.unit (s := S1x128) ![0, 0] S1x128.size inb_S1x128_S1x128_0_0
abbrev r1_3 : Rect S2000x40 := Rect.unit (s := S2000x40) ![0, 0] S2000x40.size inb_S2000x40_S2000x40_0_0

/-! ## What the body leaves in the output block -/

/-- The output window's staging buffer after the body, as a function of the three input blocks: its one store,
    the body's arithmetic on the blocks read whole. -/
def out1_3 (x0 : Vec F S2000x384 .bf16) (x1 : Vec F S384x128 .bf16) (x2 : Vec F S1x128 .f32) : Vec F S2000x40 .f32 :=
  View.canon [⟨r1_3, k1_pay1 (View.ld x0 r1_0) (View.ld x1 r1_1) (View.ld x2 r1_2)⟩]

/-- The one store is of the whole block, so it covers every index of it. -/
theorem cover1_3 (p0 : Vec F S2000x40 .f32) (y : S2000x40.Idx) :
    ∃ pc ∈ ([⟨r1_3, p0⟩] : List (View.Piece (Elt F) S2000x40 .f32)), y ∈ pc.1.set :=
  View.cover_of_tiled [⟨r1_3, p0⟩] S2000x40.size (by rfl) y

/-! ## The body's triple -/

set_option maxHeartbeats 1000000 in
/-- The body, run on whole staging memrefs — the three inputs' holding `x0 x1 x2`, the output's holding anything —
    reaches its continuation with the inputs' as they were and the output's at `out1_3 x0 x1 x2`. The printed
    function is its skeleton of three loads, one unused load of the output and one store; the symbolic executor
    runs it. -/
theorem sound_kernel1 (c : Dev nD) (E : Set ℕ) (i : grid1.Coords) (arg1 : Memref sig .tc .vmem S2000x384 .bf16) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x40 .f32) (harg4 : arg4.IsWhole)
    (x0 : Vec F S2000x384 .bf16) (x1 : Vec F S384x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__mm_bias_logsoftmax_kernel i arg1 harg1 arg2 harg2 arg3 harg3 arg4 harg4) K := by
  simp only [cc1__mm_bias_logsoftmax_kernel_eq_skeleton]; unfold cc1__mm_bias_logsoftmax_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The call's proof data -/

/-- What the launch theorems are told about this call on core `c`: its arrays as the call finds them; after the
    body at point `t` each input buffer at its block and the output buffer at `out1_3` of the three blocks; the
    invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorems' body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRun.lean ====
/-
  The whole program as a chain of twelve items — ten stretches of host operations and the two pallas_calls —
  and what every buffer holds between items.

  Between items the TensorCore's unscoped buffers hold a valuation: the launch memory (`W0`), then after each
  host stretch the stretch's operations folded over the valuation before it, and after each pallas_call the
  valuation before it with the call's output array replaced by what the call's write-backs leave (the blocks of
  `dat0` / `dat1` folded over the 25 grid points) and everything else as it was. No host operation writes an
  argument of the program and no argument is an array of a pallas_call, so each argument reaches the end as
  launched; the result buffer `main_v113` is the second call's output array, so it ends at that call's fold.
  The launch theorem for a program of several pallas_calls turns this chain, the two body obligations and the
  layout facts into: every weakly fair execution terminates, faults nowhere, and ends in that state.
  Stated at an arbitrary float instance.
-/
import proofs.«136246_j62663572848803_1_alg».proof.Proof.IdealBody0
import proofs.«136246_j62663572848803_1_alg».proof.Proof.IdealBody1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each host stretch writes -/

/-- The references the operations of `main_part0_ops0` write. -/
abbrev wr0 : List (Ref sig .tc) := [main_v0, main_v1, main_v2, main_v3, main_cst, main_v4, main_cst_0, main_v5, main_v6, main_v7, main_cst_1, main_v8, main_v9, main_cst_2, main_v10, main_v11, main_v12, main_cst_3]
theorem wr0_sub : (main_part0_ops0 : List (HloOp τ sig (Elt F))).Forall fun op => op.writes ⊆ (wr0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `main_part0_ops0` allocates a buffer. -/
theorem fresh0 : (main_part0_ops0 : List (HloOp τ sig (Elt F))).Forall fun op => op.fresh = ∅ := by
  simp only [List.Forall]; repeat' constructor
/-- The references the operations of `main_part0_ops1` write. -/
abbrev wr1 : List (Ref sig .tc) := [main_call0_v0, main_call0_v1, main_v13]
theorem wr1_sub : (main_part0_ops1 : List (HloOp τ sig (Elt F))).Forall fun op => op.writes ⊆ (wr1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `main_part0_ops1` allocates a buffer. -/
theorem fresh1 : (main_part0_ops1 : List (HloOp τ sig (Elt F))).Forall fun op => op.fresh = ∅ := by
  simp only [List.Forall]; repeat' constructor
/-- The references the operations of `main_part0_ops2` write. -/
abbrev wr2 : List (Ref sig .tc) := [main_c, main_v14, main_v15, main_c_4, main_v16, main_v17, main_v18, main_v19, main_v20, main_v21, main_c_5, main_v22, main_v23, main_c_6, main_v24, main_v25, main_v26, main_v27, main_v28, main_v29, main_c_7, main_v30, main_v31, main_c_8, main_v32, main_v33, main_v34, main_v35, main_v36, main_v37, main_v38, main_v39, main_cst_9, main_v40, main_v41, main_v42, main_c_10, main_v43, main_v44, main_c_11, main_v45]
theorem wr2_sub : (main_part0_ops2 : List (HloOp τ sig (Elt F))).Forall fun op => op.writes ⊆ (wr2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `main_part0_ops2` allocates a buffer. -/
theorem fresh2 : (main_part0_ops2 : List (HloOp τ sig (Elt F))).Forall fun op => op.fresh = ∅ := by
  simp only [List.Forall]; repeat' constructor
/-- The references the operations of `main_part1_ops0` write. -/
abbrev wr3 : List (Ref sig .tc) := [main_v46, main_v47, main_v48, main_v49, main_v50, main_v51, main_v52, main_cst_12, main_v53, main_v54, main_v55, main_cst_13, main_v56, main_v57, main_v58, main_v59, main_v60, main_v61, main_v62, main_v63, main_v64, main_v65, main_v66, main_v67, main_v68, main_v69]
theorem wr3_sub : (main_part1_ops0 : List (HloOp τ sig (Elt F))).Forall fun op => op.writes ⊆ (wr3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `main_part1_ops0` allocates a buffer. -/
theorem fresh3 : (main_part1_ops0 : List (HloOp τ sig (Elt F))).Forall fun op => op.fresh = ∅ := by
  simp only [List.Forall]; repeat' constructor
/-- The references the operations of `main_part1_ops1` write. -/
abbrev wr4 : List (Ref sig .tc) := [main_c_14, main_v71, main_v72, main_c_15, main_v73, main_v74, main_v75, main_v76, main_v77, main_v78, main_v79, main_v80, main_cst_16, main_v81, main_v82, main_v83, main_c_17, main_v84, main_v85, main_c_18, main_v86, main_v87, main_v88, main_v89, main_v90, main_v91, main_v92, main_v93, main_cst_19, main_v94, main_v95, main_v96, main_cst_20]
theorem wr4_sub : (main_part1_ops1 : List (HloOp τ sig (Elt F))).Forall fun op => op.writes ⊆ (wr4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `main_part1_ops1` allocates a buffer. -/
theorem fresh4 : (main_part1_ops1 : List (HloOp τ sig (Elt F))).Forall fun op => op.fresh = ∅ := by
  simp only [List.Forall]; repeat' constructor
/-- The references the operations of `main_part2_ops0` write. -/
abbrev wr5 : List (Ref sig .tc) := [main_v97, main_v98, main_v99, main_v100, main_v101, main_v102, main_v103, main_v104, main_v105, main_v106, main_v107, main_v108, main_c_21]
theorem wr5_sub : (main_part2_ops0 : List (HloOp τ sig (Elt F))).Forall fun op => op.writes ⊆ (wr5.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `main_part2_ops0` allocates a buffer. -/
theorem fresh5 : (main_part2_ops0 : List (HloOp τ sig (Elt F))).Forall fun op => op.fresh = ∅ := by
  simp only [List.Forall]; repeat' constructor
/-- The references the operations of `main_part2_ops1` write. -/
abbrev wr6 : List (Ref sig .tc) := [main_call1_v0, main_v109]
theorem wr6_sub : (main_part2_ops1 : List (HloOp τ sig (Elt F))).Forall fun op => op.writes ⊆ (wr6.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `main_part2_ops1` allocates a buffer. -/
theorem fresh6 : (main_part2_ops1 : List (HloOp τ sig (Elt F))).Forall fun op => op.fresh = ∅ := by
  simp only [List.Forall]; repeat' constructor
/-- The references the operations of `main_part2_ops2` write. -/
abbrev wr7 : List (Ref sig .tc) := [main_v110, main_c_22]
theorem wr7_sub : (main_part2_ops2 : List (HloOp τ sig (Elt F))).Forall fun op => op.writes ⊆ (wr7.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `main_part2_ops2` allocates a buffer. -/
theorem fresh7 : (main_part2_ops2 : List (HloOp τ sig (Elt F))).Forall fun op => op.fresh = ∅ := by
  simp only [List.Forall]; repeat' constructor
/-- The references the operations of `main_part2_ops3` write. -/
abbrev wr8 : List (Ref sig .tc) := [main_call2_v0, main_v111]
theorem wr8_sub : (main_part2_ops3 : List (HloOp τ sig (Elt F))).Forall fun op => op.writes ⊆ (wr8.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `main_part2_ops3` allocates a buffer. -/
theorem fresh8 : (main_part2_ops3 : List (HloOp τ sig (Elt F))).Forall fun op => op.fresh = ∅ := by
  simp only [List.Forall]; repeat' constructor
/-- The references the operations of `main_part2_ops4` write. -/
abbrev wr9 : List (Ref sig .tc) := [main_v112]
theorem wr9_sub : (main_part2_ops4 : List (HloOp τ sig (Elt F))).Forall fun op => op.writes ⊆ (wr9.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `main_part2_ops4` allocates a buffer. -/
theorem fresh9 : (main_part2_ops4 : List (HloOp τ sig (Elt F))).Forall fun op => op.fresh = ∅ := by
  simp only [List.Forall]; repeat' constructor

/-! ## The buffers' contents between items -/

/-- At launch. -/
abbrev W0 : Dev nD → Valuation τ sig (Elt F) := fun c b => (s₀ m ρ).mem ((c : Dev nD), b)
/-- After `main_part0_ops0`. -/
abbrev W1 : Dev nD → Valuation τ sig (Elt F) := fun c => StableHlo.after main_part0_ops0 (W0 m ρ c)
/-- After `main_part0_ops1`. -/
abbrev W2 : Dev nD → Valuation τ sig (Elt F) := fun c => StableHlo.after main_part0_ops1 (W1 m ρ c)
/-- After `main_part0_ops2`. -/
abbrev W3 : Dev nD → Valuation τ sig (Elt F) := fun c => StableHlo.after main_part0_ops2 (W2 m ρ c)
/-- After `main_part1_ops0`. -/
abbrev W4 : Dev nD → Valuation τ sig (Elt F) := fun c => StableHlo.after main_part1_ops0 (W3 m ρ c)
/-- The same read at the TensorCore's references: what pallas_call 0 finds. -/
abbrev V4 : (c : Dev nD) → (b : Ref sig .tc) → Buf (Elt F) ((c : Thread nD τ).loc b) := fun c b => W4 m ρ c b
/-- After pallas_call 0: its arrays at what the write-backs leave (each input as entered, the output's blocks
    folded over the grid), every other buffer as entered. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
abbrev V5 : (c : Dev nD) → (b : Ref sig .tc) → Buf (Elt F) ((c : Thread nD τ).loc b) := fun c b => W5 m ρ c b
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)
/-- After `main_part1_ops1`. -/
abbrev W6 : Dev nD → Valuation τ sig (Elt F) := fun c => StableHlo.after main_part1_ops1 (W5 m ρ c)
/-- After `main_part2_ops0`. -/
abbrev W7 : Dev nD → Valuation τ sig (Elt F) := fun c => StableHlo.after main_part2_ops0 (W6 m ρ c)
/-- After `main_part2_ops1`. -/
abbrev W8 : Dev nD → Valuation τ sig (Elt F) := fun c => StableHlo.after main_part2_ops1 (W7 m ρ c)
/-- After `main_part2_ops2`. -/
abbrev W9 : Dev nD → Valuation τ sig (Elt F) := fun c => StableHlo.after main_part2_ops2 (W8 m ρ c)
/-- After `main_part2_ops3`. -/
abbrev W10 : Dev nD → Valuation τ sig (Elt F) := fun c => StableHlo.after main_part2_ops3 (W9 m ρ c)
/-- After `main_part2_ops4`. -/
abbrev W11 : Dev nD → Valuation τ sig (Elt F) := fun c => StableHlo.after main_part2_ops4 (W10 m ρ c)
/-- The same read at the TensorCore's references: what pallas_call 1 finds. -/
abbrev V11 : (c : Dev nD) → (b : Ref sig .tc) → Buf (Elt F) ((c : Thread nD τ).loc b) := fun c b => W11 m ρ c b
/-- After pallas_call 1: its arrays at what the write-backs leave (each input as entered, the output's blocks
    folded over the grid), every other buffer as entered. -/
def W12 (c : Dev nD) : Valuation τ sig (Elt F) :=
  Pipeline.withArrays spec1 c (W11 m ρ c) fun w => (dat1 (V11 m ρ) c).arrAt w cfg1.N
theorem W12_arr (c : Dev nD) (w : Fin cfg1.W) :
    W12 m ρ c (Proc.devRef .tc (Pipeline.arrRef spec1 w)) = (dat1 (V11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
abbrev V12 : (c : Dev nD) → (b : Ref sig .tc) → Buf (Elt F) ((c : Thread nD τ).loc b) := fun c b => W12 m ρ c b
theorem hF1 (c : Dev nD) (w : Fin cfg1.W) : (dat1 (V11 m ρ) c).arrAt w cfg1.N = V12 m ρ c (Pipeline.arrRef spec1 w) :=
  (W12_arr m ρ c w).symm
theorem hrest1 (c : Dev nD) : ∀ b, b ∉ Finset.univ.image (Pipeline.arrRef spec1) → V12 m ρ c b = V11 m ρ c b :=
  fun b hb => W12_of_ne m ρ c b fun w e => hb (Finset.mem_image.mpr ⟨w, Finset.mem_univ _, e⟩)

/-! ## The arguments end as launched -/

/-- A reference that no host stretch writes and that is no array of either pallas_call holds, after the last item,
    what it held at launch: each item in turn leaves it alone. -/
theorem W12_kept (c : Dev nD) (r : Ref sig .tc) (h0 : r ∉ wr0) (h1 : r ∉ wr1) (h2 : r ∉ wr2) (h3 : r ∉ wr3) (h4 : r ∉ wr4) (h5 : r ∉ wr5)
    (h6 : r ∉ wr6) (h7 : r ∉ wr7) (h8 : r ∉ wr8) (h9 : r ∉ wr9) (ha0 : ∀ w, Pipeline.arrRef spec0 w ≠ r) (ha1 : ∀ w, Pipeline.arrRef spec1 w ≠ r) :
    W12 m ρ c (Proc.devRef .tc r) = m ((c : Thread nD τ).loc r) :=
  calc W12 m ρ c (Proc.devRef .tc r)
    _ = W11 m ρ c (Proc.devRef .tc r) := W12_of_ne m ρ c r ha1
    _ = W10 m ρ c (Proc.devRef .tc r) := StableHlo.after_of_writes_sub main_part2_ops4 _ wr9_sub h9
    _ = W9 m ρ c (Proc.devRef .tc r) := StableHlo.after_of_writes_sub main_part2_ops3 _ wr8_sub h8
    _ = W8 m ρ c (Proc.devRef .tc r) := StableHlo.after_of_writes_sub main_part2_ops2 _ wr7_sub h7
    _ = W7 m ρ c (Proc.devRef .tc r) := StableHlo.after_of_writes_sub main_part2_ops1 _ wr6_sub h6
    _ = W6 m ρ c (Proc.devRef .tc r) := StableHlo.after_of_writes_sub main_part2_ops0 _ wr5_sub h5
    _ = W5 m ρ c (Proc.devRef .tc r) := StableHlo.after_of_writes_sub main_part1_ops1 _ wr4_sub h4
    _ = W4 m ρ c (Proc.devRef .tc r) := W5_of_ne m ρ c r ha0
    _ = W3 m ρ c (Proc.devRef .tc r) := StableHlo.after_of_writes_sub main_part1_ops0 _ wr3_sub h3
    _ = W2 m ρ c (Proc.devRef .tc r) := StableHlo.after_of_writes_sub main_part0_ops2 _ wr2_sub h2
    _ = W1 m ρ c (Proc.devRef .tc r) := StableHlo.after_of_writes_sub main_part0_ops1 _ wr1_sub h1
    _ = W0 m ρ c (Proc.devRef .tc r) := StableHlo.after_of_writes_sub main_part0_ops0 _ wr0_sub h0
    _ = m ((c : Thread nD τ).loc r) := rfl
theorem W12_main_arg0 (c : Dev nD) : W12 m ρ c (Proc.devRef .tc main_arg0) = m ((c : Thread nD τ).loc main_arg0) :=
  W12_kept m ρ c main_arg0 (by decide) (by decide) (by decide) (by decide) (by decide) (by decide) (by decide) (by decide) (by decide) (by decide) (by decide) (by decide)
theorem W12_main_arg1 (c : Dev nD) : W12 m ρ c (Proc.devRef .tc main_arg1) = m ((c : Thread nD τ).loc main_arg1) :=
  W12_kept m ρ c main_arg1 (by decide) (by decide) (by decide) (by decide) (by decide) (by decide) (by decide) (by decide) (by decide) (by decide) (by decide) (by decide)
theorem W12_main_arg2 (c : Dev nD) : W12 m ρ c (Proc.devRef .tc main_arg2) = m ((c : Thread nD τ).loc main_arg2) :=
  W12_kept m ρ c main_arg2 (by decide) (by decide) (by decide) (by decide) (by decide) (by decide) (by decide) (by decide) (by decide) (by decide) (by decide) (by decide)
theorem W12_main_arg3 (c : Dev nD) : W12 m ρ c (Proc.devRef .tc main_arg3) = m ((c : Thread nD τ).loc main_arg3) :=
  W12_kept m ρ c main_arg3 (by decide) (by decide) (by decide) (by decide) (by decide) (by decide) (by decide) (by decide) (by decide) (by decide) (by decide) (by decide)
theorem W12_main_arg4 (c : Dev nD) : W12 m ρ c (Proc.devRef .tc main_arg4) = m ((c : Thread nD τ).loc main_arg4) :=
  W12_kept m ρ c main_arg4 (by decide) (by decide) (by decide) (by decide) (by decide) (by decide) (by decide) (by decide) (by decide) (by decide) (by decide) (by decide)
theorem W12_main_arg5 (c : Dev nD) : W12 m ρ c (Proc.devRef .tc main_arg5) = m ((c : Thread nD τ).loc main_arg5) :=
  W12_kept m ρ c main_arg5 (by decide) (by decide) (by decide) (by decide) (by decide) (by decide) (by decide) (by decide) (by decide) (by decide) (by decide) (by decide)

/-! ## The proof data family and the thread state -/

/-- No pallas_call has a prefetched table. -/
abbrev adm : (p : Fin 2) → (pcfgs (F := F) p).Adm := fun p => (cfgs p).toPCfg_adm
/-- Both calls' proof data, each at its entry valuation — a literal match on the call's number. -/
def pdats : (p : Fin 2) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along; it ends with those
    references at the stretch's operations folded over `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last valuation, the generator register at some state. -/
abbrev Tₙ (c : Dev nD) : sProp 𝕄 := iprop(StableHlo.held (c : Thread nD τ) (Pipeline.ucRefs τ sig) (W12 m ρ c) ∗ ∃ r, prngReg c r)

/-! ## The pallas_calls as segments -/

-- unifying a library lemma stated over the pinned configuration with the printed one unfolds plain definitions in a metavariable's type
set_option backward.isDefEq.respectTransparency.types false in
/-- pallas_call 0 as a segment over the thread state "every unscoped buffer at the boundary's contents, the generator
    register at some state, nothing owed": entered at `W4`, left at `W5`. Its arrays are split out of the unscoped
    buffers and put back at the exit contents; the generator register goes into the call's invariant and comes out;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a metavariable's type
set_option backward.isDefEq.respectTransparency.types false in
/-- pallas_call 1 as a segment over the thread state "every unscoped buffer at the boundary's contents, the generator
    register at some state, nothing owed": entered at `W11`, left at `W12`. Its arrays are split out of the unscoped
    buffers and put back at the exit contents; the generator register goes into the call's invariant and comes out;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V11 m ρ c) (V12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The twelve items in order. -/
abbrev segs : List (Pipeline.Seg (pcfgs (F := F)) adm (pdats m ρ) () defs₀ 𝒱₀ L lv) :=
  [
    .host (hseg main_part0_ops0 main_part0_ops0_sub fresh0 (W0 m ρ)),
    .host (hseg main_part0_ops1 main_part0_ops1_sub fresh1 (W1 m ρ)),
    .host (hseg main_part0_ops2 main_part0_ops2_sub fresh2 (W2 m ρ)),
    .host (hseg main_part1_ops0 main_part1_ops0_sub fresh3 (W3 m ρ)),
    .region (reg0 m ρ),
    .host (hseg main_part1_ops1 main_part1_ops1_sub fresh4 (W5 m ρ)),
    .host (hseg main_part2_ops0 main_part2_ops0_sub fresh5 (W6 m ρ)),
    .host (hseg main_part2_ops1 main_part2_ops1_sub fresh6 (W7 m ρ)),
    .host (hseg main_part2_ops2 main_part2_ops2_sub fresh7 (W8 m ρ)),
    .host (hseg main_part2_ops3 main_part2_ops3_sub fresh8 (W9 m ρ)),
    .host (hseg main_part2_ops4 main_part2_ops4_sub fresh9 (W10 m ρ)),
    .region (reg1 m ρ) ]
/-- The program IS the run of the segments: its text is the chain of these items. -/
theorem main_run (c : Dev nD) : main (F := F) c = Pipeline.Seg.run (segs m ρ) := (main_chain_windows c).trans (by chain_rfl)

set_option backward.isDefEq.respectTransparency.types false in
/-- THE RUN. From any memory with zero counters, every weakly fair execution of the program on the TensorCores
    terminates, nothing faulting, and every final state has the result buffer at the second call's fold and the six
    argument arrays as launched. -/
theorem run_main : θ_run defs (onTc (τ := τ) (main (F := F))) ⟨m, fun _ => 0, ρ⟩ (fun r => ∀ c : Dev nD,
      r.2.mem ((c.tc : Thread nD τ).loc main_v113) = (dat1 (V11 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨(h c _ (mem_uc main_v113 (by decide))).trans (W12_arr m ρ c 3),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c)⟩)

/-- The frame: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.KernelIdeal.Hand

end
-- ==== Proof.BitsBody0.lean ====
/-
  The first pallas_call (matrix product, bias, relu) as a block-by-block map: what its body leaves in the block it is handed.
  The call walks its 25 grid points; at point t it is handed rows 2000·t … 2000·t + 1999 of the [50000, 384]
  activation array (window 0), the whole [384, *] weight array (window 1) and the [1, 128] bias row (window 2),
  the last two fetched once and then kept. The body reads each handed block whole, also reads its output block
  (a value it never uses), and writes the output block ONCE, whole: the pure value `k0_pay1` of the three
  blocks it read. So after the body the output's staging buffer holds exactly that value
  (`out0_3`, a one-piece `View.canon`), and every input's buffer holds what it was handed. Everything
  here is stated at an arbitrary float instance and at an arbitrary valuation `V` of the buffers when the
  call is entered; the run instantiates `V`.
-/
import proofs.«136246_j62663572848803_1_alg».proof.Proof.Gen.Kernel.Launch
import proofs.«136246_j62663572848803_1_alg».proof.Proof.Gen.Kernel.Skeleton
import proofs.«136246_j62663572848803_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 2000-long axis is looked at once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-! ## The blocks the call is handed -/

/-- Window `w`'s block at grid point `t`: the part of the window's array (as the call finds it) that the
    window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point — whether the block was fetched at
    that point or, the index map not having moved, kept from the point before — for any proof data over the
    entry valuation whose body leaves the block in place. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is a whole block -/

abbrev r0_0 : Rect S2000x384 := Rect.unit (s := S2000x384) ![0, 0] S2000x384.size inb_S2000x384_S2000x384_0_0
abbrev r0_1 : Rect S384x128 := Rect.unit (s := S384x128) ![0, 0] S384x128.size inb_S384x128_S384x128_0_0
abbrev r0_2 : Rect S1x128 := Rect.unit (s := S1x128) ![0, 0] S1x128.size inb_S1x128_S1x128_0_0
abbrev r0_3 : Rect S2000x128 := Rect.unit (s := S2000x128) ![0, 0] S2000x128.size inb_S2000x128_S2000x128_0_0

/-! ## What the body leaves in the output block -/

/-- The output window's staging buffer after the body, as a function of the three input blocks: its one store,
    the body's arithmetic on the blocks read whole. -/
def out0_3 (x0 : Vec F S2000x384 .bf16) (x1 : Vec F S384x128 .bf16) (x2 : Vec F S1x128 .f32) : Vec F S2000x128 .f32 :=
  View.canon [⟨r0_3, k0_pay1 (View.ld x0 r0_0) (View.ld x1 r0_1) (View.ld x2 r0_2)⟩]

/-- The one store is of the whole block, so it covers every index of it. -/
theorem cover0_3 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

/-! ## The body's triple -/

set_option maxHeartbeats 1000000 in
/-- The body, run on whole staging memrefs — the three inputs' holding `x0 x1 x2`, the output's holding anything —
    reaches its continuation with the inputs' as they were and the output's at `out0_3 x0 x1 x2`. The printed
    function is its skeleton of three loads, one unused load of the output and one store; the symbolic executor
    runs it. -/
theorem sound_kernel0 (c : Dev nD) (E : Set ℕ) (i : grid0.Coords) (arg1 : Memref sig .tc .vmem S2000x384 .bf16) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x128 .f32) (harg4 : arg4.IsWhole)
    (x0 : Vec F S2000x384 .bf16) (x1 : Vec F S384x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__mm_bias_relu_kernel i arg1 harg1 arg2 harg2 arg3 harg3 arg4 harg4) K := by
  simp only [cc0__mm_bias_relu_kernel_eq_skeleton]; unfold cc0__mm_bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The call's proof data -/

/-- What the launch theorems are told about this call on core `c`: its arrays as the call finds them; after the
    body at point `t` each input buffer at its block and the output buffer at `out0_3` of the three blocks; the
    invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorems' body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsBody1.lean ====
/-
  The second pallas_call (matrix product, bias, log-softmax over the 40 real columns of 128 lanes) as a block-by-block map: what its body leaves in the block it is handed.
  The call walks its 25 grid points; at point t it is handed rows 2000·t … 2000·t + 1999 of the [50000, 384]
  activation array (window 0), the whole [384, *] weight array (window 1) and the [1, 128] bias row (window 2),
  the last two fetched once and then kept. The body reads each handed block whole, also reads its output block
  (a value it never uses), and writes the output block ONCE, whole: the pure value `k1_pay1` of the three
  blocks it read. So after the body the output's staging buffer holds exactly that value
  (`out1_3`, a one-piece `View.canon`), and every input's buffer holds what it was handed. Everything
  here is stated at an arbitrary float instance and at an arbitrary valuation `V` of the buffers when the
  call is entered; the run instantiates `V`.
-/
import proofs.«136246_j62663572848803_1_alg».proof.Proof.Gen.Kernel.Launch
import proofs.«136246_j62663572848803_1_alg».proof.Proof.Gen.Kernel.Skeleton
import proofs.«136246_j62663572848803_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 2000-long axis is looked at once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-! ## The blocks the call is handed -/

/-- Window `w`'s block at grid point `t`: the part of the window's array (as the call finds it) that the
    window's index map selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point — whether the block was fetched at
    that point or, the index map not having moved, kept from the point before — for any proof data over the
    entry valuation whose body leaves the block in place. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is a whole block -/

abbrev r1_0 : Rect S2000x384 := Rect.unit (s := S2000x384) ![0, 0] S2000x384.size inb_S2000x384_S2000x384_0_0
abbrev r1_1 : Rect S384x128 := Rect.unit (s := S384x128) ![0, 0] S384x128.size inb_S384x128_S384x128_0_0
abbrev r1_2 : Rect S1x128 := Rect.unit (s := S1x128) ![0, 0] S1x128.size inb_S1x128_S1x128_0_0
abbrev r1_3 : Rect S2000x40 := Rect.unit (s := S2000x40) ![0, 0] S2000x40.size inb_S2000x40_S2000x40_0_0

/-! ## What the body leaves in the output block -/

/-- The output window's staging buffer after the body, as a function of the three input blocks: its one store,
    the body's arithmetic on the blocks read whole. -/
def out1_3 (x0 : Vec F S2000x384 .bf16) (x1 : Vec F S384x128 .bf16) (x2 : Vec F S1x128 .f32) : Vec F S2000x40 .f32 :=
  View.canon [⟨r1_3, k1_pay1 (View.ld x0 r1_0) (View.ld x1 r1_1) (View.ld x2 r1_2)⟩]

/-- The one store is of the whole block, so it covers every index of it. -/
theorem cover1_3 (p0 : Vec F S2000x40 .f32) (y : S2000x40.Idx) :
    ∃ pc ∈ ([⟨r1_3, p0⟩] : List (View.Piece (Elt F) S2000x40 .f32)), y ∈ pc.1.set :=
  View.cover_of_tiled [⟨r1_3, p0⟩] S2000x40.size (by rfl) y

/-! ## The body's triple -/

set_option maxHeartbeats 1000000 in
/-- The body, run on whole staging memrefs — the three inputs' holding `x0 x1 x2`, the output's holding anything —
    reaches its continuation with the inputs' as they were and the output's at `out1_3 x0 x1 x2`. The printed
    function is its skeleton of three loads, one unused load of the output and one store; the symbolic executor
    runs it. -/
theorem sound_kernel1 (c : Dev nD) (E : Set ℕ) (i : grid1.Coords) (arg1 : Memref sig .tc .vmem S2000x384 .bf16) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x40 .f32) (harg4 : arg4.IsWhole)
    (x0 : Vec F S2000x384 .bf16) (x1 : Vec F S384x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__mm_bias_logsoftmax_kernel i arg1 harg1 arg2 harg2 arg3 harg3 arg4 harg4) K := by
  simp only [cc1__mm_bias_logsoftmax_kernel_eq_skeleton]; unfold cc1__mm_bias_logsoftmax_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The call's proof data -/

/-- What the launch theorems are told about this call on core `c`: its arrays as the call finds them; after the
    body at point `t` each input buffer at its block and the output buffer at `out1_3` of the three blocks; the
    invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorems' body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.lean ====
/-
  The whole program as a chain of twelve items — ten stretches of host operations and the two pallas_calls —
  and what every buffer holds between items.

  Between items the TensorCore's unscoped buffers hold a valuation: the launch memory (`W0`), then after each
  host stretch the stretch's operations folded over the valuation before it, and after each pallas_call the
  valuation before it with the call's output array replaced by what the call's write-backs leave (the blocks of
  `dat0` / `dat1` folded over the 25 grid points) and everything else as it was. No host operation writes an
  argument of the program and no argument is an array of a pallas_call, so each argument reaches the end as
  launched; the result buffer `main_v113` is the second call's output array, so it ends at that call's fold.
  The launch theorem for a program of several pallas_calls turns this chain, the two body obligations and the
  layout facts into: every weakly fair execution terminates, faults nowhere, and ends in that state.
  Stated at an arbitrary float instance.
-/
import proofs.«136246_j62663572848803_1_alg».proof.Proof.BitsBody0
import proofs.«136246_j62663572848803_1_alg».proof.Proof.BitsBody1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each host stretch writes -/

/-- The references the operations of `main_part0_ops0` write. -/
abbrev wr0 : List (Ref sig .tc) := [main_v0, main_v1, main_v2, main_v3, main_cst, main_v4, main_cst_0, main_v5, main_v6, main_v7, main_cst_1, main_v8, main_v9, main_cst_2, main_v10, main_v11, main_v12, main_cst_3]
theorem wr0_sub : (main_part0_ops0 : List (HloOp τ sig (Elt F))).Forall fun op => op.writes ⊆ (wr0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `main_part0_ops0` allocates a buffer. -/
theorem fresh0 : (main_part0_ops0 : List (HloOp τ sig (Elt F))).Forall fun op => op.fresh = ∅ := by
  simp only [List.Forall]; repeat' constructor
/-- The references the operations of `main_part0_ops1` write. -/
abbrev wr1 : List (Ref sig .tc) := [main_call0_v0, main_call0_v1, main_v13]
theorem wr1_sub : (main_part0_ops1 : List (HloOp τ sig (Elt F))).Forall fun op => op.writes ⊆ (wr1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `main_part0_ops1` allocates a buffer. -/
theorem fresh1 : (main_part0_ops1 : List (HloOp τ sig (Elt F))).Forall fun op => op.fresh = ∅ := by
  simp only [List.Forall]; repeat' constructor
/-- The references the operations of `main_part0_ops2` write. -/
abbrev wr2 : List (Ref sig .tc) := [main_c, main_v14, main_v15, main_c_4, main_v16, main_v17, main_v18, main_v19, main_v20, main_v21, main_c_5, main_v22, main_v23, main_c_6, main_v24, main_v25, main_v26, main_v27, main_v28, main_v29, main_c_7, main_v30, main_v31, main_c_8, main_v32, main_v33, main_v34, main_v35, main_v36, main_v37, main_v38, main_v39, main_cst_9, main_v40, main_v41, main_v42, main_c_10, main_v43, main_v44, main_c_11, main_v45]
theorem wr2_sub : (main_part0_ops2 : List (HloOp τ sig (Elt F))).Forall fun op => op.writes ⊆ (wr2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `main_part0_ops2` allocates a buffer. -/
theorem fresh2 : (main_part0_ops2 : List (HloOp τ sig (Elt F))).Forall fun op => op.fresh = ∅ := by
  simp only [List.Forall]; repeat' constructor
/-- The references the operations of `main_part1_ops0` write. -/
abbrev wr3 : List (Ref sig .tc) := [main_v46, main_v47, main_v48, main_v49, main_v50, main_v51, main_v52, main_cst_12, main_v53, main_v54, main_v55, main_cst_13, main_v56, main_v57, main_v58, main_v59, main_v60, main_v61, main_v62, main_v63, main_v64, main_v65, main_v66, main_v67, main_v68, main_v69]
theorem wr3_sub : (main_part1_ops0 : List (HloOp τ sig (Elt F))).Forall fun op => op.writes ⊆ (wr3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `main_part1_ops0` allocates a buffer. -/
theorem fresh3 : (main_part1_ops0 : List (HloOp τ sig (Elt F))).Forall fun op => op.fresh = ∅ := by
  simp only [List.Forall]; repeat' constructor
/-- The references the operations of `main_part1_ops1` write. -/
abbrev wr4 : List (Ref sig .tc) := [main_c_14, main_v71, main_v72, main_c_15, main_v73, main_v74, main_v75, main_v76, main_v77, main_v78, main_v79, main_v80, main_cst_16, main_v81, main_v82, main_v83, main_c_17, main_v84, main_v85, main_c_18, main_v86, main_v87, main_v88, main_v89, main_v90, main_v91, main_v92, main_v93, main_cst_19, main_v94, main_v95, main_v96, main_cst_20]
theorem wr4_sub : (main_part1_ops1 : List (HloOp τ sig (Elt F))).Forall fun op => op.writes ⊆ (wr4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `main_part1_ops1` allocates a buffer. -/
theorem fresh4 : (main_part1_ops1 : List (HloOp τ sig (Elt F))).Forall fun op => op.fresh = ∅ := by
  simp only [List.Forall]; repeat' constructor
/-- The references the operations of `main_part2_ops0` write. -/
abbrev wr5 : List (Ref sig .tc) := [main_v97, main_v98, main_v99, main_v100, main_v101, main_v102, main_v103, main_v104, main_v105, main_v106, main_v107, main_v108, main_c_21]
theorem wr5_sub : (main_part2_ops0 : List (HloOp τ sig (Elt F))).Forall fun op => op.writes ⊆ (wr5.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `main_part2_ops0` allocates a buffer. -/
theorem fresh5 : (main_part2_ops0 : List (HloOp τ sig (Elt F))).Forall fun op => op.fresh = ∅ := by
  simp only [List.Forall]; repeat' constructor
/-- The references the operations of `main_part2_ops1` write. -/
abbrev wr6 : List (Ref sig .tc) := [main_call1_v0, main_v109]
theorem wr6_sub : (main_part2_ops1 : List (HloOp τ sig (Elt F))).Forall fun op => op.writes ⊆ (wr6.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `main_part2_ops1` allocates a buffer. -/
theorem fresh6 : (main_part2_ops1 : List (HloOp τ sig (Elt F))).Forall fun op => op.fresh = ∅ := by
  simp only [List.Forall]; repeat' constructor
/-- The references the operations of `main_part2_ops2` write. -/
abbrev wr7 : List (Ref sig .tc) := [main_v110, main_c_22]
theorem wr7_sub : (main_part2_ops2 : List (HloOp τ sig (Elt F))).Forall fun op => op.writes ⊆ (wr7.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `main_part2_ops2` allocates a buffer. -/
theorem fresh7 : (main_part2_ops2 : List (HloOp τ sig (Elt F))).Forall fun op => op.fresh = ∅ := by
  simp only [List.Forall]; repeat' constructor
/-- The references the operations of `main_part2_ops3` write. -/
abbrev wr8 : List (Ref sig .tc) := [main_call2_v0, main_v111]
theorem wr8_sub : (main_part2_ops3 : List (HloOp τ sig (Elt F))).Forall fun op => op.writes ⊆ (wr8.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `main_part2_ops3` allocates a buffer. -/
theorem fresh8 : (main_part2_ops3 : List (HloOp τ sig (Elt F))).Forall fun op => op.fresh = ∅ := by
  simp only [List.Forall]; repeat' constructor
/-- The references the operations of `main_part2_ops4` write. -/
abbrev wr9 : List (Ref sig .tc) := [main_v112]
theorem wr9_sub : (main_part2_ops4 : List (HloOp τ sig (Elt F))).Forall fun op => op.writes ⊆ (wr9.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- No operation of `main_part2_ops4` allocates a buffer. -/
theorem fresh9 : (main_part2_ops4 : List (HloOp τ sig (Elt F))).Forall fun op => op.fresh = ∅ := by
  simp only [List.Forall]; repeat' constructor

/-! ## The buffers' contents between items -/

/-- At launch. -/
abbrev W0 : Dev nD → Valuation τ sig (Elt F) := fun c b => (s₀ m ρ).mem ((c : Dev nD), b)
/-- After `main_part0_ops0`. -/
abbrev W1 : Dev nD → Valuation τ sig (Elt F) := fun c => StableHlo.after main_part0_ops0 (W0 m ρ c)
/-- After `main_part0_ops1`. -/
abbrev W2 : Dev nD → Valuation τ sig (Elt F) := fun c => StableHlo.after main_part0_ops1 (W1 m ρ c)
/-- After `main_part0_ops2`. -/
abbrev W3 : Dev nD → Valuation τ sig (Elt F) := fun c => StableHlo.after main_part0_ops2 (W2 m ρ c)
/-- After `main_part1_ops0`. -/
abbrev W4 : Dev nD → Valuation τ sig (Elt F) := fun c => StableHlo.after main_part1_ops0 (W3 m ρ c)
/-- The same read at the TensorCore's references: what pallas_call 0 finds. -/
abbrev V4 : (c : Dev nD) → (b : Ref sig .tc) → Buf (Elt F) ((c : Thread nD τ).loc b) := fun c b => W4 m ρ c b
/-- After pallas_call 0: its arrays at what the write-backs leave (each input as entered, the output's blocks
    folded over the grid), every other buffer as entered. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
abbrev V5 : (c : Dev nD) → (b : Ref sig .tc) → Buf (Elt F) ((c : Thread nD τ).loc b) := fun c b => W5 m ρ c b
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)
/-- After `main_part1_ops1`. -/
abbrev W6 : Dev nD → Valuation τ sig (Elt F) := fun c => StableHlo.after main_part1_ops1 (W5 m ρ c)
/-- After `main_part2_ops0`. -/
abbrev W7 : Dev nD → Valuation τ sig (Elt F) := fun c => StableHlo.after main_part2_ops0 (W6 m ρ c)
/-- After `main_part2_ops1`. -/
abbrev W8 : Dev nD → Valuation τ sig (Elt F) := fun c => StableHlo.after main_part2_ops1 (W7 m ρ c)
/-- After `main_part2_ops2`. -/
abbrev W9 : Dev nD → Valuation τ sig (Elt F) := fun c => StableHlo.after main_part2_ops2 (W8 m ρ c)
/-- After `main_part2_ops3`. -/
abbrev W10 : Dev nD → Valuation τ sig (Elt F) := fun c => StableHlo.after main_part2_ops3 (W9 m ρ c)
/-- After `main_part2_ops4`. -/
abbrev W11 : Dev nD → Valuation τ sig (Elt F) := fun c => StableHlo.after main_part2_ops4 (W10 m ρ c)
/-- The same read at the TensorCore's references: what pallas_call 1 finds. -/
abbrev V11 : (c : Dev nD) → (b : Ref sig .tc) → Buf (Elt F) ((c : Thread nD τ).loc b) := fun c b => W11 m ρ c b
/-- After pallas_call 1: its arrays at what the write-backs leave (each input as entered, the output's blocks
    folded over the grid), every other buffer as entered. -/
def W12 (c : Dev nD) : Valuation τ sig (Elt F) :=
  Pipeline.withArrays spec1 c (W11 m ρ c) fun w => (dat1 (V11 m ρ) c).arrAt w cfg1.N
theorem W12_arr (c : Dev nD) (w : Fin cfg1.W) :
    W12 m ρ c (Proc.devRef .tc (Pipeline.arrRef spec1 w)) = (dat1 (V11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
abbrev V12 : (c : Dev nD) → (b : Ref sig .tc) → Buf (Elt F) ((c : Thread nD τ).loc b) := fun c b => W12 m ρ c b
theorem hF1 (c : Dev nD) (w : Fin cfg1.W) : (dat1 (V11 m ρ) c).arrAt w cfg1.N = V12 m ρ c (Pipeline.arrRef spec1 w) :=
  (W12_arr m ρ c w).symm
theorem hrest1 (c : Dev nD) : ∀ b, b ∉ Finset.univ.image (Pipeline.arrRef spec1) → V12 m ρ c b = V11 m ρ c b :=
  fun b hb => W12_of_ne m ρ c b fun w e => hb (Finset.mem_image.mpr ⟨w, Finset.mem_univ _, e⟩)

/-! ## The arguments end as launched -/

/-- A reference that no host stretch writes and that is no array of either pallas_call holds, after the last item,
    what it held at launch: each item in turn leaves it alone. -/
theorem W12_kept (c : Dev nD) (r : Ref sig .tc) (h0 : r ∉ wr0) (h1 : r ∉ wr1) (h2 : r ∉ wr2) (h3 : r ∉ wr3) (h4 : r ∉ wr4) (h5 : r ∉ wr5)
    (h6 : r ∉ wr6) (h7 : r ∉ wr7) (h8 : r ∉ wr8) (h9 : r ∉ wr9) (ha0 : ∀ w, Pipeline.arrRef spec0 w ≠ r) (ha1 : ∀ w, Pipeline.arrRef spec1 w ≠ r) :
    W12 m ρ c (Proc.devRef .tc r) = m ((c : Thread nD τ).loc r) :=
  calc W12 m ρ c (Proc.devRef .tc r)
    _ = W11 m ρ c (Proc.devRef .tc r) := W12_of_ne m ρ c r ha1
    _ = W10 m ρ c (Proc.devRef .tc r) := StableHlo.after_of_writes_sub main_part2_ops4 _ wr9_sub h9
    _ = W9 m ρ c (Proc.devRef .tc r) := StableHlo.after_of_writes_sub main_part2_ops3 _ wr8_sub h8
    _ = W8 m ρ c (Proc.devRef .tc r) := StableHlo.after_of_writes_sub main_part2_ops2 _ wr7_sub h7
    _ = W7 m ρ c (Proc.devRef .tc r) := StableHlo.after_of_writes_sub main_part2_ops1 _ wr6_sub h6
    _ = W6 m ρ c (Proc.devRef .tc r) := StableHlo.after_of_writes_sub main_part2_ops0 _ wr5_sub h5
    _ = W5 m ρ c (Proc.devRef .tc r) := StableHlo.after_of_writes_sub main_part1_ops1 _ wr4_sub h4
    _ = W4 m ρ c (Proc.devRef .tc r) := W5_of_ne m ρ c r ha0
    _ = W3 m ρ c (Proc.devRef .tc r) := StableHlo.after_of_writes_sub main_part1_ops0 _ wr3_sub h3
    _ = W2 m ρ c (Proc.devRef .tc r) := StableHlo.after_of_writes_sub main_part0_ops2 _ wr2_sub h2
    _ = W1 m ρ c (Proc.devRef .tc r) := StableHlo.after_of_writes_sub main_part0_ops1 _ wr1_sub h1
    _ = W0 m ρ c (Proc.devRef .tc r) := StableHlo.after_of_writes_sub main_part0_ops0 _ wr0_sub h0
    _ = m ((c : Thread nD τ).loc r) := rfl
theorem W12_main_arg0 (c : Dev nD) : W12 m ρ c (Proc.devRef .tc main_arg0) = m ((c : Thread nD τ).loc main_arg0) :=
  W12_kept m ρ c main_arg0 (by decide) (by decide) (by decide) (by decide) (by decide) (by decide) (by decide) (by decide) (by decide) (by decide) (by decide) (by decide)
theorem W12_main_arg1 (c : Dev nD) : W12 m ρ c (Proc.devRef .tc main_arg1) = m ((c : Thread nD τ).loc main_arg1) :=
  W12_kept m ρ c main_arg1 (by decide) (by decide) (by decide) (by decide) (by decide) (by decide) (by decide) (by decide) (by decide) (by decide) (by decide) (by decide)
theorem W12_main_arg2 (c : Dev nD) : W12 m ρ c (Proc.devRef .tc main_arg2) = m ((c : Thread nD τ).loc main_arg2) :=
  W12_kept m ρ c main_arg2 (by decide) (by decide) (by decide) (by decide) (by decide) (by decide) (by decide) (by decide) (by decide) (by decide) (by decide) (by decide)
theorem W12_main_arg3 (c : Dev nD) : W12 m ρ c (Proc.devRef .tc main_arg3) = m ((c : Thread nD τ).loc main_arg3) :=
  W12_kept m ρ c main_arg3 (by decide) (by decide) (by decide) (by decide) (by decide) (by decide) (by decide) (by decide) (by decide) (by decide) (by decide) (by decide)
theorem W12_main_arg4 (c : Dev nD) : W12 m ρ c (Proc.devRef .tc main_arg4) = m ((c : Thread nD τ).loc main_arg4) :=
  W12_kept m ρ c main_arg4 (by decide) (by decide) (by decide) (by decide) (by decide) (by decide) (by decide) (by decide) (by decide) (by decide) (by decide) (by decide)
theorem W12_main_arg5 (c : Dev nD) : W12 m ρ c (Proc.devRef .tc main_arg5) = m ((c : Thread nD τ).loc main_arg5) :=
  W12_kept m ρ c main_arg5 (by decide) (by decide) (by decide) (by decide) (by decide) (by decide) (by decide) (by decide) (by decide) (by decide) (by decide) (by decide)

/-! ## The proof data family and the thread state -/

/-- No pallas_call has a prefetched table. -/
abbrev adm : (p : Fin 2) → (pcfgs (F := F) p).Adm := fun p => (cfgs p).toPCfg_adm
/-- Both calls' proof data, each at its entry valuation — a literal match on the call's number. -/
def pdats : (p : Fin 2) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along; it ends with those
    references at the stretch's operations folded over `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last valuation, the generator register at some state. -/
abbrev Tₙ (c : Dev nD) : sProp 𝕄 := iprop(StableHlo.held (c : Thread nD τ) (Pipeline.ucRefs τ sig) (W12 m ρ c) ∗ ∃ r, prngReg c r)

/-! ## The pallas_calls as segments -/

-- unifying a library lemma stated over the pinned configuration with the printed one unfolds plain definitions in a metavariable's type
set_option backward.isDefEq.respectTransparency.types false in
/-- pallas_call 0 as a segment over the thread state "every unscoped buffer at the boundary's contents, the generator
    register at some state, nothing owed": entered at `W4`, left at `W5`. Its arrays are split out of the unscoped
    buffers and put back at the exit contents; the generator register goes into the call's invariant and comes out;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a metavariable's type
set_option backward.isDefEq.respectTransparency.types false in
/-- pallas_call 1 as a segment over the thread state "every unscoped buffer at the boundary's contents, the generator
    register at some state, nothing owed": entered at `W11`, left at `W12`. Its arrays are split out of the unscoped
    buffers and put back at the exit contents; the generator register goes into the call's invariant and comes out;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V11 m ρ c) (V12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The twelve items in order. -/
abbrev segs : List (Pipeline.Seg (pcfgs (F := F)) adm (pdats m ρ) () defs₀ 𝒱₀ L lv) :=
  [
    .host (hseg main_part0_ops0 main_part0_ops0_sub fresh0 (W0 m ρ)),
    .host (hseg main_part0_ops1 main_part0_ops1_sub fresh1 (W1 m ρ)),
    .host (hseg main_part0_ops2 main_part0_ops2_sub fresh2 (W2 m ρ)),
    .host (hseg main_part1_ops0 main_part1_ops0_sub fresh3 (W3 m ρ)),
    .region (reg0 m ρ),
    .host (hseg main_part1_ops1 main_part1_ops1_sub fresh4 (W5 m ρ)),
    .host (hseg main_part2_ops0 main_part2_ops0_sub fresh5 (W6 m ρ)),
    .host (hseg main_part2_ops1 main_part2_ops1_sub fresh6 (W7 m ρ)),
    .host (hseg main_part2_ops2 main_part2_ops2_sub fresh7 (W8 m ρ)),
    .host (hseg main_part2_ops3 main_part2_ops3_sub fresh8 (W9 m ρ)),
    .host (hseg main_part2_ops4 main_part2_ops4_sub fresh9 (W10 m ρ)),
    .region (reg1 m ρ) ]
/-- The program IS the run of the segments: its text is the chain of these items. -/
theorem main_run (c : Dev nD) : main (F := F) c = Pipeline.Seg.run (segs m ρ) := (main_chain_windows c).trans (by chain_rfl)

set_option backward.isDefEq.respectTransparency.types false in
/-- THE RUN. From any memory with zero counters, every weakly fair execution of the program on the TensorCores
    terminates, nothing faulting, and every final state has the result buffer at the second call's fold and the six
    argument arrays as launched. -/
theorem run_main : θ_run defs (onTc (τ := τ) (main (F := F))) ⟨m, fun _ => 0, ρ⟩ (fun r => ∀ c : Dev nD,
      r.2.mem ((c.tc : Thread nD τ).loc main_v113) = (dat1 (V11 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨(h c _ (mem_uc main_v113 (by decide))).trans (W12_arr m ρ c 3),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c)⟩)

/-- The frame: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.Kernel.Hand

end
-- ==== Proof.KernelClaims.lean ====
/-
  Three of the five claims, each in one line.

  The word-level kernel program and its idealization are the same text at two float instances, and the run of that
  text (ten host stretches, two pallas_calls; every argument array untouched by all twelve items) is proved once for
  any instance; the two frame claims are that run with the result forgotten. The idealization differs from the
  printed program in one constant only: the fill of the 88 padded logit lanes, the f32 word 0xF149F2CA, is read as
  the extended real −∞ under the name "neg_big"; the claim that this is the sanctioned reading is the naming
  rule's own statement at that word.
-/
import proofs.«136246_j62663572848803_1_alg».proof.Defs
import proofs.«136246_j62663572848803_1_alg».proof.Proof.Gen.Pre_finite_inputs
import proofs.«136246_j62663572848803_1_alg».proof.Proof.IdealRun
import proofs.«136246_j62663572848803_1_alg».proof.Proof.BitsRun

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem preserves : Cert.preserves_Kernel_KernelIdeal :=
  IdealRules.named_const.statement Cert.KernelIdeal.κ "neg_big" .f32 0xF149F2CA#32 ⊥ rfl

end Cert.Proof

end
-- ==== Proof.HostTerms.lean ====
import proofs.«136246_j62663572848803_1_alg».proof.Proof.Gen.KernelIdeal.Launch
import Idealize.ShloMosaic.Lib.StableHlo.Run

/-!
# The host operations between the two kernels, as pure terms

The program runs its host operations in ten stretches.  For an arbitrary valuation `W` of the buffers
before a stretch, each lemma below says what ONE buffer holds after the stretch, as a composed term of
what `W` holds at the buffers the stretch reads.  Only buffers that a later stretch or a kernel reads are
stated.  A buffer a stretch does not write keeps what it held (`*_keeps`).

The recurring sub-terms are named:

* `normIdx s`: an index below zero is read 50000 further on (the wrap of a negative index);
* `gatherRows h idx`: row `idx e` of `h` for every edge `e`;
* `spmvAt idx dst w h`: the weighted neighbour sum  `out[dst e, :] += w e * h[idx e, :]`  from zero;
* `spmv src dst w h = spmvAt (normIdx src) dst w h`;
* `cheb2 t h = 2 * t - h`, the second Chebyshev term from the first-order sum `t` of the first-order sum.
-/

noncomputable section

namespace Cert.KernelIdeal.Host

open Cert.KernelIdeal Cert.KernelIdeal.Gen Idealize.ShloMosaic Idealize.ShloMosaic.TcCoe Idealize.SL.Sem

variable {F : FTy → Type} [FloatOps F] [Named F]

/-! ## A concatenation of three operands read at its operands

The result of an operation over a literal family of three references, with each operand's contents at its own
reference, so that the operands' own results can be rewritten further. -/

theorem nary3_result {τ' : Topo} {sig' : RefSig} {Val : EltTy → Type} {x a b y : Ref sig' .tc}
    (f : ((k : Fin 3) → ((![x, a, b] : Fin 3 → Ref sig' .tc) k).ty.Contents Val) → y.ty.Contents Val) (hxs hy)
    (V : Valuation τ' sig' Val) :
    (StableHlo.nary (τ := τ') ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl

/-- Rewrites `StableHlo.after ops W b` for a literal list of operations: each operation's result at its own
    buffer is its function's value, at any other buffer what was there. -/
macro "host_results" : tactic =>
  `(tactic| (simp only [StableHlo.after_cons, StableHlo.after_nil]
             repeat (first
               | rw [StableHlo.nullary_result] | rw [StableHlo.unary_result] | rw [StableHlo.binary_result] | rw [StableHlo.ternary_result]
               | rw [StableHlo.reshape_result] | rw [nary3_result] | rw [StableHlo.nary_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.reshape_result_ne]; rotate_left; decide)
               | (rw [StableHlo.nary_result_ne]; rotate_left; decide))))

/-- The same statement as `nary3_result`, in the form one simplification pass can use. -/
theorem nary3_result' {τ' : Topo} {sig' : RefSig} {Val : EltTy → Type} {x a b y : Ref sig' .tc}
    (f : ((k : Fin 3) → ((![x, a, b] : Fin 3 → Ref sig' .tc) k).ty.Contents Val) → y.ty.Contents Val) (hxs hy)
    (V : Valuation τ' sig' Val) :
    (StableHlo.nary (τ := τ') ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

/-- `host_results` as one simplification pass: each shared sub-term is visited once. -/
macro "host_results_simp" : tactic =>
  `(tactic| (simp (disch := decide) only [StableHlo.after_cons, StableHlo.after_nil,
      StableHlo.nullary_result', StableHlo.unary_result', StableHlo.binary_result', StableHlo.ternary_result',
      StableHlo.reshape_result', nary3_result', StableHlo.nary_result',
      StableHlo.nullary_result_ne', StableHlo.unary_result_ne', StableHlo.binary_result_ne', StableHlo.ternary_result_ne',
      StableHlo.reshape_result_ne', StableHlo.nary_result_ne']))

/-! ## The named sub-terms -/

/-- The constant zero, everywhere. -/
def zeros (s : Shape) (h : S_.BroadcastsInDim s (![] : Fin 0 → Fin s.rank)) : FVec F s .f32 :=
  broadcastInDim s ![] h (constant (F := F) S_ .f32 0x00000000#32)

/-- Where an index is below zero. -/
def idxNeg (s : IVec S800000 32) : IVec S800000 1 :=
  cmpi .slt s (broadcastInDim S800000 ![] bcast_S_S800000 (constantI S_ 32 0#32))

/-- The number of nodes, 50000, at every edge. -/
def idxShift : IVec S800000 32 :=
  broadcastInDim S800000 ![] bcast_S_S800000 (constantI S_ 32 50000#32)

/-- An index below zero is read 50000 further on. -/
def normIdx (s : IVec S800000 32) : IVec S800000 32 :=
  select (idxNeg s) (addi s idxShift) s

/-- The wrap written out (the program computes its three pieces in two different stretches). -/
theorem normIdx_eq (s : IVec S800000 32) : select (idxNeg s) (addi s idxShift) s = normIdx s := rfl

/-- Row `idx e` of `h`, for every edge `e`. -/
def gatherRows (h : FVec F S50000x128 .f32) (idx : IVec S800000 32) : FVec F S800000x128 .f32 :=
  Host.gather gather_S50000x128_S800000x1_S800000x128_1_0_n_n_0_1_1128 h
    (broadcastInDim S800000x1 ![0] bcast_S800000_S800000x1_0 idx)

/-- The weighted neighbour sum from zero: `out[dst e, :] += w e * h[idx e, :]` over the edges `e`. -/
def spmvAt (idx dst : IVec S800000 32) (w : FVec F S800000 .f32) (h : FVec F S50000x128 .f32) : FVec F S50000x128 .f32 :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 dst)
    (mulf (gatherRows h idx)
      (broadcastInDim S800000x128 ![0, 1] bcast_S800000x1_S800000x128_0_1
        (broadcastInDim S800000x1 ![0] bcast_S800000_S800000x1_0 w)))

/-- The weighted neighbour sum with the source index wrapped. -/
def spmv (src dst : IVec S800000 32) (w : FVec F S800000 .f32) (h : FVec F S50000x128 .f32) : FVec F S50000x128 .f32 :=
  spmvAt (normIdx src) dst w h

/-- `two * t - h`, with `two` a scalar spread over the array. -/
def chebOf (two : FVec F S_ .f32) (t h : FVec F S50000x128 .f32) : FVec F S50000x128 .f32 :=
  subf (mulf (broadcastInDim S50000x128 ![] bcast_S_S50000x128 two) t) h

/-- `2 * t - h`. -/
def cheb2 (t h : FVec F S50000x128 .f32) : FVec F S50000x128 .f32 :=
  chebOf (constant (F := F) S_ .f32 0x40000000#32) t h

/-- The three operands side by side along the columns, rounded to bf16. -/
def catCols (a b c : FVec F S50000x128 .f32) : FVec F S50000x384 .bf16 :=
  truncf .bf16 (concatenate S50000x384 1 [⟨S50000x128, a⟩, ⟨S50000x128, b⟩, ⟨S50000x128, c⟩]
    concatenates_S50000x128_S50000x128_S50000x128_S50000x384_d1) bitsLt_bf16_f32

/-- Row `r` of the edge list, as a vector of 800000 indices. -/
def edgeRow0 (e : IVec S2x800000 32) : IVec S800000 32 :=
  shapeCast S800000 (extractStridedSlice S1x800000 ![0, 0] e slices_S2x800000_S1x800000_0_0) shapeCasts_S1x800000_S800000
def edgeRow1 (e : IVec S2x800000 32) : IVec S800000 32 :=
  shapeCast S800000 (extractStridedSlice S1x800000 ![1, 0] e slices_S2x800000_S1x800000_1_0) shapeCasts_S1x800000_S800000

/-- The degree: the number of edges whose source is the node (a sum of ones scattered at the raw source index). -/
def degree (src : IVec S800000 32) : FVec F S50000 .f32 :=
  Host.scatterAdd scatter_S50000_S800000x1_S800000_n_0_0_1
    (broadcastInDim S50000 ![] bcast_S_S50000 (constant (F := F) S_ .f32 0x00000000#32))
    (broadcastInDim S800000x1 ![0] bcast_S800000_S800000x1_0 src)
    (broadcastInDim S800000 ![] bcast_S_S800000 (constant (F := F) S_ .f32 0x3F800000#32))

/-- The edge weight: `-(dis[src e]) * dis[dst e]`, both indices wrapped. -/
def wEdge (src dst : IVec S800000 32) (dis : FVec F S50000 .f32) : FVec F S800000 .f32 :=
  mulf (Host.negf (Host.gather gather_S50000_S800000x1_S800000_n_0_n_n_0_1_1 dis
          (broadcastInDim S800000x1 ![0] bcast_S800000_S800000x1_0 (normIdx src))))
    (Host.gather gather_S50000_S800000x1_S800000_n_0_n_n_0_1_1 dis
      (broadcastInDim S800000x1 ![0] bcast_S800000_S800000x1_0 (normIdx dst)))

/-- Where the degree is positive. -/
def degPos (deg : FVec F S50000 .f32) : IVec S50000 1 :=
  cmpf .ogt deg (broadcastInDim S50000 ![] bcast_S_S50000 (constant (F := F) S_ .f32 0x00000000#32))

/-- The inverse square root of the degree, the degree kept above a tiny positive constant. -/
def degRsqrt (deg : FVec F S50000 .f32) : FVec F S50000 .f32 :=
  Host.rsqrt (maximumf deg (broadcastInDim S50000 ![] bcast_S_S50000 (constant (F := F) S_ .f32 0x2B8CBCCC#32)))

/-- Slice `k` of a stack of three 128x128 matrices. -/
def w1Slice0 (x : FVec F S3x128x128 .f32) : FVec F S128x128 .f32 :=
  shapeCast S128x128 (extractStridedSlice S1x128x128 ![0, 0, 0] x slices_S3x128x128_S1x128x128_0_0_0) shapeCasts_S1x128x128_S128x128
def w1Slice1 (x : FVec F S3x128x128 .f32) : FVec F S128x128 .f32 :=
  shapeCast S128x128 (extractStridedSlice S1x128x128 ![1, 0, 0] x slices_S3x128x128_S1x128x128_1_0_0) shapeCasts_S1x128x128_S128x128
def w1Slice2 (x : FVec F S3x128x128 .f32) : FVec F S128x128 .f32 :=
  shapeCast S128x128 (extractStridedSlice S1x128x128 ![2, 0, 0] x slices_S3x128x128_S1x128x128_2_0_0) shapeCasts_S1x128x128_S128x128

/-- The three slices one under the other (384 rows), rounded to bf16. -/
def w1Cat (x : FVec F S3x128x128 .f32) : FVec F S384x128 .bf16 :=
  truncf .bf16 (concatenate S384x128 0 [⟨S128x128, w1Slice0 x⟩, ⟨S128x128, w1Slice1 x⟩, ⟨S128x128, w1Slice2 x⟩]
    concatenates_S128x128_S128x128_S128x128_S384x128_d0) bitsLt_bf16_f32

/-- Slice `k` of a stack of three 128x40 matrices. -/
def w2Slice0 (x : FVec F S3x128x40 .f32) : FVec F S128x40 .f32 :=
  shapeCast S128x40 (extractStridedSlice S1x128x40 ![0, 0, 0] x slices_S3x128x40_S1x128x40_0_0_0) shapeCasts_S1x128x40_S128x40
def w2Slice1 (x : FVec F S3x128x40 .f32) : FVec F S128x40 .f32 :=
  shapeCast S128x40 (extractStridedSlice S1x128x40 ![1, 0, 0] x slices_S3x128x40_S1x128x40_1_0_0) shapeCasts_S1x128x40_S128x40
def w2Slice2 (x : FVec F S3x128x40 .f32) : FVec F S128x40 .f32 :=
  shapeCast S128x40 (extractStridedSlice S1x128x40 ![2, 0, 0] x slices_S3x128x40_S1x128x40_2_0_0) shapeCasts_S1x128x40_S128x40

/-- The three slices one under the other (384 rows of 40 columns). -/
def w2Cat (x : FVec F S3x128x40 .f32) : FVec F S384x40 .f32 :=
  concatenate S384x40 0 [⟨S128x40, w2Slice0 x⟩, ⟨S128x40, w2Slice1 x⟩, ⟨S128x40, w2Slice2 x⟩]
    concatenates_S128x40_S128x40_S128x40_S384x40_d0

/-! ## Stretch 1 (18 operations): the edge rows, the degree and its inverse square root -/

theorem part0_ops0_v1 (W : Valuation τ sig (Elt F)) :
    StableHlo.after (main_part0_ops0 (F := F)) W (Proc.devRef .tc main_v1) = edgeRow0 (W (Proc.devRef .tc main_arg1)) := by
  host_results_simp <;> rfl

theorem part0_ops0_v3 (W : Valuation τ sig (Elt F)) :
    StableHlo.after (main_part0_ops0 (F := F)) W (Proc.devRef .tc main_v3) = edgeRow1 (W (Proc.devRef .tc main_arg1)) := by
  host_results_simp <;> rfl

theorem part0_ops0_v9 (W : Valuation τ sig (Elt F)) :
    StableHlo.after (main_part0_ops0 (F := F)) W (Proc.devRef .tc main_v9) = degPos (degree (F := F) (edgeRow0 (W (Proc.devRef .tc main_arg1)))) := by
  host_results_simp <;> rfl

theorem part0_ops0_v12 (W : Valuation τ sig (Elt F)) :
    StableHlo.after (main_part0_ops0 (F := F)) W (Proc.devRef .tc main_v12) = degRsqrt (degree (F := F) (edgeRow0 (W (Proc.devRef .tc main_arg1)))) := by
  host_results_simp <;> rfl

theorem part0_ops0_cst_3 (W : Valuation τ sig (Elt F)) :
    StableHlo.after (main_part0_ops0 (F := F)) W (Proc.devRef .tc main_cst_3) = constant (F := F) S_ .f32 0x00000000#32 := by
  host_results_simp <;> rfl

/-! ## Stretch 2 (3 operations): the inverse square root where the degree is positive, zero elsewhere -/

theorem part0_ops1_v13 (W : Valuation τ sig (Elt F)) :
    StableHlo.after (main_part0_ops1 (F := F)) W (Proc.devRef .tc main_v13) = select (W (Proc.devRef .tc main_v9)) (W (Proc.devRef .tc main_v12)) (broadcastInDim S50000 ![] bcast_S_S50000 (W (Proc.devRef .tc main_cst_3))) := by
  host_results_simp <;> rfl

/-! ## Stretch 3 (41 operations): the edge weights, the first neighbour sum of the input, and two pieces of the next index wrap -/

set_option maxHeartbeats 4000000 in
theorem part0_ops2_v29 (W : Valuation τ sig (Elt F)) :
    StableHlo.after (main_part0_ops2 (F := F)) W (Proc.devRef .tc main_v29) = wEdge (W (Proc.devRef .tc main_v1)) (W (Proc.devRef .tc main_v3)) (W (Proc.devRef .tc main_v13)) := by
  host_results_simp <;> rfl

set_option maxHeartbeats 4000000 in
theorem part0_ops2_v42 (W : Valuation τ sig (Elt F)) :
    StableHlo.after (main_part0_ops2 (F := F)) W (Proc.devRef .tc main_v42) = spmv (W (Proc.devRef .tc main_v1)) (W (Proc.devRef .tc main_v3)) (wEdge (W (Proc.devRef .tc main_v1)) (W (Proc.devRef .tc main_v3)) (W (Proc.devRef .tc main_v13))) (W (Proc.devRef .tc main_arg0)) := by
  host_results_simp <;> rfl

set_option maxHeartbeats 4000000 in
theorem part0_ops2_v44 (W : Valuation τ sig (Elt F)) :
    StableHlo.after (main_part0_ops2 (F := F)) W (Proc.devRef .tc main_v44) = idxNeg (W (Proc.devRef .tc main_v1)) := by
  host_results_simp <;> rfl

set_option maxHeartbeats 4000000 in
theorem part0_ops2_v45 (W : Valuation τ sig (Elt F)) :
    StableHlo.after (main_part0_ops2 (F := F)) W (Proc.devRef .tc main_v45) = idxShift := by
  host_results_simp <;> rfl

/-! ## Stretch 4 (26 operations): the first layer's operand `[x, T1 x, 2 T1 (T1 x) - x]`, its weights and its bias -/

set_option maxHeartbeats 4000000 in
theorem part1_ops0_v67 (W : Valuation τ sig (Elt F)) :
    StableHlo.after (main_part1_ops0 (F := F)) W (Proc.devRef .tc main_v67) = catCols (W (Proc.devRef .tc main_arg0)) (W (Proc.devRef .tc main_v42)) (cheb2 (spmvAt (select (W (Proc.devRef .tc main_v44)) (addi (W (Proc.devRef .tc main_v1)) (W (Proc.devRef .tc main_v45))) (W (Proc.devRef .tc main_v1))) (W (Proc.devRef .tc main_v3)) (W (Proc.devRef .tc main_v29)) (W (Proc.devRef .tc main_v42))) (W (Proc.devRef .tc main_arg0))) := by
  host_results_simp <;> rfl

set_option maxHeartbeats 4000000 in
theorem part1_ops0_v68 (W : Valuation τ sig (Elt F)) :
    StableHlo.after (main_part1_ops0 (F := F)) W (Proc.devRef .tc main_v68) = w1Cat (W (Proc.devRef .tc main_arg2)) := by
  host_results_simp <;> rfl

set_option maxHeartbeats 4000000 in
theorem part1_ops0_v69 (W : Valuation τ sig (Elt F)) :
    StableHlo.after (main_part1_ops0 (F := F)) W (Proc.devRef .tc main_v69) = shapeCast S1x128 (W (Proc.devRef .tc main_arg3)) shapeCasts_S128_S1x128 := by
  host_results_simp <;> rfl

/-! ## Stretch 5 (33 operations): the two neighbour sums of the first layer's output -/

set_option maxHeartbeats 4000000 in
theorem part1_ops1_v83 (W : Valuation τ sig (Elt F)) :
    StableHlo.after (main_part1_ops1 (F := F)) W (Proc.devRef .tc main_v83) = spmv (W (Proc.devRef .tc main_v1)) (W (Proc.devRef .tc main_v3)) (W (Proc.devRef .tc main_v29)) (W (Proc.devRef .tc main_v70)) := by
  host_results_simp <;> rfl

set_option maxHeartbeats 4000000 in
theorem part1_ops1_v96 (W : Valuation τ sig (Elt F)) :
    StableHlo.after (main_part1_ops1 (F := F)) W (Proc.devRef .tc main_v96) = spmv (W (Proc.devRef .tc main_v1)) (W (Proc.devRef .tc main_v3)) (W (Proc.devRef .tc main_v29)) (spmv (W (Proc.devRef .tc main_v1)) (W (Proc.devRef .tc main_v3)) (W (Proc.devRef .tc main_v29)) (W (Proc.devRef .tc main_v70))) := by
  host_results_simp <;> rfl

set_option maxHeartbeats 4000000 in
theorem part1_ops1_cst_20 (W : Valuation τ sig (Elt F)) :
    StableHlo.after (main_part1_ops1 (F := F)) W (Proc.devRef .tc main_cst_20) = constant (F := F) S_ .f32 0x40000000#32 := by
  host_results_simp <;> rfl

/-! ## Stretch 6 (13 operations): the second layer's operand `[h, T1 h, 2 T1 (T1 h) - h]` and its weights -/

theorem part2_ops0_v108 (W : Valuation τ sig (Elt F)) :
    StableHlo.after (main_part2_ops0 (F := F)) W (Proc.devRef .tc main_v108) = catCols (W (Proc.devRef .tc main_v70)) (W (Proc.devRef .tc main_v83)) (chebOf (W (Proc.devRef .tc main_cst_20)) (W (Proc.devRef .tc main_v96)) (W (Proc.devRef .tc main_v70))) := by
  host_results_simp <;> rfl

theorem part2_ops0_v107 (W : Valuation τ sig (Elt F)) :
    StableHlo.after (main_part2_ops0 (F := F)) W (Proc.devRef .tc main_v107) = w2Cat (W (Proc.devRef .tc main_arg4)) := by
  host_results_simp <;> rfl

theorem part2_ops0_c_21 (W : Valuation τ sig (Elt F)) :
    StableHlo.after (main_part2_ops0 (F := F)) W (Proc.devRef .tc main_c_21) = constantI S_ 32 0#32 := by
  host_results_simp <;> rfl

/-! ## Stretches 7-10: the weights padded to 128 columns with the float of the integer zero, the bias likewise -/

theorem part2_ops1_v109 (W : Valuation τ sig (Elt F)) :
    StableHlo.after (main_part2_ops1 (F := F)) W (Proc.devRef .tc main_v109) = pad S384x128 ![0, 0] ![0, 88] ![0, 0] (W (Proc.devRef .tc main_v107)) (sitofp (F := F) .f32 (W (Proc.devRef .tc main_c_21))) pads_S384x40_S384x128_000_0880 h_S_ := by
  host_results_simp <;> rfl

theorem part2_ops2_v110 (W : Valuation τ sig (Elt F)) :
    StableHlo.after (main_part2_ops2 (F := F)) W (Proc.devRef .tc main_v110) = truncf .bf16 (W (Proc.devRef .tc main_v109)) bitsLt_bf16_f32 := by
  host_results_simp <;> rfl

theorem part2_ops2_c_22 (W : Valuation τ sig (Elt F)) :
    StableHlo.after (main_part2_ops2 (F := F)) W (Proc.devRef .tc main_c_22) = constantI S_ 32 0#32 := by
  host_results_simp <;> rfl

theorem part2_ops3_v111 (W : Valuation τ sig (Elt F)) :
    StableHlo.after (main_part2_ops3 (F := F)) W (Proc.devRef .tc main_v111) = pad S128 ![0] ![88] ![0] (W (Proc.devRef .tc main_arg5)) (sitofp (F := F) .f32 (W (Proc.devRef .tc main_c_22))) pads_S40_S128_0880 h_S_ := by
  host_results_simp <;> rfl

theorem part2_ops4_v112 (W : Valuation τ sig (Elt F)) :
    StableHlo.after (main_part2_ops4 (F := F)) W (Proc.devRef .tc main_v112) = shapeCast S1x128 (W (Proc.devRef .tc main_v111)) shapeCasts_S128_S1x128 := by
  host_results_simp <;> rfl

end Cert.KernelIdeal.Host

end
-- ==== Proof.IdealOperands.lean ====
/-
  What the two pallas_calls find in their three operand arrays, as terms of the program's six arguments.

  Each host stretch's written buffers are pure terms of the valuation before it; a buffer a stretch does not write
  keeps its contents; a pallas_call changes only its own arrays. Chaining these from the launch memory:

    src, dst   = the two rows of edge_index;   dis = rsqrt(max(deg, ε)) where deg > 0, else 0, deg = #edges out of a node
    w          = −dis[src] · dis[dst]                                   (one weight per edge)
    L h        = the weighted neighbour sum of h (gather rows at src, scale by w, scatter-add at dst)
    call 0 reads   [x, L x, 2·L(L x) − x] side by side (bf16),  the three W1 slices one under the other (bf16),  b1 as a row
    call 1 reads   [h, L h, 2·L(L h) − h] side by side (bf16),  the three W2 slices one under the other, padded to 128
                   columns with zero (bf16),  b2 padded to 128 with zero as a row,     where h is call 0's output array.
  Stated at an arbitrary float instance; h is left as "what call 0 left in its output array".
-/
import proofs.«136246_j62663572848803_1_alg».proof.Proof.IdealRun
import proofs.«136246_j62663572848803_1_alg».proof.Proof.HostTerms

set_option maxRecDepth 16384

noncomputable section

namespace Cert.KernelIdeal.Hand

open Cert.KernelIdeal Cert.KernelIdeal.Gen Cert.KernelIdeal.Host
open Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## A buffer an item does not write keeps its contents -/

theorem keep1 (c : Dev nD) {r : Ref sig .tc} (h : r ∉ wr0) : W1 m ρ c (Proc.devRef .tc r) = W0 m ρ c (Proc.devRef .tc r) :=
  StableHlo.after_of_writes_sub main_part0_ops0 _ wr0_sub h
theorem keep2 (c : Dev nD) {r : Ref sig .tc} (h : r ∉ wr1) : W2 m ρ c (Proc.devRef .tc r) = W1 m ρ c (Proc.devRef .tc r) :=
  StableHlo.after_of_writes_sub main_part0_ops1 _ wr1_sub h
theorem keep3 (c : Dev nD) {r : Ref sig .tc} (h : r ∉ wr2) : W3 m ρ c (Proc.devRef .tc r) = W2 m ρ c (Proc.devRef .tc r) :=
  StableHlo.after_of_writes_sub main_part0_ops2 _ wr2_sub h
theorem keep4 (c : Dev nD) {r : Ref sig .tc} (h : r ∉ wr3) : W4 m ρ c (Proc.devRef .tc r) = W3 m ρ c (Proc.devRef .tc r) :=
  StableHlo.after_of_writes_sub main_part1_ops0 _ wr3_sub h
theorem keep5 (c : Dev nD) {r : Ref sig .tc} (h : ∀ w, Pipeline.arrRef spec0 w ≠ r) : W5 m ρ c (Proc.devRef .tc r) = W4 m ρ c (Proc.devRef .tc r) := W5_of_ne m ρ c r h
theorem keep6 (c : Dev nD) {r : Ref sig .tc} (h : r ∉ wr4) : W6 m ρ c (Proc.devRef .tc r) = W5 m ρ c (Proc.devRef .tc r) :=
  StableHlo.after_of_writes_sub main_part1_ops1 _ wr4_sub h
theorem keep7 (c : Dev nD) {r : Ref sig .tc} (h : r ∉ wr5) : W7 m ρ c (Proc.devRef .tc r) = W6 m ρ c (Proc.devRef .tc r) :=
  StableHlo.after_of_writes_sub main_part2_ops0 _ wr5_sub h
theorem keep8 (c : Dev nD) {r : Ref sig .tc} (h : r ∉ wr6) : W8 m ρ c (Proc.devRef .tc r) = W7 m ρ c (Proc.devRef .tc r) :=
  StableHlo.after_of_writes_sub main_part2_ops1 _ wr6_sub h
theorem keep9 (c : Dev nD) {r : Ref sig .tc} (h : r ∉ wr7) : W9 m ρ c (Proc.devRef .tc r) = W8 m ρ c (Proc.devRef .tc r) :=
  StableHlo.after_of_writes_sub main_part2_ops2 _ wr7_sub h
theorem keep10 (c : Dev nD) {r : Ref sig .tc} (h : r ∉ wr8) : W10 m ρ c (Proc.devRef .tc r) = W9 m ρ c (Proc.devRef .tc r) :=
  StableHlo.after_of_writes_sub main_part2_ops3 _ wr8_sub h
theorem keep11 (c : Dev nD) {r : Ref sig .tc} (h : r ∉ wr9) : W11 m ρ c (Proc.devRef .tc r) = W10 m ρ c (Proc.devRef .tc r) :=
  StableHlo.after_of_writes_sub main_part2_ops4 _ wr9_sub h

/-! ## The graph terms -/

/-- The edge list's source row, destination row, the inverse-square-root degrees and the edge weights, on core `c`. -/
abbrev src (c : Dev nD) : IVec S800000 32 := edgeRow0 (m ((c : Thread nD τ).loc main_arg1))
abbrev dst (c : Dev nD) : IVec S800000 32 := edgeRow1 (m ((c : Thread nD τ).loc main_arg1))
abbrev dis (c : Dev nD) : FVec F S50000 .f32 :=
  select (degPos (degree (F := F) (src m c))) (degRsqrt (degree (F := F) (src m c)))
    (broadcastInDim S50000 ![] bcast_S_S50000 (constant (F := F) S_ .f32 0x00000000#32))
abbrev wgt (c : Dev nD) : FVec F S800000 .f32 := wEdge (src m c) (dst m c) (dis m c)
/-- The weighted neighbour sum on core `c`. -/
abbrev lap (c : Dev nD) (h : FVec F S50000x128 .f32) : FVec F S50000x128 .f32 := spmv (src m c) (dst m c) (wgt m c) h

/-! ## Up to the first call -/

theorem v1_at1 (c : Dev nD) : W1 m ρ c (Proc.devRef .tc main_v1) = src m c := part0_ops0_v1 (W0 m ρ c)
theorem v3_at1 (c : Dev nD) : W1 m ρ c (Proc.devRef .tc main_v3) = dst m c := part0_ops0_v3 (W0 m ρ c)
theorem v13_at2 (c : Dev nD) : W2 m ρ c (Proc.devRef .tc main_v13) = dis m c := by
  refine (part0_ops1_v13 (W1 m ρ c)).trans ?_
  rw [show W1 m ρ c (Proc.devRef .tc main_v9) = _ from part0_ops0_v9 (W0 m ρ c),
    show W1 m ρ c (Proc.devRef .tc main_v12) = _ from part0_ops0_v12 (W0 m ρ c),
    show W1 m ρ c (Proc.devRef .tc main_cst_3) = _ from part0_ops0_cst_3 (W0 m ρ c)]
theorem v1_at2 (c : Dev nD) : W2 m ρ c (Proc.devRef .tc main_v1) = src m c := (keep2 m ρ c (by decide)).trans (v1_at1 m ρ c)
theorem v3_at2 (c : Dev nD) : W2 m ρ c (Proc.devRef .tc main_v3) = dst m c := (keep2 m ρ c (by decide)).trans (v3_at1 m ρ c)
theorem v29_at3 (c : Dev nD) : W3 m ρ c (Proc.devRef .tc main_v29) = wgt m c := by
  refine (part0_ops2_v29 (W2 m ρ c)).trans ?_
  rw [v1_at2, v3_at2, v13_at2]
theorem arg0_at2 (c : Dev nD) : W2 m ρ c (Proc.devRef .tc main_arg0) = m ((c : Thread nD τ).loc main_arg0) :=
  (keep2 m ρ c (by decide)).trans ((keep1 m ρ c (by decide)).trans rfl)
theorem v42_at3 (c : Dev nD) : W3 m ρ c (Proc.devRef .tc main_v42) = lap m c (m ((c : Thread nD τ).loc main_arg0)) := by
  refine (part0_ops2_v42 (W2 m ρ c)).trans ?_
  rw [v1_at2, v3_at2, v13_at2, arg0_at2]
theorem v44_at3 (c : Dev nD) : W3 m ρ c (Proc.devRef .tc main_v44) = idxNeg (src m c) := by
  refine (part0_ops2_v44 (W2 m ρ c)).trans ?_
  rw [v1_at2]
theorem v45_at3 (c : Dev nD) : W3 m ρ c (Proc.devRef .tc main_v45) = idxShift := part0_ops2_v45 (W2 m ρ c)
theorem v1_at3 (c : Dev nD) : W3 m ρ c (Proc.devRef .tc main_v1) = src m c := (keep3 m ρ c (by decide)).trans (v1_at2 m ρ c)
theorem v3_at3 (c : Dev nD) : W3 m ρ c (Proc.devRef .tc main_v3) = dst m c := (keep3 m ρ c (by decide)).trans (v3_at2 m ρ c)
theorem arg_at3 (c : Dev nD) {r : Ref sig .tc} (h0 : r ∉ wr0) (h1 : r ∉ wr1) (h2 : r ∉ wr2) :
    W3 m ρ c (Proc.devRef .tc r) = m ((c : Thread nD τ).loc r) :=
  (keep3 m ρ c h2).trans ((keep2 m ρ c h1).trans ((keep1 m ρ c h0).trans rfl))

/-- What the first call finds in its activation array: `[x, L x, 2·L(L x) − x]` side by side. -/
theorem v67_at4 (c : Dev nD) : W4 m ρ c (Proc.devRef .tc main_v67)
    = catCols (m ((c : Thread nD τ).loc main_arg0)) (lap m c (m ((c : Thread nD τ).loc main_arg0)))
        (cheb2 (lap m c (lap m c (m ((c : Thread nD τ).loc main_arg0)))) (m ((c : Thread nD τ).loc main_arg0))) := by
  refine (part1_ops0_v67 (W3 m ρ c)).trans ?_
  rw [v42_at3, v44_at3, v45_at3, v1_at3, v3_at3, v29_at3, arg_at3 m ρ c (r := main_arg0) (by decide) (by decide) (by decide)]
  rfl
/-- its weight array: the three slices of `W1` one under the other; -/
theorem v68_at4 (c : Dev nD) : W4 m ρ c (Proc.devRef .tc main_v68) = w1Cat (m ((c : Thread nD τ).loc main_arg2)) := by
  refine (part1_ops0_v68 (W3 m ρ c)).trans ?_
  rw [arg_at3 m ρ c (r := main_arg2) (by decide) (by decide) (by decide)]
/-- its bias row: `b1`. -/
theorem v69_at4 (c : Dev nD) : W4 m ρ c (Proc.devRef .tc main_v69) = shapeCast S1x128 (m ((c : Thread nD τ).loc main_arg3)) shapeCasts_S128_S1x128 := by
  refine (part1_ops0_v69 (W3 m ρ c)).trans ?_
  rw [arg_at3 m ρ c (r := main_arg3) (by decide) (by decide) (by decide)]

/-! ## Between the calls -/

/-- What the first call leaves in its output array, on core `c`. -/
abbrev hid (c : Dev nD) : FVec F S50000x128 .f32 := W5 m ρ c (Proc.devRef .tc main_v70)

theorem v1_at5 (c : Dev nD) : W5 m ρ c (Proc.devRef .tc main_v1) = src m c :=
  (keep5 m ρ c (by decide)).trans ((keep4 m ρ c (by decide)).trans (v1_at3 m ρ c))
theorem v3_at5 (c : Dev nD) : W5 m ρ c (Proc.devRef .tc main_v3) = dst m c :=
  (keep5 m ρ c (by decide)).trans ((keep4 m ρ c (by decide)).trans (v3_at3 m ρ c))
theorem v29_at5 (c : Dev nD) : W5 m ρ c (Proc.devRef .tc main_v29) = wgt m c :=
  (keep5 m ρ c (by decide)).trans ((keep4 m ρ c (by decide)).trans (v29_at3 m ρ c))
theorem arg_at5 (c : Dev nD) {r : Ref sig .tc} (h0 : r ∉ wr0) (h1 : r ∉ wr1) (h2 : r ∉ wr2) (h3 : r ∉ wr3) (ha : ∀ w, Pipeline.arrRef spec0 w ≠ r) :
    W5 m ρ c (Proc.devRef .tc r) = m ((c : Thread nD τ).loc r) :=
  (keep5 m ρ c ha).trans ((keep4 m ρ c h3).trans (arg_at3 m ρ c h0 h1 h2))
theorem v83_at6 (c : Dev nD) : W6 m ρ c (Proc.devRef .tc main_v83) = lap m c (hid m ρ c) := by
  refine (part1_ops1_v83 (W5 m ρ c)).trans ?_
  rw [v1_at5, v3_at5, v29_at5]
theorem v96_at6 (c : Dev nD) : W6 m ρ c (Proc.devRef .tc main_v96) = lap m c (lap m c (hid m ρ c)) := by
  refine (part1_ops1_v96 (W5 m ρ c)).trans ?_
  rw [v1_at5, v3_at5, v29_at5]
theorem cst20_at6 (c : Dev nD) : W6 m ρ c (Proc.devRef .tc main_cst_20) = constant (F := F) S_ .f32 0x40000000#32 := part1_ops1_cst_20 (W5 m ρ c)
theorem v70_at6 (c : Dev nD) : W6 m ρ c (Proc.devRef .tc main_v70) = hid m ρ c := keep6 m ρ c (by decide)

/-! ## What the second call finds -/

/-- Its activation array: `[h, L h, 2·L(L h) − h]` side by side; -/
theorem v108_at11 (c : Dev nD) : W11 m ρ c (Proc.devRef .tc main_v108)
    = catCols (hid m ρ c) (lap m c (hid m ρ c)) (cheb2 (lap m c (lap m c (hid m ρ c))) (hid m ρ c)) := by
  refine (keep11 m ρ c (by decide)).trans ((keep10 m ρ c (by decide)).trans ((keep9 m ρ c (by decide)).trans ((keep8 m ρ c (by decide)).trans ?_)))
  refine (part2_ops0_v108 (W6 m ρ c)).trans ?_
  rw [v70_at6, v83_at6, v96_at6, cst20_at6]
  rfl
/-- its weight array: the three slices of `W2` one under the other, 88 zero columns to the right, rounded to bf16; -/
theorem v110_at11 (c : Dev nD) : W11 m ρ c (Proc.devRef .tc main_v110)
    = truncf .bf16 (pad S384x128 ![0, 0] ![0, 88] ![0, 0] (w2Cat (m ((c : Thread nD τ).loc main_arg4)))
        (sitofp (F := F) .f32 (constantI S_ 32 0#32)) pads_S384x40_S384x128_000_0880 h_S_) bitsLt_bf16_f32 := by
  refine (keep11 m ρ c (by decide)).trans ((keep10 m ρ c (by decide)).trans ?_)
  refine (part2_ops2_v110 (W8 m ρ c)).trans ?_
  rw [show W8 m ρ c (Proc.devRef .tc main_v109) = _ from part2_ops1_v109 (W7 m ρ c),
    show W7 m ρ c (Proc.devRef .tc main_v107) = _ from part2_ops0_v107 (W6 m ρ c),
    show W7 m ρ c (Proc.devRef .tc main_c_21) = _ from part2_ops0_c_21 (W6 m ρ c),
    show W6 m ρ c (Proc.devRef .tc main_arg4) = m ((c : Thread nD τ).loc main_arg4) from
      (keep6 m ρ c (by decide)).trans (arg_at5 m ρ c (by decide) (by decide) (by decide) (by decide) (by decide))]
/-- its bias row: `b2` with 88 zeros to the right. -/
theorem v112_at11 (c : Dev nD) : W11 m ρ c (Proc.devRef .tc main_v112)
    = shapeCast S1x128 (pad S128 ![0] ![88] ![0] (m ((c : Thread nD τ).loc main_arg5))
        (sitofp (F := F) .f32 (constantI S_ 32 0#32)) pads_S40_S128_0880 h_S_) shapeCasts_S128_S1x128 := by
  refine (part2_ops4_v112 (W10 m ρ c)).trans ?_
  rw [show W10 m ρ c (Proc.devRef .tc main_v111) = _ from part2_ops3_v111 (W9 m ρ c),
    show W9 m ρ c (Proc.devRef .tc main_c_22) = _ from part2_ops2_c_22 (W8 m ρ c),
    show W9 m ρ c (Proc.devRef .tc main_arg5) = m ((c : Thread nD τ).loc main_arg5) from
      (keep9 m ρ c (by decide)).trans ((keep8 m ρ c (by decide)).trans ((keep7 m ρ c (by decide)).trans ((keep6 m ρ c (by decide)).trans
        (arg_at5 m ρ c (by decide) (by decide) (by decide) (by decide) (by decide)))))]

end Cert.KernelIdeal.Hand

end
-- ==== Proof.IdealBlocks.lean ====
/-
  The blocks the two pallas_calls are handed, read at an index of the arrays they are cut from.

  Both calls have the same geometry: 25 grid points; at point t the activation window is rows 2000·t … 2000·t + 1999
  of a [50000, 384] array, the weight window the whole [384, 128] array, the bias window the whole [1, 128] row,
  and the output window rows 2000·t … of the output array. A block's entry at local index (r, k) is the array's
  entry at (block index × block size + r, …) on each axis; the block indices are read off the printed index maps
  once, by evaluation over the 25 points.
-/
import proofs.«136246_j62663572848803_1_alg».proof.Proof.IdealBody0
import proofs.«136246_j62663572848803_1_alg».proof.Proof.IdealBody1
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

variable {F : FTy → Type} [FloatOps F] [Named F]
variable (V : (c : Dev nD) → (b : Ref sig .tc) → Buf (Elt F) ((c : Thread nD τ).loc b))

/-! ## pallas_call 0 -/

/-- The index maps of call 0, decided over its 25 grid points: the activation window and the output window move
    down one block of 2000 rows per point; the weight and bias windows stay at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `r` of the activation block at point `t` is row `2000·t + r` of the activation array. -/
theorem blk0_0_apply (c : Dev nD) (t : Fin cfg0.N) (r : Fin 2000) (k : Fin 384) (R : Fin 50000) (hR : R.val = 2000 * t.val + r.val) :
    (iblk0 V c 0 t : Vec F S2000x384 .bf16) (ix2 r k) = (V c main_v67 : S50000x384.Idx → Elt F .bf16) (ix2 R k) := by
  obtain ⟨e0, e1, -⟩ := idx0 t
  unfold iblk0
  rw [View.read_apply]
  show V c main_v67 _ = V c main_v67 _
  refine congrArg (V c main_v67) ?_
  funext a; apply Fin.ext
  match a with
  | ⟨0, _⟩ => show win0_0.index t (0 : Fin 2) * 2000 + 1 * r.val = R.val; rw [e0, hR]; omega
  | ⟨1, _⟩ => show win0_0.index t (1 : Fin 2) * 384 + 1 * k.val = k.val; rw [e1]; omega

/-- The weight block at every point is the whole weight array. -/
theorem blk0_1_apply (c : Dev nD) (t : Fin cfg0.N) (k : Fin 384) (j : Fin 128) :
    (iblk0 V c 1 t : Vec F S384x128 .bf16) (ix2 k j) = (V c main_v68 : S384x128.Idx → Elt F .bf16) (ix2 k j) := by
  obtain ⟨-, -, e0, e1, -⟩ := idx0 t
  unfold iblk0
  rw [View.read_apply]
  show V c main_v68 _ = V c main_v68 _
  refine congrArg (V c main_v68) ?_
  funext a; apply Fin.ext
  match a with
  | ⟨0, _⟩ => show win0_1.index t (0 : Fin 2) * 384 + 1 * k.val = k.val; rw [e0]; omega
  | ⟨1, _⟩ => show win0_1.index t (1 : Fin 2) * 128 + 1 * j.val = j.val; rw [e1]; omega

/-- The bias block at every point is the whole bias row. -/
theorem blk0_2_apply (c : Dev nD) (t : Fin cfg0.N) (z : Fin 1) (j : Fin 128) :
    (iblk0 V c 2 t : Vec F S1x128 .f32) (ix2 z j) = (V c main_v69 : S1x128.Idx → Elt F .f32) (ix2 z j) := by
  obtain ⟨-, -, -, -, e0, e1, -⟩ := idx0 t
  unfold iblk0
  rw [View.read_apply]
  show V c main_v69 _ = V c main_v69 _
  refine congrArg (V c main_v69) ?_
  funext a; apply Fin.ext
  match a with
  | ⟨0, _⟩ => show win0_2.index t (0 : Fin 2) * 1 + 1 * z.val = z.val; rw [e0]; omega
  | ⟨1, _⟩ => show win0_2.index t (1 : Fin 2) * 128 + 1 * j.val = j.val; rw [e1]; omega

/-! ## pallas_call 1 -/

/-- The index maps of call 1, decided over its 25 grid points: the activation window and the output window move
    down one block of 2000 rows per point; the weight and bias windows stay at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `r` of the activation block at point `t` is row `2000·t + r` of the activation array. -/
theorem blk1_0_apply (c : Dev nD) (t : Fin cfg1.N) (r : Fin 2000) (k : Fin 384) (R : Fin 50000) (hR : R.val = 2000 * t.val + r.val) :
    (iblk1 V c 0 t : Vec F S2000x384 .bf16) (ix2 r k) = (V c main_v108 : S50000x384.Idx → Elt F .bf16) (ix2 R k) := by
  obtain ⟨e0, e1, -⟩ := idx1 t
  unfold iblk1
  rw [View.read_apply]
  show V c main_v108 _ = V c main_v108 _
  refine congrArg (V c main_v108) ?_
  funext a; apply Fin.ext
  match a with
  | ⟨0, _⟩ => show win1_0.index t (0 : Fin 2) * 2000 + 1 * r.val = R.val; rw [e0, hR]; omega
  | ⟨1, _⟩ => show win1_0.index t (1 : Fin 2) * 384 + 1 * k.val = k.val; rw [e1]; omega

/-- The weight block at every point is the whole weight array. -/
theorem blk1_1_apply (c : Dev nD) (t : Fin cfg1.N) (k : Fin 384) (j : Fin 128) :
    (iblk1 V c 1 t : Vec F S384x128 .bf16) (ix2 k j) = (V c main_v110 : S384x128.Idx → Elt F .bf16) (ix2 k j) := by
  obtain ⟨-, -, e0, e1, -⟩ := idx1 t
  unfold iblk1
  rw [View.read_apply]
  show V c main_v110 _ = V c main_v110 _
  refine congrArg (V c main_v110) ?_
  funext a; apply Fin.ext
  match a with
  | ⟨0, _⟩ => show win1_1.index t (0 : Fin 2) * 384 + 1 * k.val = k.val; rw [e0]; omega
  | ⟨1, _⟩ => show win1_1.index t (1 : Fin 2) * 128 + 1 * j.val = j.val; rw [e1]; omega

/-- The bias block at every point is the whole bias row. -/
theorem blk1_2_apply (c : Dev nD) (t : Fin cfg1.N) (z : Fin 1) (j : Fin 128) :
    (iblk1 V c 2 t : Vec F S1x128 .f32) (ix2 z j) = (V c main_v112 : S1x128.Idx → Elt F .f32) (ix2 z j) := by
  obtain ⟨-, -, -, -, e0, e1, -⟩ := idx1 t
  unfold iblk1
  rw [View.read_apply]
  show V c main_v112 _ = V c main_v112 _
  refine congrArg (V c main_v112) ?_
  funext a; apply Fin.ext
  match a with
  | ⟨0, _⟩ => show win1_2.index t (0 : Fin 2) * 1 + 1 * z.val = z.val; rw [e0]; omega
  | ⟨1, _⟩ => show win1_2.index t (1 : Fin 2) * 128 + 1 * j.val = j.val; rw [e1]; omega

end Cert.KernelIdeal.Hand

end
-- ==== Proof.LibPaddedLogSoftmax.lean ====
/-
  A general lemma file: the logarithm of the softmax of a finite family of extended reals, and its
  PADDING LAW. No program is imported.

  For `l : Fin n → EReal` write `M = rowMax l` for the greatest entry (`⊥` for an empty family).
  Then
      logSoftmax l j = (l j - M) - log (∑ j', exp (l j' - M)),
  with `exp` and `log` the extended-real exponential and logarithm (`exp ⊥ = 0`, `log 0 = ⊥`).

  The padding law: extend `l` to a longer family `L : Fin N → EReal`, `n ≤ N`, by the entry `⊥`
  at every new position. A `⊥` entry changes neither the maximum (`max ⊥ x = x`) nor the sum of
  exponentials (`⊥ - M = ⊥` for every `M`, the infinite ones included, and `exp ⊥ = 0`), so
  `logSoftmax L` at an old position is `logSoftmax l` there. No hypothesis on `l` is needed.
-/
import Idealize.ShloMosaic.PureOps.Ideal
import Idealize.ShloMosaic.PureOps.Ideal.Laws
import Mathlib.Data.Finset.Fold
import Mathlib.Algebra.BigOperators.Fin

noncomputable section

namespace PaddedLogSoftmax

open Idealize.ShloMosaic
open scoped BigOperators

/-- The greatest entry of a finite family of extended reals, `⊥` for the empty family: the fold of
    `max` over all positions, started at `⊥`. -/
def rowMax {n : ℕ} (l : Fin n → EReal) : EReal :=
  (Finset.univ : Finset (Fin n)).fold max ⊥ l

/-- The logarithm of the softmax of `l` at position `j`, computed the stable way: subtract the
    greatest entry, then subtract the logarithm of the sum of the exponentials of the shifted
    entries. -/
def logSoftmax {n : ℕ} (l : Fin n → EReal) (j : Fin n) : EReal :=
  (l j - rowMax l) - Ideal.log (∑ j' : Fin n, Ideal.exp (l j' - rowMax l))

/-- The fold of `max` from `⊥` is the supremum of the family: the two are the same least upper
    bound. -/
theorem rowMax_eq_sup {n : ℕ} (l : Fin n → EReal) : rowMax l = Finset.univ.sup l := by
  refine eq_of_forall_ge_iff fun c => ?_
  rw [rowMax, Finset.fold_max_le, Finset.sup_le_iff]
  exact ⟨fun h => h.2, fun h => ⟨bot_le, h⟩⟩

/-- What lies above the greatest entry: exactly what lies above every entry. -/
theorem rowMax_le_iff {n : ℕ} (l : Fin n → EReal) (c : EReal) : rowMax l ≤ c ↔ ∀ j, l j ≤ c := by
  rw [rowMax, Finset.fold_max_le]
  exact ⟨fun h j => h.2 j (Finset.mem_univ j), fun h => ⟨bot_le, fun j _ => h j⟩⟩

/-- Every entry is at most the greatest entry. -/
theorem le_rowMax {n : ℕ} (l : Fin n → EReal) (j : Fin n) : l j ≤ rowMax l :=
  (rowMax_le_iff l (rowMax l)).mp le_rfl j

section Padding

variable {n N : ℕ} (h : n ≤ N) (l : Fin n → EReal) (L : Fin N → EReal)

/-- PADDING, the maximum: a longer family that repeats `l` on the first `n` positions and is `⊥`
    on the others has the same greatest entry, because `⊥` lies below everything: a bound of the
    old entries bounds the new family, and conversely the old entries are among the new. -/
theorem rowMax_pad (hlo : ∀ j : Fin n, L (Fin.castLE h j) = l j)
    (hhi : ∀ j : Fin N, n ≤ j.val → L j = ⊥) : rowMax L = rowMax l := by
  refine eq_of_forall_ge_iff fun c => ?_
  rw [rowMax_le_iff, rowMax_le_iff]
  constructor
  · intro hc j
    rw [← hlo j]
    exact hc _
  · intro hc j
    by_cases hj : j.val < n
    · have e : j = Fin.castLE h ⟨j.val, hj⟩ := Fin.ext rfl
      rw [e, hlo]
      exact hc _
    · rw [hhi j (Nat.le_of_not_lt hj)]
      exact bot_le

/-- PADDING, the sum of exponentials, for ANY shift `M` (finite or infinite): a padded position
    holds `⊥`, `⊥ - M = ⊥` whatever `M` is, and `exp ⊥ = 0`, so the padded positions add
    nothing. -/
theorem sum_exp_pad (hlo : ∀ j : Fin n, L (Fin.castLE h j) = l j)
    (hhi : ∀ j : Fin N, n ≤ j.val → L j = ⊥) (M : EReal) :
    ∑ j : Fin N, Ideal.exp (L j - M) = ∑ j : Fin n, Ideal.exp (l j - M) := by
  obtain ⟨m, rfl⟩ := Nat.exists_eq_add_of_le h
  rw [Fin.sum_univ_add]
  have hpad : ∑ i : Fin m, Ideal.exp (L (Fin.natAdd n i) - M) = 0 := by
    refine Finset.sum_eq_zero fun i _ => ?_
    rw [hhi (Fin.natAdd n i) (Nat.le_add_right n i.val), EReal.bot_sub, Ideal.exp_bot]
  rw [hpad, add_zero]
  refine Finset.sum_congr rfl fun i _ => ?_
  have e : Fin.castAdd m i = Fin.castLE h i := Fin.ext rfl
  rw [e, hlo]

/-- THE PADDING LAW: the logarithm of the softmax of the padded family, read at one of the first
    `n` positions, is that of the original family there. No hypothesis on the entries. -/
theorem logSoftmax_pad (hlo : ∀ j : Fin n, L (Fin.castLE h j) = l j)
    (hhi : ∀ j : Fin N, n ≤ j.val → L j = ⊥) (j : Fin n) :
    logSoftmax L (Fin.castLE h j) = logSoftmax l j := by
  unfold logSoftmax
  rw [rowMax_pad h l L hlo hhi, sum_exp_pad h l L hlo hhi, hlo]

end Padding

end PaddedLogSoftmax
-- ==== Proof.Payloads.lean ====
/-
  The two kernel bodies' stored values, read at one index, at the ideal values, in closed form.

  Both bodies load a block `x` of 2000 rows by 384 columns, a matrix `w` of 384 rows by 128
  columns and a row `b` of 128 entries, and begin alike: entry `(r, j)` of the product is
  `∑ k : Fin 384, x (r, k) * w (k, j)` (a contraction over the shared axis onto a zero
  accumulator: just the sum), and the row `b` is added to every row of the product.

  * The first body then takes the larger of that sum and zero.
  * The second body keeps lanes `j < 40` and puts `-∞` in the other 88 lanes, takes the row's
    greatest entry, subtracts it, and subtracts the logarithm of the sum of the exponentials of the
    shifted entries; it stores lanes `0 … 39`. The 88 lanes holding `-∞` change neither the
    greatest entry nor the sum of exponentials (the padding law), so what is stored at `(r, j)`,
    `j < 40`, is the logarithm of the softmax of the row's first 40 entries at `j`.
-/
import proofs.«136246_j62663572848803_1_alg».proof.Proof.Gen.KernelIdeal.Skeleton
import proofs.«136246_j62663572848803_1_alg».proof.Proof.LibPaddedLogSoftmax
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Idealize.ShloMosaic Idealize.SL.Sem
open Idealize.ShloMosaic.ValueIdx
open Cert.KernelIdeal.Facts₀
open scoped BigOperators

/-- The contraction both bodies perform: rows of a 2000 by 384 block against columns of a 384 by 128
    matrix, contracting the block's second axis with the matrix's first. -/
abbrev D : DotDims S2000x384 S384x128 S2000x128 := dot_S2000x384_S384x128_S2000x128_1_0_0_1_n_n

/-! ## The product at an index -/

/-- The left operand's row coordinate is the output's row. -/
theorem lhs_row (i : S2000x128.Idx) (q : D.contr.Idx) : (D.lhsIdx i q 0).val = (i 0).val := by
  unfold DotDims.lhsIdx
  rw [dif_neg (show ¬(0 : Fin S2000x384.rank) ∈ D.lhsBatch by decide),
    dif_pos (show (0 : Fin S2000x384.rank) ∈ D.lhsNonContracting by decide)]
  rfl

/-- The left operand's column coordinate is the contraction index. -/
theorem lhs_col (i : S2000x128.Idx) (q : D.contr.Idx) : (D.lhsIdx i q 1).val = (q ⟨0, by decide⟩).val :=
  D.lhsIdx_val_of_single rfl i q

/-- The right operand's row coordinate is the contraction index. -/
theorem rhs_row (i : S2000x128.Idx) (q : D.contr.Idx) : (D.rhsIdx i q 0).val = (q ⟨0, by decide⟩).val :=
  D.rhsIdx_val_of_single rfl i q

/-- The right operand's column coordinate is the output's column. -/
theorem rhs_col (i : S2000x128.Idx) (q : D.contr.Idx) : (D.rhsIdx i q 1).val = (i 1).val := by
  unfold DotDims.rhsIdx
  rw [dif_neg (show ¬(1 : Fin S384x128.rank) ∈ D.rhsBatch by decide),
    dif_pos (show (1 : Fin S384x128.rank) ∈ D.rhsNonContracting by decide)]
  rfl

/-- Entry `(r, j)` of the product onto a zero accumulator is `∑ k, x (r, k) * w (k, j)`: the
    contraction index has one axis of extent 384, so the sum over it is a sum over `Fin 384`. -/
theorem product_apply (x : FVec Ideal S2000x384 .bf16) (w : FVec Ideal S384x128 .bf16) (r : Fin 2000) (j : Fin 128) :
    matmul (F := Ideal) D none x w (constant (F := Ideal) S2000x128 .f32 0x00000000#32) (ix2 r j)
      = ∑ k : Fin 384, x (ix2 r k) * w (ix2 k j) := by
  simp only [matmul]
  rw [Ideal.matmul_constant_zero_apply, ← Equiv.sum_comp (contrEquiv1 D 384 rfl rfl).symm]
  refine Finset.sum_congr rfl fun k _ => ?_
  have hk := contrEquiv1_symm_val D 384 rfl rfl k
  have el : D.lhsIdx (ix2 r j) ((contrEquiv1 D 384 rfl rfl).symm k) = ix2 r k := funext fun a => Fin.ext (by
    match a with
    | ⟨0, _⟩ => exact lhs_row _ _
    | ⟨1, _⟩ => exact (lhs_col _ _).trans hk)
  have er : D.rhsIdx (ix2 r j) ((contrEquiv1 D 384 rfl rfl).symm k) = ix2 k j := funext fun a => Fin.ext (by
    match a with
    | ⟨0, _⟩ => exact (rhs_row _ _).trans hk
    | ⟨1, _⟩ => exact rhs_col _ _)
  rw [el, er]

/-- The row `b`, cast to its own shape twice and then repeated down 2000 rows, reads `b (0, j)` at
    `(r, j)`. -/
theorem bias_apply (b : FVec Ideal S1x128 .f32) (h1 h2 : S1x128.ShapeCasts S1x128) (hb : S1x128.Broadcasts S2000x128)
    (r : Fin 2000) (j : Fin 128) :
    broadcastTo S2000x128 (shapeCast S1x128 (shapeCast S1x128 b h1) h2) hb (ix2 r j) = b (ix2 (0 : Fin 1) j) := by
  rw [shapeCast_self, shapeCast_self]
  exact broadcastTo_1b_ab_apply b hb r j

/-- The product plus the row, at `(r, j)`: the value both bodies compute first. -/
theorem affine_apply (x : FVec Ideal S2000x384 .bf16) (w : FVec Ideal S384x128 .bf16) (b : FVec Ideal S1x128 .f32)
    (hx : S2000x384.ShapeCasts S2000x384) (hw : S384x128.ShapeCasts S384x128) (h1 h2 : S1x128.ShapeCasts S1x128)
    (hb : S1x128.Broadcasts S2000x128) (r : Fin 2000) (j : Fin 128) :
    addf (matmul (F := Ideal) D none (shapeCast S2000x384 x hx) (shapeCast S384x128 w hw)
        (constant (F := Ideal) S2000x128 .f32 0x00000000#32))
      (broadcastTo S2000x128 (shapeCast S1x128 (shapeCast S1x128 b h1) h2) hb) (ix2 r j)
      = (∑ k : Fin 384, x (ix2 r k) * w (ix2 k j)) + b (ix2 (0 : Fin 1) j) := by
  rw [addf_apply, shapeCast_self x hx, shapeCast_self w hw, product_apply, bias_apply]

/-! ## The first body: the larger of the affine value and zero -/

/-- What the first body stores at `(r, j)`: `max (∑ k, x (r, k) * w (k, j) + b (0, j)) 0`. -/
theorem relu_block_apply (x : Vec Ideal S2000x384 .bf16) (w : Vec Ideal S384x128 .bf16) (b : Vec Ideal S1x128 .f32)
    (r : Fin 2000) (j : Fin 128) :
    Gen.k0_pay1 (F := Ideal) x w b (ix2 r j)
      = max ((∑ k : Fin 384, (x (ix2 r k) : EReal) * (w (ix2 k j) : EReal)) + (b (ix2 (0 : Fin 1) j) : EReal)) 0 := by
  unfold Gen.k0_pay1
  refine (maximumf_apply _ _ _).trans ?_
  refine congrArg₂ max ?_ ?_
  · exact affine_apply x w b _ _ _ _ _ r j
  · exact Ideal.ofBits_zero_f32

/-! ## The second body: keep 40 lanes, then the stable logarithm of the softmax -/

section Layout
variable {α : Type}

/-- An `[a]` array cast to a column `[a, 1]` reads, at `(i, u)`, the operand at `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated across `b` lanes reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The word the greatest-entry reduction starts from denotes `-∞`. -/
theorem ofBits_neg_inf : Ideal.ofBits .f32 0xFF800000#32 = ⊥ := by simp [Ideal.ofBits, Ideal.ieee]

/-- The constant the second body puts in the lanes it drops is named `-∞` by the certificate's
    table of named constants. -/
theorem neg_big_eq : Named.named (F := Ideal) κ "neg_big" (φ := .f32) 0xF149F2CA#32 = (⊥ : EReal) :=
  IdealRules.named_const.ideal_named_scalar _ _ _ _ rfl

/-- The signed comparison of a lane number below 128 with 40 is `1` exactly for the lanes below 40. -/
theorem lane_lt_40 : ∀ k : Fin 128, IntOp.cmpi .slt (BitVec.ofNat 32 k.val) 40#32 = if k.val < 40 then 1#1 else 0#1 := by
  decide

/-- The block with lanes `k < 40` kept and the constant named `neg_big` in the others. -/
def masked (a : FVec Ideal S2000x128 .f32) : FVec Ideal S2000x128 .f32 :=
  select (cmpi .slt (iota .tc S2000x128 32 [1] iota_S2000x128_d1_w32) (broadcast S2000x128 40#32)) a
    (broadcast S2000x128 (Named.named (F := Ideal) κ "neg_big" (φ := .f32) 0xF149F2CA#32))

/-- At `(r, k)` the masked block selects by the comparison of the lane number `k` with 40. -/
theorem masked_apply (a : FVec Ideal S2000x128 .f32) (r : Fin 2000) (k : Fin 128) :
    masked a (ix2 r k) = if k.val < 40 then a (ix2 r k) else ⊥ := by
  unfold masked
  rw [select_apply, broadcast_apply, neg_big_eq]
  have hm : cmpi .slt (iota .tc S2000x128 32 [1] iota_S2000x128_d1_w32) (broadcast S2000x128 40#32) (ix2 r k)
      = if k.val < 40 then 1#1 else 0#1 := by
    show IntOp.cmpi .slt (iota .tc S2000x128 32 [1] iota_S2000x128_d1_w32 (ix2 r k)) 40#32 = _
    rw [iota_single_apply]
    exact lane_lt_40 k
  rw [hm]
  split
  · exact select_one _ _
  · exact select_zero _ _

/-- The rest of the second body as a function of the masked block `m`: the row's greatest entry,
    the shift by it, the exponentials' sum, its logarithm, the second shift, and lanes `0 … 39`. -/
def stable (m : FVec Ideal S2000x128 .f32) : FVec Ideal S2000x40 .f32 :=
  have v15 : FVec Ideal S2000 .f32 := multiReduction .maximumf [1] S2000 m 0xFF800000#32 reduces_S2000x128_S2000 (.inl rfl) rfl
  have v16 : FVec Ideal S2000x1 .f32 := shapeCast S2000x1 v15 shapeCasts_S2000_S2000x1
  have v17 : FVec Ideal S2000x128 .f32 := broadcastTo S2000x128 v16 broadcasts_S2000x1_S2000x128
  have v18 : FVec Ideal S2000x128 .f32 := subf m v17
  have v19 : FVec Ideal S2000x128 .f32 := exp v18
  have v20 : FVec Ideal S2000 .f32 := multiReduction .add [1] S2000 v19 0x00000000#32 reduces_S2000x128_S2000 (.inl rfl) rfl
  have v21 : FVec Ideal S2000x1 .f32 := shapeCast S2000x1 v20 shapeCasts_S2000_S2000x1
  have v22 : FVec Ideal S2000x1 .f32 := log v21
  have v23 : FVec Ideal S2000x128 .f32 := broadcastTo S2000x128 v22 broadcasts_S2000x1_S2000x128
  have v24 : FVec Ideal S2000x128 .f32 := subf v18 v23
  extractStridedSlice S2000x40 ![0, 0] v24 slices_S2000x128_o0_0_S2000x40

/-- The second body is the stable part applied to the masked affine block: the printed sequence,
    regrouped. -/
theorem k1_pay1_eq (x : Vec Ideal S2000x384 .bf16) (w : Vec Ideal S384x128 .bf16) (b : Vec Ideal S1x128 .f32) :
    Gen.k1_pay1 (F := Ideal) x w b
      = stable (masked (addf (matmul (F := Ideal) (φ₁ := .bf16) (φ₂ := .bf16) D none
            (shapeCast S2000x384 (x : FVec Ideal S2000x384 .bf16) shapeCasts_S2000x384_S2000x384)
            (shapeCast S384x128 (w : FVec Ideal S384x128 .bf16) shapeCasts_S384x128_S384x128)
            (constant (F := Ideal) S2000x128 .f32 0x00000000#32))
          (broadcastTo S2000x128
            (shapeCast S1x128 (shapeCast S1x128 (b : FVec Ideal S1x128 .f32) shapeCasts_S1x128_S1x128) shapeCasts_S1x128_S1x128)
            broadcasts_S1x128_S2000x128))) := rfl

/-- A lane reduction by `max` started at `-∞` is the row's greatest entry. -/
theorem lane_max_apply (m : FVec Ideal S2000x128 .f32) (h : S2000x128.Reduces [1] S2000)
    (hacc : (0xFF800000#32 : BitVec 32) = 0xFF800000#32) (r : Fin 2000) :
    multiReduction (F := Ideal) .maximumf [1] S2000 m 0xFF800000#32 h (.inl rfl) hacc (ix1 r)
      = PaddedLogSoftmax.rowMax fun k : Fin 128 => m (ix2 r k) := by
  refine (Ideal.multiReduction_maximumf_single m 0xFF800000#32 h (.inl rfl) hacc (ix1 r)).trans ?_
  show (Finset.univ : Finset (Fin 128)).fold max (Ideal.ofBits .f32 0xFF800000#32) (fun k => m (h.lift (ix1 r) k))
    = (Finset.univ : Finset (Fin 128)).fold max ⊥ fun k => m (ix2 r k)
  rw [ofBits_neg_inf]
  refine congrArg (fun f : Fin 128 → EReal => (Finset.univ : Finset (Fin 128)).fold max ⊥ f)
    (funext fun k => congrArg m (funext fun a => Fin.ext ?_))
  match a with
  | ⟨0, _⟩ => rfl
  | ⟨1, _⟩ => rfl

/-- A lane reduction by `+` started at zero is the row's sum. -/
theorem lane_sum_apply (m : FVec Ideal S2000x128 .f32) (h : S2000x128.Reduces [1] S2000)
    (hacc : (0x00000000#32 : BitVec 32) = 0x00000000#32) (r : Fin 2000) :
    multiReduction (F := Ideal) .add [1] S2000 m 0x00000000#32 h (.inl rfl) hacc (ix1 r) = ∑ k : Fin 128, m (ix2 r k) := by
  refine (Ideal.multiReduction_add_single m 0x00000000#32 h (.inl rfl) hacc (ix1 r)).trans ?_
  show ∑ k : Fin 128, m (h.lift (ix1 r) k) = ∑ k : Fin 128, m (ix2 r k)
  refine Finset.sum_congr rfl fun k _ => congrArg m (funext fun a => Fin.ext ?_)
  match a with
  | ⟨0, _⟩ => rfl
  | ⟨1, _⟩ => rfl

/-- The stable part at `(r, j)`, `j < 40`: the logarithm of the softmax of the WHOLE 128-lane row of
    the masked block, read at lane `j`. -/
theorem stable_apply (m : FVec Ideal S2000x128 .f32) (r : Fin 2000) (j : Fin 40) :
    stable m (ix2 r j)
      = PaddedLogSoftmax.logSoftmax (fun k : Fin 128 => m (ix2 r k)) (Fin.castLE (by decide) j) := by
  unfold stable
  refine (slice2_axis1_apply 0 _ slices_S2000x128_o0_0_S2000x40 r j (Fin.castLE (by decide) j) (Nat.zero_add _).symm).trans ?_
  rw [subf_apply, subf_apply, broadcastTo_a1_ab_apply, broadcastTo_a1_ab_apply]
  show (m (ix2 r (Fin.castLE _ j)) - shapeCast S2000x1 _ _ (ix2 r (0 : Fin 1)))
      - Ideal.log (shapeCast S2000x1 _ _ (ix2 r (0 : Fin 1))) = _
  rw [shapeCast_a_a1_apply, shapeCast_a_a1_apply, lane_max_apply, lane_sum_apply]
  unfold PaddedLogSoftmax.logSoftmax
  refine congrArg (fun s => _ - Ideal.log s) (Finset.sum_congr rfl fun k _ => ?_)
  show Ideal.exp (m (ix2 r k) - broadcastTo S2000x128 _ _ (ix2 r k)) = _
  rw [broadcastTo_a1_ab_apply, shapeCast_a_a1_apply, lane_max_apply]

/-- What the second body stores at `(r, j)`, `j < 40`: the logarithm of the softmax, over the 40
    kept lanes, of the affine values `∑ k, x (r, k) * w (k, j') + b (0, j')`, read at `j`. The 88
    dropped lanes hold `-∞` and leave neither the greatest entry nor the sum of exponentials
    changed. -/
theorem logsoftmax_block_apply (x : Vec Ideal S2000x384 .bf16) (w : Vec Ideal S384x128 .bf16) (b : Vec Ideal S1x128 .f32)
    (r : Fin 2000) (j : Fin 40) :
    Gen.k1_pay1 (F := Ideal) x w b (ix2 r j)
      = PaddedLogSoftmax.logSoftmax (fun j' : Fin 40 =>
          (∑ k : Fin 384, (x (ix2 r k) : EReal) * (w (ix2 k (Fin.castLE (by decide : 40 ≤ 128) j')) : EReal))
            + (b (ix2 (0 : Fin 1) (Fin.castLE (by decide : 40 ≤ 128) j')) : EReal)) j := by
  rw [k1_pay1_eq, stable_apply]
  refine PaddedLogSoftmax.logSoftmax_pad (by decide : 40 ≤ 128) _ _ (fun j' => ?_) (fun k hk => ?_) j
  · rw [masked_apply, if_pos (show (Fin.castLE (by decide : 40 ≤ 128) j').val < 40 from j'.isLt)]
    exact affine_apply x w b _ _ _ _ _ r _
  · rw [masked_apply, if_neg (Nat.not_lt.mpr hk)]

end Cert.KernelIdeal.Payload
-- ==== Proof.IdealArrays.lean ====
/-
  From blocks to arrays: what each of the two pallas_calls leaves in its WHOLE output array, as one
  function of the three arrays it reads, at the ideal values.

  Both calls walk 25 grid points. At point t the call is handed rows 2000·t … 2000·t + 1999 of its
  [50000, 384] activation array, the whole [384, 128] weight array and the whole [1, 128] bias row,
  and writes its output block back as rows 2000·t … 2000·t + 1999 of the output array. What the body
  stores at row r, lane j of its block depends only on row r of the activation block, which is row
  R = 2000·t + r of the activation array, on column j of the weights, and on the bias: so the block
  point t writes back IS rows 2000·t … of ONE function of the three arrays,

    first call    (R, j) ↦ max (∑ k, X (R, k) · W (k, j) + B (0, j)) 0              j < 128,
    second call   (R, j) ↦ logSoftmax (j' ↦ ∑ k, X (R, k) · W (k, j') + B (0, j')) j   j < 40,

  and since every row R lies in exactly the block of point R / 2000, the 25 blocks tile the output
  array and the array ends holding that function everywhere.
-/
import proofs.«136246_j62663572848803_1_alg».proof.Proof.IdealBlocks
import proofs.«136246_j62663572848803_1_alg».proof.Proof.Payloads

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

namespace Arrays

-- the buffers' contents when a call is entered, at the ideal values
variable (V : (c : Dev nD) → (b : Ref sig .tc) → Buf (Elt Ideal) ((c : Thread nD τ).loc b))

/-- A block's rectangle starts at the origin of its staging buffer. -/
theorem origin2 : (![0, 0] : Fin 2 → Nat) = fun _ => 0 := funext fun a => by fin_cases a <;> rfl

/-! ## The first call: product, bias row, the larger of that and zero -/

/-- The first call's whole output as a function of the activation array `X`, the weights `Wt` and the
    bias row `B`: at `(R, j)`, `max (∑ k, X (R, k) · Wt (k, j) + B (0, j)) 0`. -/
def dense0 (X : S50000x384.Idx → EReal) (Wt : S384x128.Idx → EReal) (B : S1x128.Idx → EReal) : S50000x128.Idx → EReal :=
  fun i => max ((∑ k : Fin 384, X (ix2 (i 0) k) * Wt (ix2 k (i 1))) + B (ix2 (0 : Fin 1) (i 1))) 0

/-- `dense0` at an index given by its coordinates. -/
theorem dense0_apply (X : S50000x384.Idx → EReal) (Wt : S384x128.Idx → EReal) (B : S1x128.Idx → EReal) (R : Fin 50000) (j : Fin 128) :
    dense0 X Wt B (ix2 R j) = max ((∑ k : Fin 384, X (ix2 R k) * Wt (ix2 k j)) + B (ix2 (0 : Fin 1) j)) 0 := rfl

/-- One point of the first call, over blocks of literal types: if row `r` of the activation block is row
    `R` of the array, and the weight and bias blocks are the arrays, the body's value at `(r, j)` is
    `dense0` at `(R, j)`. -/
theorem point0_apply (X : S50000x384.Idx → EReal) (Wt : S384x128.Idx → EReal) (B : S1x128.Idx → EReal)
    (x0 : Vec Ideal S2000x384 .bf16) (x1 : Vec Ideal S384x128 .bf16) (x2 : Vec Ideal S1x128 .f32)
    (r : Fin 2000) (j : Fin 128) (R : Fin 50000)
    (h0 : ∀ k : Fin 384, (x0 (ix2 r k) : EReal) = X (ix2 R k)) (h1 : ∀ k : Fin 384, (x1 (ix2 k j) : EReal) = Wt (ix2 k j))
    (h2 : (x2 (ix2 (0 : Fin 1) j) : EReal) = B (ix2 (0 : Fin 1) j)) :
    k0_pay1 (F := Ideal) x0 x1 x2 (ix2 r j) = dense0 X Wt B (ix2 R j) := by
  refine (Payload.relu_block_apply x0 x1 x2 r j).trans ?_
  rw [dense0_apply, h2]
  refine congrArg (fun s => max (s + B (ix2 (0 : Fin 1) j)) 0) (Finset.sum_congr rfl fun k _ => ?_)
  rw [h0 k, h1 k]

/-- WHAT POINT `t` WRITES BACK is block `t` of `dense0` of the three arrays as the call finds them. -/
theorem flushed0_eq (c : Dev nD) (t : Fin cfg0.N) :
    (dat0 (F := Ideal) V c).flushed 3 t
      = ((cfg0.win 3).blk t).view.read (Elt Ideal) (dense0 (V c main_v67) (V c main_v68) (V c main_v69)) := by
  show (cfg0.win 3).cut (grid0.coords t) ((dat0 V c).after 3 t) = _
  rw [after0_3]
  unfold out0_3
  rw [View.canon_unit_zero origin2]
  simp only [View.ld_unit_zero (S := S2000x384) origin2, View.ld_unit_zero (S := S384x128) origin2,
    View.ld_unit_zero (S := S1x128) origin2]
  obtain ⟨-, -, -, -, -, -, e0, e1⟩ := idx0 t
  funext y
  obtain ⟨r, j, rfl⟩ : ∃ (r : Fin 2000) (j : Fin 128), y = ix2 r j := ⟨y 0, y 1, eq_ix2 y⟩
  have hR : 2000 * t.val + r.val < 50000 := by
    have ht : t.val < 25 := t.isLt
    have hr := r.isLt
    omega
  show k0_pay1 (F := Ideal) (iblk0 V c 0 t) (iblk0 V c 1 t) (iblk0 V c 2 t) (ix2 r j)
    = dense0 (V c main_v67) (V c main_v68) (V c main_v69) (((cfg0.win 3).blk t).view.emb (ix2 r j))
  have hemb : ((cfg0.win 3).blk t).view.emb (ix2 r j) = ix2 (⟨2000 * t.val + r.val, hR⟩ : Fin 50000) j := by
    funext a; apply Fin.ext
    match a with
    | ⟨0, _⟩ => show win0_3.index t (0 : Fin 2) * 2000 + 1 * r.val = 2000 * t.val + r.val; rw [e0]; omega
    | ⟨1, _⟩ => show win0_3.index t (1 : Fin 2) * 128 + 1 * j.val = j.val; rw [e1]; omega
  rw [hemb]
  exact point0_apply _ _ _ _ _ _ r j ⟨2000 * t.val + r.val, hR⟩
    (fun k => blk0_0_apply V c t r k ⟨2000 * t.val + r.val, hR⟩ rfl)
    (fun k => blk0_1_apply V c t k j) (blk0_2_apply V c t 0 j)

/-- An index of the output array is in point `t`'s block iff each coordinate is in the block's range
    on its axis. -/
theorem mem_blk0 (t : Fin cfg0.N) (i : S50000x128.Idx) :
    i ∈ ((cfg0.win 3).blk t).view.set
      ↔ ∀ a : Fin 2, win0_3.index t a * S2000x128.size a ≤ (i a).val ∧ (i a).val < win0_3.index t a * S2000x128.size a + S2000x128.size a := by
  show i ∈ ((View.whole main_v70).slice (win0_3.rect t)).set ↔ _
  rw [View.set_slice_whole, Rect.mem_set_unit]
  exact Iff.rfl

/-- The 25 blocks tile the output array: row `R` lies in the block of point `R / 2000`. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : (i 0).val / 2000 < cfg0.N := by
    show (i 0).val / 2000 < 25
    omega
  refine ⟨⟨(i 0).val / 2000, hN⟩, flush0_3 _, ?_⟩
  obtain ⟨-, -, -, -, -, -, e0, e1⟩ := idx0 ⟨(i 0).val / 2000, hN⟩
  rw [mem_blk0]
  intro a
  match a with
  | ⟨0, _⟩ =>
    show win0_3.index ⟨(i 0).val / 2000, hN⟩ (0 : Fin 2) * 2000 ≤ (i 0).val
      ∧ (i 0).val < win0_3.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win0_3.index ⟨(i 0).val / 2000, hN⟩ (1 : Fin 2) * 128 ≤ (i 1).val
      ∧ (i 1).val < win0_3.index ⟨(i 0).val / 2000, hN⟩ (1 : Fin 2) * 128 + 128
    rw [e1]
    omega

/-- THE FIRST CALL'S OUTPUT ARRAY after the call: `dense0` of the three arrays as the call finds them. -/
theorem final0 (c : Dev nD) :
    (dat0 (F := Ideal) V c).arrAt 3 cfg0.N = dense0 (V c main_v67) (V c main_v68) (V c main_v69) :=
  (dat0 V c).arrAt_eq_of_cover 3 (dense0 (V c main_v67) (V c main_v68) (V c main_v69))
    (fun t _ => flushed0_eq V c t) cover0

/-! ## The second call: product, bias row, the logarithm of the softmax over the 40 kept lanes -/

/-- The second call's whole output as a function of the activation array `X`, the weights `Wt` and
    the bias row `B`: at `(R, j)`, `j < 40`, the logarithm of the softmax of
    `j' ↦ ∑ k, X (R, k) · Wt (k, j') + B (0, j')`, `j' < 40`, read at `j`. -/
def dense1 (X : S50000x384.Idx → EReal) (Wt : S384x128.Idx → EReal) (B : S1x128.Idx → EReal) : S50000x40.Idx → EReal :=
  fun i => PaddedLogSoftmax.logSoftmax (fun j' : Fin 40 =>
      (∑ k : Fin 384, X (ix2 (i 0) k) * Wt (ix2 k (Fin.castLE (by decide : 40 ≤ 128) j')))
        + B (ix2 (0 : Fin 1) (Fin.castLE (by decide : 40 ≤ 128) j'))) (i 1)

/-- `dense1` at an index given by its coordinates. -/
theorem dense1_apply (X : S50000x384.Idx → EReal) (Wt : S384x128.Idx → EReal) (B : S1x128.Idx → EReal) (R : Fin 50000) (j : Fin 40) :
    dense1 X Wt B (ix2 R j) = PaddedLogSoftmax.logSoftmax (fun j' : Fin 40 =>
      (∑ k : Fin 384, X (ix2 R k) * Wt (ix2 k (Fin.castLE (by decide : 40 ≤ 128) j')))
        + B (ix2 (0 : Fin 1) (Fin.castLE (by decide : 40 ≤ 128) j'))) j := rfl

/-- One point of the second call, over blocks of literal types: if row `r` of the activation block is
    row `R` of the array, and the weight and bias blocks are the arrays, the body's value at `(r, j)`
    is `dense1` at `(R, j)`. -/
theorem point1_apply (X : S50000x384.Idx → EReal) (Wt : S384x128.Idx → EReal) (B : S1x128.Idx → EReal)
    (x0 : Vec Ideal S2000x384 .bf16) (x1 : Vec Ideal S384x128 .bf16) (x2 : Vec Ideal S1x128 .f32)
    (r : Fin 2000) (j : Fin 40) (R : Fin 50000)
    (h0 : ∀ k : Fin 384, (x0 (ix2 r k) : EReal) = X (ix2 R k))
    (h1 : ∀ (k : Fin 384) (j' : Fin 128), (x1 (ix2 k j') : EReal) = Wt (ix2 k j'))
    (h2 : ∀ j' : Fin 128, (x2 (ix2 (0 : Fin 1) j') : EReal) = B (ix2 (0 : Fin 1) j')) :
    k1_pay1 (F := Ideal) x0 x1 x2 (ix2 r j) = dense1 X Wt B (ix2 R j) := by
  refine (Payload.logsoftmax_block_apply x0 x1 x2 r j).trans ?_
  rw [dense1_apply]
  refine congrArg (fun l : Fin 40 → EReal => PaddedLogSoftmax.logSoftmax l j) (funext fun j' => ?_)
  rw [h2]
  refine congrArg (fun s => s + B (ix2 (0 : Fin 1) (Fin.castLE (by decide : 40 ≤ 128) j')))
    (Finset.sum_congr rfl fun k _ => ?_)
  rw [h0 k, h1 k]

/-- WHAT POINT `t` WRITES BACK is block `t` of `dense1` of the three arrays as the call finds them. -/
theorem flushed1_eq (c : Dev nD) (t : Fin cfg1.N) :
    (dat1 (F := Ideal) V c).flushed 3 t
      = ((cfg1.win 3).blk t).view.read (Elt Ideal) (dense1 (V c main_v108) (V c main_v110) (V c main_v112)) := by
  show (cfg1.win 3).cut (grid1.coords t) ((dat1 V c).after 3 t) = _
  rw [after1_3]
  unfold out1_3
  rw [View.canon_unit_zero origin2]
  simp only [View.ld_unit_zero (S := S2000x384) origin2, View.ld_unit_zero (S := S384x128) origin2,
    View.ld_unit_zero (S := S1x128) origin2]
  obtain ⟨-, -, -, -, -, -, e0, e1⟩ := idx1 t
  funext y
  obtain ⟨r, j, rfl⟩ : ∃ (r : Fin 2000) (j : Fin 40), y = ix2 r j := ⟨y 0, y 1, eq_ix2 y⟩
  have hR : 2000 * t.val + r.val < 50000 := by
    have ht : t.val < 25 := t.isLt
    have hr := r.isLt
    omega
  show k1_pay1 (F := Ideal) (iblk1 V c 0 t) (iblk1 V c 1 t) (iblk1 V c 2 t) (ix2 r j)
    = dense1 (V c main_v108) (V c main_v110) (V c main_v112) (((cfg1.win 3).blk t).view.emb (ix2 r j))
  have hemb : ((cfg1.win 3).blk t).view.emb (ix2 r j) = ix2 (⟨2000 * t.val + r.val, hR⟩ : Fin 50000) j := by
    funext a; apply Fin.ext
    match a with
    | ⟨0, _⟩ => show win1_3.index t (0 : Fin 2) * 2000 + 1 * r.val = 2000 * t.val + r.val; rw [e0]; omega
    | ⟨1, _⟩ => show win1_3.index t (1 : Fin 2) * 40 + 1 * j.val = j.val; rw [e1]; omega
  rw [hemb]
  exact point1_apply _ _ _ _ _ _ r j ⟨2000 * t.val + r.val, hR⟩
    (fun k => blk1_0_apply V c t r k ⟨2000 * t.val + r.val, hR⟩ rfl)
    (fun k j' => blk1_1_apply V c t k j') (fun j' => blk1_2_apply V c t 0 j')

/-- An index of the output array is in point `t`'s block iff each coordinate is in the block's range
    on its axis. -/
theorem mem_blk1 (t : Fin cfg1.N) (i : S50000x40.Idx) :
    i ∈ ((cfg1.win 3).blk t).view.set
      ↔ ∀ a : Fin 2, win1_3.index t a * S2000x40.size a ≤ (i a).val ∧ (i a).val < win1_3.index t a * S2000x40.size a + S2000x40.size a := by
  show i ∈ ((View.whole main_v113).slice (win1_3.rect t)).set ↔ _
  rw [View.set_slice_whole, Rect.mem_set_unit]
  exact Iff.rfl

/-- The 25 blocks tile the output array: row `R` lies in the block of point `R / 2000`. -/
theorem cover1 (i : S50000x40.Idx) :
    ∃ t : Fin cfg1.N, (cfg1.win 3).flush t = true ∧ i ∈ ((cfg1.win 3).blk t).view.set := by
  have hi0 : (i 0).val < 50000 := (i 0).isLt
  have hi1 : (i 1).val < 40 := (i 1).isLt
  have hN : (i 0).val / 2000 < cfg1.N := by
    show (i 0).val / 2000 < 25
    omega
  refine ⟨⟨(i 0).val / 2000, hN⟩, flush1_3 _, ?_⟩
  obtain ⟨-, -, -, -, -, -, e0, e1⟩ := idx1 ⟨(i 0).val / 2000, hN⟩
  rw [mem_blk1]
  intro a
  match a with
  | ⟨0, _⟩ =>
    show win1_3.index ⟨(i 0).val / 2000, hN⟩ (0 : Fin 2) * 2000 ≤ (i 0).val
      ∧ (i 0).val < win1_3.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win1_3.index ⟨(i 0).val / 2000, hN⟩ (1 : Fin 2) * 40 ≤ (i 1).val
      ∧ (i 1).val < win1_3.index ⟨(i 0).val / 2000, hN⟩ (1 : Fin 2) * 40 + 40
    rw [e1]
    omega

/-- THE SECOND CALL'S OUTPUT ARRAY after the call: `dense1` of the three arrays as the call finds them. -/
theorem final1 (c : Dev nD) :
    (dat1 (F := Ideal) V c).arrAt 3 cfg1.N = dense1 (V c main_v108) (V c main_v110) (V c main_v112) :=
  (dat1 V c).arrAt_eq_of_cover 3 (dense1 (V c main_v108) (V c main_v110) (V c main_v112))
    (fun t _ => flushed1_eq V c t) cover1

end Arrays

end Cert.KernelIdeal.Hand

end
-- ==== Proof.LibConcatDot.lean ====
/-
  A general lemma file: a finite sum over `3K` consecutive positions is the sum of its three
  consecutive blocks of `K` positions. No program is imported.

  This is the algebra behind "one product against three stacked blocks is the sum of three
  products": when the positions `0 … 3K-1` of a contraction are the concatenation of three
  families of length `K`, the contraction is the first family's contribution, plus the second's,
  plus the third's, associated `(a + b) + c`. It holds in any additive commutative monoid; it is
  stated for a general `K`, and again at `K = 128` over `Fin 384` with the literals written out.
-/
import Mathlib.Algebra.BigOperators.Fin

noncomputable section

namespace ConcatDot

open scoped BigOperators

variable {M : Type*} [AddCommMonoid M]

/-- A sum over `3K` positions, split into the blocks `[0, K)`, `[K, 2K)` and `[2K, 3K)`:
    position `k` of the second block is position `K + k` of the whole, and of the third block
    position `2K + k`. -/
theorem sum_three_blocks (K : ℕ) (f : Fin (3 * K) → M) :
    ∑ k : Fin (3 * K), f k
      = ((∑ k : Fin K, f ⟨k.val, by have := k.isLt; omega⟩)
          + ∑ k : Fin K, f ⟨K + k.val, by have := k.isLt; omega⟩)
        + ∑ k : Fin K, f ⟨2 * K + k.val, by have := k.isLt; omega⟩ := by
  have e : K + K + K = 3 * K := by omega
  -- re-index the whole sum over `Fin (K + K + K)`, then cut it at `2K` and at `K`
  rw [← Fin.sum_congr' f e, Fin.sum_univ_add, Fin.sum_univ_add]
  refine congrArg₂ (· + ·) (congrArg₂ (· + ·) ?_ ?_) ?_
  · exact Finset.sum_congr rfl fun k _ => congrArg f (Fin.ext rfl)
  · exact Finset.sum_congr rfl fun k _ => congrArg f (Fin.ext rfl)
  · refine Finset.sum_congr rfl fun k _ => congrArg f (Fin.ext ?_)
    show K + K + k.val = 2 * K + k.val
    omega

/-- The same at `K = 128`: a sum over `Fin 384` is the sum over positions `k`, plus the sum over
    positions `128 + k`, plus the sum over positions `256 + k`, `k` running over `Fin 128`. -/
theorem sum_fin384_blocks (f : Fin 384 → M) :
    ∑ k : Fin 384, f k
      = ((∑ k : Fin 128, f ⟨k.val, by have := k.isLt; omega⟩)
          + ∑ k : Fin 128, f ⟨128 + k.val, by have := k.isLt; omega⟩)
        + ∑ k : Fin 128, f ⟨256 + k.val, by have := k.isLt; omega⟩ :=
  sum_three_blocks 128 f

end ConcatDot
-- ==== Proof.OperandReads.lean ====
import proofs.«136246_j62663572848803_1_alg».proof.Proof.HostTerms
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

/-!
# The kernels' operands read at an index, at the ideal values

The two kernels read arrays that the host operations composed: three arrays side by side along the columns, three
weight slices one under the other, the second layer's weights and bias widened from 40 to 128 columns.  Each lemma
reads one of them at an index as ONE entry of an argument array.  At the ideal values the rounding to bf16 is the
identity.  The caller names the index: a column `q` of the 384 comes with the equation that places it in its block of
128, a column `c` of the 128 with the equation that places it among the 40 real ones or past them.
-/

noncomputable section

namespace Cert.KernelIdeal.Host

open Cert.KernelIdeal Cert.KernelIdeal.Gen Idealize.ShloMosaic Idealize.ShloMosaic.TcCoe Idealize.SL.Sem
open Idealize.ShloMosaic.ValueIdx

/-! ## Three arrays side by side: the column blocks -/

theorem catCols_apply0 (a b c : FVec Ideal S50000x128 .f32) (R : Fin 50000) (k : Fin 128) (q : Fin 384)
    (hq : q.val = k.val) : catCols (F := Ideal) a b c (ix2 R q) = a (ix2 R k) := by
  unfold catCols
  rw [truncf_apply]
  exact concatenate_apply_piece (1 : Fin S50000x384.rank) [⟨S50000x128, a⟩, ⟨S50000x128, b⟩, ⟨S50000x128, c⟩]
    concatenates_S50000x128_S50000x128_S50000x128_S50000x384_d1 (ix2 R q)
    0 (by show (0 : Nat) < 3; decide) S50000x128 a rfl rfl 0 rfl (ix2 R k) (fun d hd => match d, hd with | ⟨0, _⟩, _ => rfl | ⟨1, _⟩, hd => absurd rfl hd)
    (by show 0 + k.val = q.val; omega)

theorem catCols_apply1 (a b c : FVec Ideal S50000x128 .f32) (R : Fin 50000) (k : Fin 128) (q : Fin 384)
    (hq : q.val = 128 + k.val) : catCols (F := Ideal) a b c (ix2 R q) = b (ix2 R k) := by
  unfold catCols
  rw [truncf_apply]
  exact concatenate_apply_piece (1 : Fin S50000x384.rank) [⟨S50000x128, a⟩, ⟨S50000x128, b⟩, ⟨S50000x128, c⟩]
    concatenates_S50000x128_S50000x128_S50000x128_S50000x384_d1 (ix2 R q)
    1 (by show (1 : Nat) < 3; decide) S50000x128 b rfl rfl 128 rfl (ix2 R k) (fun d hd => match d, hd with | ⟨0, _⟩, _ => rfl | ⟨1, _⟩, hd => absurd rfl hd)
    (by show 128 + k.val = q.val; omega)

theorem catCols_apply2 (a b c : FVec Ideal S50000x128 .f32) (R : Fin 50000) (k : Fin 128) (q : Fin 384)
    (hq : q.val = 256 + k.val) : catCols (F := Ideal) a b c (ix2 R q) = c (ix2 R k) := by
  unfold catCols
  rw [truncf_apply]
  exact concatenate_apply_piece (1 : Fin S50000x384.rank) [⟨S50000x128, a⟩, ⟨S50000x128, b⟩, ⟨S50000x128, c⟩]
    concatenates_S50000x128_S50000x128_S50000x128_S50000x384_d1 (ix2 R q)
    2 (by show (2 : Nat) < 3; decide) S50000x128 c rfl rfl 256 rfl (ix2 R k) (fun d hd => match d, hd with | ⟨0, _⟩, _ => rfl | ⟨1, _⟩, hd => absurd rfl hd)
    (by show 256 + k.val = q.val; omega)

/-! ## The weight slices -/

theorem w1Slice0_apply (x : FVec Ideal S3x128x128 .f32) (k : Fin 128) (j : Fin 128) :
    w1Slice0 (F := Ideal) x (ix2 k j) = x (ix3 (0 : Fin 3) k j) := by
  unfold w1Slice0
  refine (shapeCast_1ab_ab_apply _ _ k j).trans ?_
  exact extractStridedSlice_apply _ x _ _ (ix3 (0 : Fin 3) k j) (fun a => match a with
    | ⟨0, _⟩ => rfl
    | ⟨1, _⟩ => by show k.val = 0 + k.val; omega
    | ⟨2, _⟩ => by show j.val = 0 + j.val; omega)

theorem w1Slice1_apply (x : FVec Ideal S3x128x128 .f32) (k : Fin 128) (j : Fin 128) :
    w1Slice1 (F := Ideal) x (ix2 k j) = x (ix3 (1 : Fin 3) k j) := by
  unfold w1Slice1
  refine (shapeCast_1ab_ab_apply _ _ k j).trans ?_
  exact extractStridedSlice_apply _ x _ _ (ix3 (1 : Fin 3) k j) (fun a => match a with
    | ⟨0, _⟩ => rfl
    | ⟨1, _⟩ => by show k.val = 0 + k.val; omega
    | ⟨2, _⟩ => by show j.val = 0 + j.val; omega)

theorem w1Slice2_apply (x : FVec Ideal S3x128x128 .f32) (k : Fin 128) (j : Fin 128) :
    w1Slice2 (F := Ideal) x (ix2 k j) = x (ix3 (2 : Fin 3) k j) := by
  unfold w1Slice2
  refine (shapeCast_1ab_ab_apply _ _ k j).trans ?_
  exact extractStridedSlice_apply _ x _ _ (ix3 (2 : Fin 3) k j) (fun a => match a with
    | ⟨0, _⟩ => rfl
    | ⟨1, _⟩ => by show k.val = 0 + k.val; omega
    | ⟨2, _⟩ => by show j.val = 0 + j.val; omega)

theorem w2Slice0_apply (x : FVec Ideal S3x128x40 .f32) (k : Fin 128) (j : Fin 40) :
    w2Slice0 (F := Ideal) x (ix2 k j) = x (ix3 (0 : Fin 3) k j) := by
  unfold w2Slice0
  refine (shapeCast_1ab_ab_apply _ _ k j).trans ?_
  exact extractStridedSlice_apply _ x _ _ (ix3 (0 : Fin 3) k j) (fun a => match a with
    | ⟨0, _⟩ => rfl
    | ⟨1, _⟩ => by show k.val = 0 + k.val; omega
    | ⟨2, _⟩ => by show j.val = 0 + j.val; omega)

theorem w2Slice1_apply (x : FVec Ideal S3x128x40 .f32) (k : Fin 128) (j : Fin 40) :
    w2Slice1 (F := Ideal) x (ix2 k j) = x (ix3 (1 : Fin 3) k j) := by
  unfold w2Slice1
  refine (shapeCast_1ab_ab_apply _ _ k j).trans ?_
  exact extractStridedSlice_apply _ x _ _ (ix3 (1 : Fin 3) k j) (fun a => match a with
    | ⟨0, _⟩ => rfl
    | ⟨1, _⟩ => by show k.val = 0 + k.val; omega
    | ⟨2, _⟩ => by show j.val = 0 + j.val; omega)

theorem w2Slice2_apply (x : FVec Ideal S3x128x40 .f32) (k : Fin 128) (j : Fin 40) :
    w2Slice2 (F := Ideal) x (ix2 k j) = x (ix3 (2 : Fin 3) k j) := by
  unfold w2Slice2
  refine (shapeCast_1ab_ab_apply _ _ k j).trans ?_
  exact extractStridedSlice_apply _ x _ _ (ix3 (2 : Fin 3) k j) (fun a => match a with
    | ⟨0, _⟩ => rfl
    | ⟨1, _⟩ => by show k.val = 0 + k.val; omega
    | ⟨2, _⟩ => by show j.val = 0 + j.val; omega)

/-! ## The slices one under the other -/

theorem w1Cat_apply0 (x : FVec Ideal S3x128x128 .f32) (k : Fin 128) (j : Fin 128) (q : Fin 384)
    (hq : q.val = k.val) : w1Cat (F := Ideal) x (ix2 q j) = x (ix3 (0 : Fin 3) k j) := by
  unfold w1Cat
  rw [truncf_apply]
  refine (concatenate_apply_piece (0 : Fin S384x128.rank) [⟨S128x128, w1Slice0 x⟩, ⟨S128x128, w1Slice1 x⟩, ⟨S128x128, w1Slice2 x⟩]
    concatenates_S128x128_S128x128_S128x128_S384x128_d0 (ix2 q j)
    0 (by show (0 : Nat) < 3; decide) S128x128 (w1Slice0 x) rfl rfl 0 rfl (ix2 k j) (fun d hd => match d, hd with | ⟨0, _⟩, hd => absurd rfl hd | ⟨1, _⟩, _ => rfl)
    (by show 0 + k.val = q.val; omega)).trans ?_
  exact w1Slice0_apply x k j

theorem w1Cat_apply1 (x : FVec Ideal S3x128x128 .f32) (k : Fin 128) (j : Fin 128) (q : Fin 384)
    (hq : q.val = 128 + k.val) : w1Cat (F := Ideal) x (ix2 q j) = x (ix3 (1 : Fin 3) k j) := by
  unfold w1Cat
  rw [truncf_apply]
  refine (concatenate_apply_piece (0 : Fin S384x128.rank) [⟨S128x128, w1Slice0 x⟩, ⟨S128x128, w1Slice1 x⟩, ⟨S128x128, w1Slice2 x⟩]
    concatenates_S128x128_S128x128_S128x128_S384x128_d0 (ix2 q j)
    1 (by show (1 : Nat) < 3; decide) S128x128 (w1Slice1 x) rfl rfl 128 rfl (ix2 k j) (fun d hd => match d, hd with | ⟨0, _⟩, hd => absurd rfl hd | ⟨1, _⟩, _ => rfl)
    (by show 128 + k.val = q.val; omega)).trans ?_
  exact w1Slice1_apply x k j

theorem w1Cat_apply2 (x : FVec Ideal S3x128x128 .f32) (k : Fin 128) (j : Fin 128) (q : Fin 384)
    (hq : q.val = 256 + k.val) : w1Cat (F := Ideal) x (ix2 q j) = x (ix3 (2 : Fin 3) k j) := by
  unfold w1Cat
  rw [truncf_apply]
  refine (concatenate_apply_piece (0 : Fin S384x128.rank) [⟨S128x128, w1Slice0 x⟩, ⟨S128x128, w1Slice1 x⟩, ⟨S128x128, w1Slice2 x⟩]
    concatenates_S128x128_S128x128_S128x128_S384x128_d0 (ix2 q j)
    2 (by show (2 : Nat) < 3; decide) S128x128 (w1Slice2 x) rfl rfl 256 rfl (ix2 k j) (fun d hd => match d, hd with | ⟨0, _⟩, hd => absurd rfl hd | ⟨1, _⟩, _ => rfl)
    (by show 256 + k.val = q.val; omega)).trans ?_
  exact w1Slice2_apply x k j

/-- Row `128 * s + k` of the stacked slices is row `k` of slice `s`. -/
theorem w1Cat_apply (x : FVec Ideal S3x128x128 .f32) (s : Fin 3) (k : Fin 128) (j : Fin 128) (q : Fin 384)
    (hq : q.val = 128 * s.val + k.val) : w1Cat (F := Ideal) x (ix2 q j) = x (ix3 s k j) :=
  match s, hq with
  | ⟨0, _⟩, hq => w1Cat_apply0 x k j q (by have : q.val = 128 * 0 + k.val := hq; omega)
  | ⟨1, _⟩, hq => w1Cat_apply1 x k j q (by have : q.val = 128 * 1 + k.val := hq; omega)
  | ⟨2, _⟩, hq => w1Cat_apply2 x k j q (by have : q.val = 128 * 2 + k.val := hq; omega)

theorem w2Cat_apply0 (x : FVec Ideal S3x128x40 .f32) (k : Fin 128) (j : Fin 40) (q : Fin 384)
    (hq : q.val = k.val) : w2Cat (F := Ideal) x (ix2 q j) = x (ix3 (0 : Fin 3) k j) := by
  unfold w2Cat
  refine (concatenate_apply_piece (0 : Fin S384x40.rank) [⟨S128x40, w2Slice0 x⟩, ⟨S128x40, w2Slice1 x⟩, ⟨S128x40, w2Slice2 x⟩]
    concatenates_S128x40_S128x40_S128x40_S384x40_d0 (ix2 q j)
    0 (by show (0 : Nat) < 3; decide) S128x40 (w2Slice0 x) rfl rfl 0 rfl (ix2 k j) (fun d hd => match d, hd with | ⟨0, _⟩, hd => absurd rfl hd | ⟨1, _⟩, _ => rfl)
    (by show 0 + k.val = q.val; omega)).trans ?_
  exact w2Slice0_apply x k j

theorem w2Cat_apply1 (x : FVec Ideal S3x128x40 .f32) (k : Fin 128) (j : Fin 40) (q : Fin 384)
    (hq : q.val = 128 + k.val) : w2Cat (F := Ideal) x (ix2 q j) = x (ix3 (1 : Fin 3) k j) := by
  unfold w2Cat
  refine (concatenate_apply_piece (0 : Fin S384x40.rank) [⟨S128x40, w2Slice0 x⟩, ⟨S128x40, w2Slice1 x⟩, ⟨S128x40, w2Slice2 x⟩]
    concatenates_S128x40_S128x40_S128x40_S384x40_d0 (ix2 q j)
    1 (by show (1 : Nat) < 3; decide) S128x40 (w2Slice1 x) rfl rfl 128 rfl (ix2 k j) (fun d hd => match d, hd with | ⟨0, _⟩, hd => absurd rfl hd | ⟨1, _⟩, _ => rfl)
    (by show 128 + k.val = q.val; omega)).trans ?_
  exact w2Slice1_apply x k j

theorem w2Cat_apply2 (x : FVec Ideal S3x128x40 .f32) (k : Fin 128) (j : Fin 40) (q : Fin 384)
    (hq : q.val = 256 + k.val) : w2Cat (F := Ideal) x (ix2 q j) = x (ix3 (2 : Fin 3) k j) := by
  unfold w2Cat
  refine (concatenate_apply_piece (0 : Fin S384x40.rank) [⟨S128x40, w2Slice0 x⟩, ⟨S128x40, w2Slice1 x⟩, ⟨S128x40, w2Slice2 x⟩]
    concatenates_S128x40_S128x40_S128x40_S384x40_d0 (ix2 q j)
    2 (by show (2 : Nat) < 3; decide) S128x40 (w2Slice2 x) rfl rfl 256 rfl (ix2 k j) (fun d hd => match d, hd with | ⟨0, _⟩, hd => absurd rfl hd | ⟨1, _⟩, _ => rfl)
    (by show 256 + k.val = q.val; omega)).trans ?_
  exact w2Slice2_apply x k j

/-- Row `128 * s + k` of the stacked slices is row `k` of slice `s`. -/
theorem w2Cat_apply (x : FVec Ideal S3x128x40 .f32) (s : Fin 3) (k : Fin 128) (j : Fin 40) (q : Fin 384)
    (hq : q.val = 128 * s.val + k.val) : w2Cat (F := Ideal) x (ix2 q j) = x (ix3 s k j) :=
  match s, hq with
  | ⟨0, _⟩, hq => w2Cat_apply0 x k j q (by have : q.val = 128 * 0 + k.val := hq; omega)
  | ⟨1, _⟩, hq => w2Cat_apply1 x k j q (by have : q.val = 128 * 1 + k.val := hq; omega)
  | ⟨2, _⟩, hq => w2Cat_apply2 x k j q (by have : q.val = 128 * 2 + k.val := hq; omega)

/-! ## The second layer's weights and bias widened to 128 columns

The 40 real columns keep their entries; every column past them holds the padding value. -/

/-- The integer zero converted is the float zero. -/
theorem sitofp_zero_apply (i : S_.Idx) : (sitofp (F := Ideal) .f32 (constantI S_ 32 0#32)) i = 0 := by
  show ((((0#32 : BitVec 32).toInt : ℤ) : ℝ) : EReal) = 0
  simp

theorem w2Pad_apply (x : FVec Ideal S3x128x40 .f32) (v : FVec Ideal S_ .f32) (s : Fin 3) (k : Fin 128) (j : Fin 40) (q : Fin 384)
    (hq : q.val = 128 * s.val + k.val) (c : Fin 128) (hc : c.val = j.val) :
    (truncf .bf16 (pad S384x128 ![0, 0] ![0, 88] ![0, 0] (w2Cat x) v pads_S384x40_S384x128_000_0880 h_S_) bitsLt_bf16_f32
      : FVec Ideal S384x128 .bf16) (ix2 q c) = x (ix3 s k j) := by
  rw [truncf_apply]
  refine (pad_apply_of_inside _ _ _ (w2Cat x) v pads_S384x40_S384x128_000_0880 h_S_ (ix2 q c) (ix2 q j) (fun a => match a with
    | ⟨0, _⟩ => by show q.val = 0 + q.val * (0 + 1); omega
    | ⟨1, _⟩ => by show c.val = 0 + j.val * (0 + 1); omega)).trans ?_
  exact w2Cat_apply x s k j q hq

theorem w2Pad_apply_out (x : FVec Ideal S3x128x40 .f32) (v : FVec Ideal S_ .f32) (q : Fin 384) (c : Fin 128) (hc : 40 ≤ c.val) :
    (truncf .bf16 (pad S384x128 ![0, 0] ![0, 88] ![0, 0] (w2Cat x) v pads_S384x40_S384x128_000_0880 h_S_) bitsLt_bf16_f32
      : FVec Ideal S384x128 .bf16) (ix2 q c) = v ix0 := by
  rw [truncf_apply]
  refine (pad_apply_of_not_inside _ _ _ (w2Cat x) v pads_S384x40_S384x128_000_0880 h_S_ (ix2 q c) (1 : Fin 2) ?_).trans
    (congrArg v (eq_ix0 _))
  intro h
  have h3 : (c.val - 0) / (0 + 1) < 40 := h.2.2
  omega

theorem b2Pad_apply (x : FVec Ideal S40 .f32) (v : FVec Ideal S_ .f32) (u : Fin 1) (j : Fin 40) (c : Fin 128) (hc : c.val = j.val) :
    (shapeCast S1x128 (pad S128 ![0] ![88] ![0] x v pads_S40_S128_0880 h_S_) shapeCasts_S128_S1x128) (ix2 u c) = x (ix1 j) := by
  refine (shapeCast_a_1a_apply _ _ u c).trans ?_
  exact pad_apply_of_inside _ _ _ x v pads_S40_S128_0880 h_S_ (ix1 c) (ix1 j) (fun a => match a with
    | ⟨0, _⟩ => by show c.val = 0 + j.val * (0 + 1); omega)

theorem b2Pad_apply_out (x : FVec Ideal S40 .f32) (v : FVec Ideal S_ .f32) (u : Fin 1) (c : Fin 128) (hc : 40 ≤ c.val) :
    (shapeCast S1x128 (pad S128 ![0] ![88] ![0] x v pads_S40_S128_0880 h_S_) shapeCasts_S128_S1x128) (ix2 u c) = v ix0 := by
  refine (shapeCast_a_1a_apply _ _ u c).trans ?_
  refine (pad_apply_of_not_inside _ _ _ x v pads_S40_S128_0880 h_S_ (ix1 c) (0 : Fin 1) ?_).trans (congrArg v (eq_ix0 _))
  intro h
  have h3 : (c.val - 0) / (0 + 1) < 40 := h.2.2
  omega

/-- A vector as one row. -/
theorem b1Row_apply {α : Type} (x : S128.Idx → α) (u : Fin 1) (j : Fin 128) :
    (shapeCast S1x128 x shapeCasts_S128_S1x128) (ix2 u j) = x (ix1 j) :=
  shapeCast_a_1a_apply _ _ u j

/-! ## The second Chebyshev term, entry by entry -/

theorem chebOf_apply (two : FVec Ideal S_ .f32) (t h : FVec Ideal S50000x128 .f32) (i : S50000x128.Idx) :
    chebOf (F := Ideal) two t h i = two ix0 * t i - h i := by
  unfold chebOf
  rw [subf_apply, mulf_apply, broadcastInDim_scalar_apply]

end Cert.KernelIdeal.Host

end
-- ==== Proof.HostBridge.lean ====
/-
  THE REFERENCE'S SPARSE PRODUCTS ARE THE KERNEL PROGRAM'S.

  Both programs compute, on the host, the same graph data from the edge array — the source and
  destination rows, the node degrees, deg^(−1/2) guarded at isolated nodes, the edge weights
  w = −deg^(−1/2)[src]·deg^(−1/2)[dst] — and the same sparse product
      (L·h)[i] = Σ_{edges e into i} w[e] · h[src[e]]
  as a gather of rows, a scaling and a scatter-add from zero, and the same Chebyshev step 2·(L·t) − h.
  The two texts print these operations in two vocabularies (each with its own copies of the shape
  names and dimension records), and the reference re-derives the wrapped source indices before each
  gather and reads the edge rows twice; as terms they are the same.

  This module says so stage by stage: each stage of the reference's chain is the corresponding
  function of the kernel program's vocabulary applied to the previous stages.  Every equation is
  proved from the previous ones by unfolding the stage's own definition (one operation) — no gather
  or scatter-add is ever evaluated; the two sides are compared as compositions of the same opaque
  operations.
-/
import proofs.«136246_j62663572848803_1_alg».proof.Proof.RefRead
import proofs.«136246_j62663572848803_1_alg».proof.Proof.HostTerms

noncomputable section

namespace Cert.Bridge

open Cert.ReferenceIdeal.Read Cert.KernelIdeal.Host Idealize.ShloMosaic

/-! ## The edge data: the two index rows, the degrees, the edge weights

All of it is a function of the edge array alone. -/

section Edge
variable (x1 : (⟨Cert.ReferenceIdeal.S2x800000, .i32⟩ : BufTy).Contents (Elt Ideal))

/-- The sources: row 0 of the edge array. -/
abbrev srcK : IVec Cert.KernelIdeal.S800000 32 := edgeRow0 x1
/-- The destinations: row 1 of the edge array. -/
abbrev dstK : IVec Cert.KernelIdeal.S800000 32 := edgeRow1 x1
/-- The degree of every node: the number of edges leaving it. -/
abbrev degK : FVec Ideal Cert.KernelIdeal.S50000 .f32 := degree (F := Ideal) (srcK x1)
/-- deg^(−1/2) where the degree is positive, 0 elsewhere. -/
abbrev disK : FVec Ideal Cert.KernelIdeal.S50000 .f32 :=
  select (degPos (degK x1)) (degRsqrt (degK x1))
    (broadcastInDim Cert.KernelIdeal.S50000 ![] Cert.KernelIdeal.Gen.bcast_S_S50000 (constant (F := Ideal) Cert.KernelIdeal.S_ .f32 0x00000000#32))
/-- The edge weights −dis[src]·dis[dst]. -/
abbrev wK : FVec Ideal Cert.KernelIdeal.S800000 .f32 := wEdge (srcK x1) (dstK x1) (disK x1)

/-- The reference reads row 0 of the edge array twice (once as the sources of the sparse product, once
    for the normalisation): both are the same row. -/
theorem ref_src : val_main_v1 (F := Ideal) x1 = srcK x1 := rfl
theorem ref_row : val_main_v5 (F := Ideal) x1 = srcK x1 := rfl
/-- Likewise row 1. -/
theorem ref_dst : val_main_v3 (F := Ideal) x1 = dstK x1 := rfl
theorem ref_col : val_main_v7 (F := Ideal) x1 = dstK x1 := rfl

/-- The degrees: ones scattered and added at the sources, from zero. -/
theorem ref_deg : val_main_v11 (F := Ideal) x1 = degK x1 := by
  unfold val_main_v11 val_main_v10 val_main_v9 val_main_v8 val_main_cst val_main_cst_0
  rw [ref_row]
  rfl

/-- deg^(−1/2), guarded: where the degree is positive the reciprocal square root of max(deg, 1e-12), else 0. -/
theorem ref_dis : val_main_v17 (F := Ideal) x1 = disK x1 := by
  unfold val_main_v17 val_main_v13 val_main_v16 val_main_v15 val_main_v14 val_main_v12 val_main_call0_v1 val_main_call0_v0
    val_main_cst_1 val_main_cst_2 val_main_cst_3
  rw [ref_deg]
  rfl

/-- A negative index counts from the end: the sources (as the normalisation reads them), wrapped. -/
theorem ref_norm_row : val_main_v22 (F := Ideal) x1 = normIdx (srcK x1) := by
  unfold val_main_v22 val_main_v19 val_main_v21 val_main_v18 val_main_v20 val_main_c val_main_c_4
  rw [ref_row]
  rfl

/-- The destinations, wrapped. -/
theorem ref_norm_col : val_main_v30 (F := Ideal) x1 = normIdx (dstK x1) := by
  unfold val_main_v30 val_main_v27 val_main_v29 val_main_v26 val_main_v28 val_main_c_5 val_main_c_6
  rw [ref_col]
  rfl

/-- The edge weights: minus the product of deg^(−1/2) at the two ends of each edge. -/
theorem ref_w : val_main_v33 (F := Ideal) x1 = wK x1 := by
  unfold val_main_v33 val_main_v25 val_main_v24 val_main_v32 val_main_v23 val_main_v31
  rw [ref_dis, ref_norm_row, ref_norm_col]
  rfl

/-- The sources wrapped, as each of the four sparse products recomputes them. -/
theorem ref_norm_src1 : val_main_v41 (F := Ideal) x1 = normIdx (srcK x1) := by
  unfold val_main_v41 val_main_v38 val_main_v40 val_main_v37 val_main_v39 val_main_c_7 val_main_c_8
  rw [ref_src]
  rfl
theorem ref_norm_src2 : val_main_v58 (F := Ideal) x1 = normIdx (srcK x1) := by
  unfold val_main_v58 val_main_v55 val_main_v57 val_main_v54 val_main_v56 val_main_c_10 val_main_c_11
  rw [ref_src]
  rfl
theorem ref_norm_src3 : val_main_v85 (F := Ideal) x1 = normIdx (srcK x1) := by
  unfold val_main_v85 val_main_v82 val_main_v84 val_main_v81 val_main_v83 val_main_c_14 val_main_c_15
  rw [ref_src]
  rfl
theorem ref_norm_src4 : val_main_v102 (F := Ideal) x1 = normIdx (srcK x1) := by
  unfold val_main_v102 val_main_v99 val_main_v101 val_main_v98 val_main_v100 val_main_c_17 val_main_c_18
  rw [ref_src]
  rfl

end Edge

/-! ## The four sparse products and the two Chebyshev steps

L·h gathers the rows of h at the (wrapped) sources, scales row e by the weight of edge e, and adds
row e into the row of the result that the destination of e names, starting from zero.  The reference
prints this chain four times (on x, on L·x, on the hidden layer H, on L·H); each is the same function
`spmv` of the edge data and of its operand.  The second Chebyshev term is 2·(L·t) − h. -/

section Products
variable (x0 : (⟨Cert.ReferenceIdeal.S50000x128, .f32⟩ : BufTy).Contents (Elt Ideal)) (x1 : (⟨Cert.ReferenceIdeal.S2x800000, .i32⟩ : BufTy).Contents (Elt Ideal))
  (x2 : (⟨Cert.ReferenceIdeal.S3x128x128, .f32⟩ : BufTy).Contents (Elt Ideal)) (x3 : (⟨Cert.ReferenceIdeal.S128, .f32⟩ : BufTy).Contents (Elt Ideal))

/-- T1a = L·x. -/
theorem ref_T1a : val_main_v49 (F := Ideal) x0 x1 = spmv (srcK x1) (dstK x1) (wK x1) x0 := by
  unfold val_main_v49 val_main_v47 val_main_v48 val_main_v46 val_main_v43 val_main_v42 val_main_v45 val_main_v44 val_main_cst_9
  rw [ref_norm_src1, ref_dst, ref_w]
  rfl

/-- L·(L·x), the sparse product of the first one. -/
theorem ref_LT1a : val_main_v66 (F := Ideal) x0 x1 = spmv (srcK x1) (dstK x1) (wK x1) (val_main_v49 (F := Ideal) x0 x1) := by
  unfold val_main_v66 val_main_v64 val_main_v65 val_main_v63 val_main_v60 val_main_v59 val_main_v62 val_main_v61 val_main_cst_12
  rw [ref_norm_src2, ref_dst, ref_w]
  rfl

/-- T2a = 2·L·T1a − x. -/
theorem ref_T2a : val_main_v69 (F := Ideal) x0 x1
    = cheb2 (spmv (srcK x1) (dstK x1) (wK x1) (val_main_v49 (F := Ideal) x0 x1)) x0 := by
  unfold val_main_v69 val_main_v68 val_main_v67 val_main_cst_13
  rw [ref_LT1a]
  rfl

/-- T1b = L·H, H the hidden layer. -/
theorem ref_T1b : val_main_v93 (F := Ideal) x0 x1 x2 x3
    = spmv (srcK x1) (dstK x1) (wK x1) (val_main_v77 (F := Ideal) x0 x1 x2 x3) := by
  unfold val_main_v93 val_main_v91 val_main_v92 val_main_v90 val_main_v87 val_main_v86 val_main_v89 val_main_v88 val_main_cst_16
  rw [ref_norm_src3, ref_dst, ref_w]
  rfl

/-- L·(L·H). -/
theorem ref_LT1b : val_main_v110 (F := Ideal) x0 x1 x2 x3
    = spmv (srcK x1) (dstK x1) (wK x1) (val_main_v93 (F := Ideal) x0 x1 x2 x3) := by
  unfold val_main_v110 val_main_v108 val_main_v109 val_main_v107 val_main_v104 val_main_v103 val_main_v106 val_main_v105 val_main_cst_19
  rw [ref_norm_src4, ref_dst, ref_w]
  rfl

/-- T2b = 2·L·T1b − H. -/
theorem ref_T2b : val_main_v113 (F := Ideal) x0 x1 x2 x3
    = cheb2 (spmv (srcK x1) (dstK x1) (wK x1) (val_main_v93 (F := Ideal) x0 x1 x2 x3)) (val_main_v77 (F := Ideal) x0 x1 x2 x3) := by
  unfold val_main_v113 val_main_v112 val_main_v111 val_main_cst_20
  rw [ref_LT1b]
  rfl

end Products

end Cert.Bridge

end
-- ==== Proof.RefShape.lean ====
/-
  THE REFERENCE, READ AT AN INDEX.

  The reference is a two-layer Chebyshev graph convolution followed by a row-wise log-softmax.  With
  L the (fixed, sparse) rescaled Laplacian, each layer computes, from its input X,
      Tx0 = X,   Tx1 = L·X,   Tx2 = 2·L·Tx1 − X,
      out = ((Tx0·W[0] + Tx1·W[1]) + Tx2·W[2]) + b,
  the first layer followed by relu (maximum with 0), the second by log-softmax over its 40 columns.

  This module reads the two layers' outputs at ONE index (r, j), at the ideal (extended real)
  values.  The sparse products L·X (a gather along the edges, a scaling by the edge weight and a
  scatter-add) are NOT opened: they stay as the reference's own stages

      T1a = val_main_v49 x0 x1          (L·x)
      T2a = val_main_v69 x0 x1          (2·L·T1a − x)
      H   = val_main_v77 x0 x1 x2 x3    (the hidden layer: relu of layer 1)
      T1  = val_main_v93 x0 x1 x2 x3    (L·H)
      T2  = val_main_v113 x0 x1 x2 x3   (2·L·T1 − H)

  and everything around them is read: a slice W[s] of the weight array at (k, j) is the array at
  (s, k, j); a dot product of two matrices at (r, j) is the finite sum over the 128 contraction
  coordinates of the products of row r of the left matrix and column j of the right one; a bias row
  broadcast down the rows is the bias at j; the sums are associated exactly as the reference adds
  them, ((a + b) + c) + bias.

      hidden_apply :  H (r, j)      = max (((Σₖ x(r,k)·W1(0,k,j) + Σₖ T1a(r,k)·W1(1,k,j)) + Σₖ T2a(r,k)·W1(2,k,j)) + b1 j) 0
      logits_apply :  logits (r, j) =      ((Σₖ H(r,k)·W2(0,k,j) + Σₖ T1(r,k)·W2(1,k,j)) + Σₖ T2(r,k)·W2(2,k,j)) + b2 j
      result_apply :  result (r, j) = logSoftmax (fun j' => logits (r, j')) j

  The log-softmax of the reference is  (l j − M) − log (0 + Σₖ exp (l k − M))  with
  M = max (−∞) (the row's maximum, folded from −∞): the fold of max from −∞ over the 40 columns is
  the row maximum `rowMax`, the outer maximum with −∞ and the leading 0 of the sum change nothing.
-/
import proofs.«136246_j62663572848803_1_alg».proof.Proof.RefRead
import proofs.«136246_j62663572848803_1_alg».proof.Proof.LibPaddedLogSoftmax
import Idealize.ShloMosaic.Lib.ValueIdx
import Idealize.ShloMosaic.PureOps.Ideal.Laws

noncomputable section

namespace Cert.ReferenceIdeal.Shape

open Cert.ReferenceIdeal Cert.ReferenceIdeal.Gen Cert.ReferenceIdeal.Read Idealize.ShloMosaic Idealize.ShloMosaic.ValueIdx PaddedLogSoftmax
open scoped BigOperators

/-! ## Layer 1: indices

Each dot product's left index at output (r, j) and contraction coordinate k is (r, k).  Its right
operand is a slice of the weight array cast to a matrix; composing the dot's right index (k, j), the
cast (the flat position k·128 + j split back into (k, j)) and the slice's offset s gives (s, k, j). -/

theorem lidx36 (r : Fin 50000) (j : Fin 128) (k : Fin 128) : lidx_main_v36 (ix2 r j) k = ix2 r k :=
  funext fun a => Fin.ext (by match a with | ⟨0, _⟩ => rfl | ⟨1, _⟩ => rfl)
theorem lidx52 (r : Fin 50000) (j : Fin 128) (k : Fin 128) : lidx_main_v52 (ix2 r j) k = ix2 r k :=
  funext fun a => Fin.ext (by match a with | ⟨0, _⟩ => rfl | ⟨1, _⟩ => rfl)
theorem lidx72 (r : Fin 50000) (j : Fin 128) (k : Fin 128) : lidx_main_v72 (ix2 r j) k = ix2 r k :=
  funext fun a => Fin.ext (by match a with | ⟨0, _⟩ => rfl | ⟨1, _⟩ => rfl)

theorem widx1_0 (r : Fin 50000) (j : Fin 128) (k : Fin 128) :
    idx_main_v34 (idx_main_v35 (ridx_main_v36 (ix2 r j) k)) = ix3 (0 : Fin 3) k j := by
  funext a; apply Fin.ext
  have hk := k.isLt; have hj := j.isLt
  match a with
  | ⟨0, _⟩ => rfl
  | ⟨1, _⟩ => show (k.val * 128 + j.val) / 128 % 128 = k.val; omega
  | ⟨2, _⟩ => show (k.val * 128 + j.val) % 128 = j.val; omega
theorem widx1_1 (r : Fin 50000) (j : Fin 128) (k : Fin 128) :
    idx_main_v50 (idx_main_v51 (ridx_main_v52 (ix2 r j) k)) = ix3 (1 : Fin 3) k j := by
  funext a; apply Fin.ext
  have hk := k.isLt; have hj := j.isLt
  match a with
  | ⟨0, _⟩ => rfl
  | ⟨1, _⟩ => show (k.val * 128 + j.val) / 128 % 128 = k.val; omega
  | ⟨2, _⟩ => show (k.val * 128 + j.val) % 128 = j.val; omega
theorem widx1_2 (r : Fin 50000) (j : Fin 128) (k : Fin 128) :
    idx_main_v70 (idx_main_v71 (ridx_main_v72 (ix2 r j) k)) = ix3 (2 : Fin 3) k j := by
  funext a; apply Fin.ext
  have hk := k.isLt; have hj := j.isLt
  match a with
  | ⟨0, _⟩ => rfl
  | ⟨1, _⟩ => show (k.val * 128 + j.val) / 128 % 128 = k.val; omega
  | ⟨2, _⟩ => show (k.val * 128 + j.val) % 128 = j.val; omega

/-- The bias row, made a one-row matrix and broadcast down the rows, read at (r, j) is the bias at j. -/
theorem bidx1 (r : Fin 50000) (j : Fin 128) : idx_main_v74 (idx_main_v75 (ix2 r j)) = ix1 j :=
  funext fun a => Fin.ext (by match a with | ⟨0, _⟩ => rfl)

/-! ## Layer 1: the three dot products and the hidden layer -/

section Layer1
variable (x0 : (⟨S50000x128, .f32⟩ : BufTy).Contents (Elt Ideal)) (x1 : (⟨S2x800000, .i32⟩ : BufTy).Contents (Elt Ideal))
  (x2 : (⟨S3x128x128, .f32⟩ : BufTy).Contents (Elt Ideal)) (x3 : (⟨S128, .f32⟩ : BufTy).Contents (Elt Ideal))

/-- x · W1[0] at (r, j): the sum over k of x (r, k) · W1 (0, k, j). -/
theorem dot_v36  (r : Fin 50000) (j : Fin 128) :
    val_main_v36 (F := Ideal) x0 x2 (ix2 r j) = ∑ k : Fin 128, x0 (ix2 r k) * x2 (ix3 (0 : Fin 3) k j) := by
  rw [val_main_v36_apply]
  refine Finset.sum_congr rfl fun k _ => ?_
  rw [val_main_v35_apply, val_main_v34_apply, lidx36, widx1_0]

/-- (L·x) · W1[1] at (r, j), the sparse product left as the reference's stage. -/
theorem dot_v52  (r : Fin 50000) (j : Fin 128) :
    val_main_v52 (F := Ideal) x0 x1 x2 (ix2 r j) = ∑ k : Fin 128, val_main_v49 (F := Ideal) x0 x1 (ix2 r k) * x2 (ix3 (1 : Fin 3) k j) := by
  rw [val_main_v52_apply]
  refine Finset.sum_congr rfl fun k _ => ?_
  rw [val_main_v51_apply, val_main_v50_apply, lidx52, widx1_1]

/-- (2·L·(L·x) − x) · W1[2] at (r, j), the left operand left as the reference's stage. -/
theorem dot_v72  (r : Fin 50000) (j : Fin 128) :
    val_main_v72 (F := Ideal) x0 x1 x2 (ix2 r j) = ∑ k : Fin 128, val_main_v69 (F := Ideal) x0 x1 (ix2 r k) * x2 (ix3 (2 : Fin 3) k j) := by
  rw [val_main_v72_apply]
  refine Finset.sum_congr rfl fun k _ => ?_
  rw [val_main_v71_apply, val_main_v70_apply, lidx72, widx1_2]

/-- THE HIDDEN LAYER at (r, j): relu of the three dot products, added in the reference's order, plus the bias. -/
theorem hidden_apply (r : Fin 50000) (j : Fin 128) :
    val_main_v77 (F := Ideal) x0 x1 x2 x3 (ix2 r j)
      = max ((((∑ k : Fin 128, x0 (ix2 r k) * x2 (ix3 (0 : Fin 3) k j))
              + (∑ k : Fin 128, val_main_v49 (F := Ideal) x0 x1 (ix2 r k) * x2 (ix3 (1 : Fin 3) k j)))
              + (∑ k : Fin 128, val_main_v69 (F := Ideal) x0 x1 (ix2 r k) * x2 (ix3 (2 : Fin 3) k j)))
              + x3 (ix1 j)) 0 := by
  rw [val_main_v77_apply, val_main_v76_apply, val_main_v73_apply, val_main_v53_apply, dot_v36, dot_v52, dot_v72,
    val_main_v75_apply, val_main_v74_apply, bidx1, val_main_call1_v0_apply, val_main_call1_cst_apply]
  simp only [Ideal.maximumf_def, Ideal.addf_def, Ideal.ofBits_def, Ideal.ofBits_zero_f32]

end Layer1

/-! ## Layer 2: indices (the weight slices are [128, 40] matrices: the flat position is k·40 + j) -/

theorem lidx80 (r : Fin 50000) (j : Fin 40) (k : Fin 128) : lidx_main_v80 (ix2 r j) k = ix2 r k :=
  funext fun a => Fin.ext (by match a with | ⟨0, _⟩ => rfl | ⟨1, _⟩ => rfl)
theorem lidx96 (r : Fin 50000) (j : Fin 40) (k : Fin 128) : lidx_main_v96 (ix2 r j) k = ix2 r k :=
  funext fun a => Fin.ext (by match a with | ⟨0, _⟩ => rfl | ⟨1, _⟩ => rfl)
theorem lidx116 (r : Fin 50000) (j : Fin 40) (k : Fin 128) : lidx_main_v116 (ix2 r j) k = ix2 r k :=
  funext fun a => Fin.ext (by match a with | ⟨0, _⟩ => rfl | ⟨1, _⟩ => rfl)

theorem widx2_0 (r : Fin 50000) (j : Fin 40) (k : Fin 128) :
    idx_main_v78 (idx_main_v79 (ridx_main_v80 (ix2 r j) k)) = ix3 (0 : Fin 3) k j := by
  funext a; apply Fin.ext
  have hk := k.isLt; have hj := j.isLt
  match a with
  | ⟨0, _⟩ => rfl
  | ⟨1, _⟩ => show (k.val * 40 + j.val) / 40 % 128 = k.val; omega
  | ⟨2, _⟩ => show (k.val * 40 + j.val) % 40 = j.val; omega
theorem widx2_1 (r : Fin 50000) (j : Fin 40) (k : Fin 128) :
    idx_main_v94 (idx_main_v95 (ridx_main_v96 (ix2 r j) k)) = ix3 (1 : Fin 3) k j := by
  funext a; apply Fin.ext
  have hk := k.isLt; have hj := j.isLt
  match a with
  | ⟨0, _⟩ => rfl
  | ⟨1, _⟩ => show (k.val * 40 + j.val) / 40 % 128 = k.val; omega
  | ⟨2, _⟩ => show (k.val * 40 + j.val) % 40 = j.val; omega
theorem widx2_2 (r : Fin 50000) (j : Fin 40) (k : Fin 128) :
    idx_main_v114 (idx_main_v115 (ridx_main_v116 (ix2 r j) k)) = ix3 (2 : Fin 3) k j := by
  funext a; apply Fin.ext
  have hk := k.isLt; have hj := j.isLt
  match a with
  | ⟨0, _⟩ => rfl
  | ⟨1, _⟩ => show (k.val * 40 + j.val) / 40 % 128 = k.val; omega
  | ⟨2, _⟩ => show (k.val * 40 + j.val) % 40 = j.val; omega

/-- The second bias row broadcast down the rows, read at (r, j), is the bias at j. -/
theorem bidx2 (r : Fin 50000) (j : Fin 40) : idx_main_v118 (idx_main_v119 (ix2 r j)) = ix1 j :=
  funext fun a => Fin.ext (by match a with | ⟨0, _⟩ => rfl)

/-! ## The log-softmax's indices: the row statistics (maximum, sum) are vectors over the rows, made
one-column matrices and broadcast along the columns; read at (r, j) they are the statistic at r.  The
sum over the columns at row r reads the matrix at (r, k). -/

theorem rowidx_v4 (r : Fin 50000) (j : Fin 40) : idx_main_call2_v3 (idx_main_call2_v4 (ix2 r j)) = ix1 r :=
  funext fun a => Fin.ext (by match a with | ⟨0, _⟩ => rfl)

theorem rowidx_v10 (r : Fin 50000) (j : Fin 40) : idx_main_call2_v8 (idx_main_call2_v10 (ix2 r j)) = ix1 r :=
  funext fun a => Fin.ext (by match a with | ⟨0, _⟩ => rfl)

theorem sumidx_v7 (r : Fin 50000) (k : Fin 40) : idx_main_call2_v7 (ix1 r) k = ix2 r k :=
  funext fun a => Fin.ext (by match a with | ⟨0, _⟩ => rfl | ⟨1, _⟩ => rfl)

/-! ## A row maximum on the host

A one-operand reduction with a maximum body over the columns of a [50000, 40] matrix, started from −∞,
is at row r the fold of max from ⊥ over the 40 entries of the row: the row maximum. -/

/-- The bit pattern of −∞ denotes ⊥. -/
theorem ofBits_neg_inf : Ideal.ofBits .f32 0xFF800000#32 = (⊥ : EReal) := by
  simp [Ideal.ofBits, Ideal.ieee]

/-- Row r with the column coordinate k put back is (r, k). -/
theorem lift_row (h : S50000x40.Reduces [1] S50000) (r : Fin 50000) (k : Fin (S50000x40.size 1)) :
    h.lift (ix1 r) k = ix2 r (⟨k.val, k.isLt⟩ : Fin 40) := by
  funext c; apply Fin.ext
  fin_cases c <;> rfl

/-- The host's maximum-reduce over the columns, from an initial value that is ⊥, is the row maximum. -/
theorem hostRowMax (y : (⟨S50000x40, .f32⟩ : BufTy).Contents (Elt Ideal)) (init : (⟨S_, .f32⟩ : BufTy).Contents (Elt Ideal))
    (h' : S50000x40.ReducesTo [1] S50000) (hu : 0 < S_.numel)
    (hinit : init (Idealize.ShloMosaic.Shape.Idx.first hu) = (⊥ : EReal)) (r : Fin 50000) :
    Host.reduce (FloatOps.maximumf (F := Ideal) (φ := .f32)) y init h' hu (ix1 r) = rowMax (fun k : Fin 40 => y (ix2 r k)) := by
  have h : S50000x40.Reduces [1] S50000 := by decide
  rw [Host.reduce_eq_fold_single (FloatOps.maximumf (F := Ideal) (φ := .f32)) y init h' h hu, hinit]
  have hf : (y ∘ h.lift (ix1 r)) = fun k : Fin 40 => y (ix2 r k) := funext fun k => congrArg y (lift_row h r k)
  exact congrArg (fun f => Finset.fold max (⊥ : EReal) f (Finset.univ : Finset (Fin 40))) hf

/-! ## Layer 2: the three dot products, the logits, and the log-softmax -/

section Layer2
variable (x0 : (⟨S50000x128, .f32⟩ : BufTy).Contents (Elt Ideal)) (x1 : (⟨S2x800000, .i32⟩ : BufTy).Contents (Elt Ideal))
  (x2 : (⟨S3x128x128, .f32⟩ : BufTy).Contents (Elt Ideal)) (x3 : (⟨S128, .f32⟩ : BufTy).Contents (Elt Ideal))
  (x4 : (⟨S3x128x40, .f32⟩ : BufTy).Contents (Elt Ideal)) (x5 : (⟨S40, .f32⟩ : BufTy).Contents (Elt Ideal))

/-- H · W2[0] at (r, j), the hidden layer left as the reference's stage. -/
theorem dot_v80  (r : Fin 50000) (j : Fin 40) :
    val_main_v80 (F := Ideal) x0 x1 x2 x3 x4 (ix2 r j) = ∑ k : Fin 128, val_main_v77 (F := Ideal) x0 x1 x2 x3 (ix2 r k) * x4 (ix3 (0 : Fin 3) k j) := by
  rw [val_main_v80_apply]
  refine Finset.sum_congr rfl fun k _ => ?_
  rw [val_main_v79_apply, val_main_v78_apply, lidx80, widx2_0]

/-- (L·H) · W2[1] at (r, j), the sparse product left as the reference's stage. -/
theorem dot_v96  (r : Fin 50000) (j : Fin 40) :
    val_main_v96 (F := Ideal) x0 x1 x2 x3 x4 (ix2 r j) = ∑ k : Fin 128, val_main_v93 (F := Ideal) x0 x1 x2 x3 (ix2 r k) * x4 (ix3 (1 : Fin 3) k j) := by
  rw [val_main_v96_apply]
  refine Finset.sum_congr rfl fun k _ => ?_
  rw [val_main_v95_apply, val_main_v94_apply, lidx96, widx2_1]

/-- (2·L·(L·H) − H) · W2[2] at (r, j), the left operand left as the reference's stage. -/
theorem dot_v116  (r : Fin 50000) (j : Fin 40) :
    val_main_v116 (F := Ideal) x0 x1 x2 x3 x4 (ix2 r j) = ∑ k : Fin 128, val_main_v113 (F := Ideal) x0 x1 x2 x3 (ix2 r k) * x4 (ix3 (2 : Fin 3) k j) := by
  rw [val_main_v116_apply]
  refine Finset.sum_congr rfl fun k _ => ?_
  rw [val_main_v115_apply, val_main_v114_apply, lidx116, widx2_2]

/-- THE LOGITS at (r, j): the three dot products, added in the reference's order, plus the bias. -/
theorem logits_apply (r : Fin 50000) (j : Fin 40) :
    val_main_v120 (F := Ideal) x0 x1 x2 x3 x4 x5 (ix2 r j)
      = (((∑ k : Fin 128, val_main_v77 (F := Ideal) x0 x1 x2 x3 (ix2 r k) * x4 (ix3 (0 : Fin 3) k j))
          + (∑ k : Fin 128, val_main_v93 (F := Ideal) x0 x1 x2 x3 (ix2 r k) * x4 (ix3 (1 : Fin 3) k j)))
          + (∑ k : Fin 128, val_main_v113 (F := Ideal) x0 x1 x2 x3 (ix2 r k) * x4 (ix3 (2 : Fin 3) k j)))
          + x5 (ix1 j) := by
  rw [val_main_v120_apply, val_main_v117_apply, val_main_v97_apply, dot_v80, dot_v96, dot_v116,
    val_main_v119_apply, val_main_v118_apply, bidx2]
  simp only [Ideal.addf_def]

/-- The reference's row maximum of the logits (its reduction from −∞) is `rowMax` of row r. -/
theorem rowmax_stage (r : Fin 50000) :
    val_main_call2_v0 (F := Ideal) x0 x1 x2 x3 x4 x5 (ix1 r)
      = rowMax (fun k : Fin 40 => val_main_v120 (F := Ideal) x0 x1 x2 x3 x4 x5 (ix2 r k)) := by
  unfold val_main_call2_v0
  generalize val_main_v120 (F := Ideal) x0 x1 x2 x3 x4 x5 = y
  exact hostRowMax y _ _ _ ((val_main_call2_cst_apply _).trans ofBits_neg_inf) r

/-- What the reference subtracts from every entry of row r — the maximum of −∞ and the row maximum,
    broadcast along the columns — is the row maximum. -/
theorem shift_stage (r : Fin 50000) (j : Fin 40) :
    val_main_call2_v4 (F := Ideal) x0 x1 x2 x3 x4 x5 (ix2 r j)
      = rowMax (fun k : Fin 40 => val_main_v120 (F := Ideal) x0 x1 x2 x3 x4 x5 (ix2 r k)) := by
  rw [val_main_call2_v4_apply, val_main_call2_v3_apply, rowidx_v4, val_main_call2_v2_apply,
    val_main_call2_v1_apply, val_main_call2_cst_0_apply, rowmax_stage]
  simp only [Ideal.maximumf_def, Ideal.ofBits_def]
  rw [ofBits_neg_inf]
  exact max_eq_right bot_le

/-- The shifted logits: entry (r, j) minus the row maximum. -/
theorem shifted_stage (r : Fin 50000) (j : Fin 40) :
    val_main_call2_v5 (F := Ideal) x0 x1 x2 x3 x4 x5 (ix2 r j)
      = val_main_v120 (F := Ideal) x0 x1 x2 x3 x4 x5 (ix2 r j) - rowMax (fun k : Fin 40 => val_main_v120 (F := Ideal) x0 x1 x2 x3 x4 x5 (ix2 r k)) := by
  rw [val_main_call2_v5_apply, shift_stage]
  simp only [Ideal.subf_def]

/-- The normaliser of row r: the sum over the 40 columns of the exponentials of the shifted logits
    (the reference's sum starts from 0, which adds nothing). -/
theorem denom_stage (r : Fin 50000) :
    val_main_call2_v7 (F := Ideal) x0 x1 x2 x3 x4 x5 (ix1 r)
      = ∑ k : Fin 40, Ideal.exp (val_main_v120 (F := Ideal) x0 x1 x2 x3 x4 x5 (ix2 r k) - rowMax (fun k' : Fin 40 => val_main_v120 (F := Ideal) x0 x1 x2 x3 x4 x5 (ix2 r k'))) := by
  rw [val_main_call2_v7_apply, val_main_call2_cst_1_apply]
  simp only [Ideal.ofBits_def, Ideal.ofBits_zero_f32, zero_add]
  refine Finset.sum_congr rfl fun k _ => ?_
  rw [sumidx_v7, val_main_call2_v6_apply, shifted_stage]
  simp only [Ideal.hostUnary_exp_def]

/-- The reference's result at (r, j) is the log-softmax of row r of the logits, at j. -/
theorem result_logits (r : Fin 50000) (j : Fin 40) :
    val_main_v121 (F := Ideal) x0 x1 x2 x3 x4 x5 (ix2 r j)
      = logSoftmax (fun k : Fin 40 => val_main_v120 (F := Ideal) x0 x1 x2 x3 x4 x5 (ix2 r k)) j := by
  rw [val_main_v121_apply, shifted_stage, val_main_call2_v10_apply, val_main_call2_v9_apply,
    val_main_call2_v8_apply, rowidx_v10, denom_stage]
  simp only [Ideal.subf_def, Ideal.hostUnary_log_def]
  rfl

/-- THE RESULT at (r, j): the log-softmax, over the 40 columns, of the second layer's output at row r
    — the three dot products of the hidden layer and its two Chebyshev companions with the slices of
    W2, added in the reference's order, plus the bias. -/
theorem result_apply (r : Fin 50000) (j : Fin 40) :
    val_main_v121 (F := Ideal) x0 x1 x2 x3 x4 x5 (ix2 r j)
      = logSoftmax (fun j' : Fin 40 =>
          (((∑ k : Fin 128, val_main_v77 (F := Ideal) x0 x1 x2 x3 (ix2 r k) * x4 (ix3 (0 : Fin 3) k j'))
            + (∑ k : Fin 128, val_main_v93 (F := Ideal) x0 x1 x2 x3 (ix2 r k) * x4 (ix3 (1 : Fin 3) k j')))
            + (∑ k : Fin 128, val_main_v113 (F := Ideal) x0 x1 x2 x3 (ix2 r k) * x4 (ix3 (2 : Fin 3) k j')))
            + x5 (ix1 j')) j := by
  rw [result_logits]
  exact congrArg (fun l => logSoftmax l j) (funext fun j' => logits_apply x0 x1 x2 x3 x4 x5 r j')

end Layer2

end Cert.ReferenceIdeal.Shape

end
-- ==== Proof.ValueBridge.lean ====
/-
  The kernel's two whole-array functions ARE the reference's two stages, at the ideal values.

  Write L for the weighted neighbour sum over the graph (a function of the edge array alone), and
  for an array h of 50000 rows and 128 columns write  cat h = [h, L h, 2·L(L h) − h]  for the three
  arrays side by side, 384 columns.  The kernel program multiplies  cat h  by the three 128-row
  weight slices stacked one under the other (384 rows) in ONE contraction over 384 positions; the
  reference multiplies h, L h and 2·L(L h) − h each by its own slice in three contractions over
  128 positions and adds the three results.  A sum over 384 consecutive positions is the sum of its
  three blocks of 128, and in block s the stacked entries are h's / L h's / (2·L(L h) − h)'s and
  slice s's, so the two agree, entry by entry; the bias is the same row on both sides.

  * Hidden layer: both sides then take the larger of that value and zero.
  * Result: both sides take the logarithm of the softmax over the 40 classes.  (The kernel program
    widens the second-layer weights and bias from 40 to 128 columns; only columns below 40 are read
    here, and there the widened arrays hold the original entries.)

  Only the regrouping of a finite sum into blocks is used: nothing about finiteness of the entries.
-/
import proofs.«136246_j62663572848803_1_alg».proof.Proof.IdealArrays
import proofs.«136246_j62663572848803_1_alg».proof.Proof.LibConcatDot
import proofs.«136246_j62663572848803_1_alg».proof.Proof.HostTerms
import proofs.«136246_j62663572848803_1_alg».proof.Proof.OperandReads
import proofs.«136246_j62663572848803_1_alg».proof.Proof.HostBridge
import proofs.«136246_j62663572848803_1_alg».proof.Proof.RefShape

noncomputable section

namespace Cert.Bridge

open Cert.ReferenceIdeal.Read Cert.KernelIdeal Cert.KernelIdeal.Gen Cert.KernelIdeal.Host
open Idealize.ShloMosaic Idealize.ShloMosaic.ValueIdx
open Cert.KernelIdeal.Hand.Arrays (dense0 dense1 dense0_apply dense1_apply)
open scoped BigOperators

section Stages

variable (x0 : FVec Ideal S50000x128 .f32) (x1 : IVec S2x800000 32) (x2 : FVec Ideal S3x128x128 .f32)
  (x3 : FVec Ideal S128 .f32) (x4 : FVec Ideal S3x128x40 .f32) (x5 : FVec Ideal S40 .f32)

/-- The weighted neighbour sum L·h over the graph the edge array `x1` describes. -/
abbrev lapK (h : FVec Ideal S50000x128 .f32) : FVec Ideal S50000x128 .f32 :=
  spmv (F := Ideal) (srcK x1) (dstK x1) (wK x1) h

/-- `[h, L·h, 2·L·(L·h) − h]` side by side: 384 columns. -/
abbrev xcat (h : FVec Ideal S50000x128 .f32) : FVec Ideal S50000x384 .bf16 :=
  catCols (F := Ideal) h (lapK x1 h) (cheb2 (F := Ideal) (lapK x1 (lapK x1 h)) h)

/-- The kernel program's hidden layer: the first call's whole-array function of its three operands. -/
abbrev hidK : FVec Ideal S50000x128 .f32 :=
  dense0 (xcat x1 x0) (w1Cat (F := Ideal) x2) (shapeCast S1x128 x3 shapeCasts_S128_S1x128)

/-- The second-layer weights, stacked (384 rows) and widened from 40 to 128 columns. -/
abbrev w2p : FVec Ideal S384x128 .bf16 :=
  truncf .bf16 (pad S384x128 ![0, 0] ![0, 88] ![0, 0] (w2Cat (F := Ideal) x4)
    (sitofp (F := Ideal) .f32 (constantI S_ 32 0#32)) pads_S384x40_S384x128_000_0880 h_S_) bitsLt_bf16_f32

/-- The second-layer bias, widened from 40 to 128 entries, as a row. -/
abbrev b2p : FVec Ideal S1x128 .f32 :=
  shapeCast S1x128 (pad S128 ![0] ![88] ![0] x5 (sitofp (F := Ideal) .f32 (constantI S_ 32 0#32)) pads_S40_S128_0880 h_S_)
    shapeCasts_S128_S1x128

/-- Position `k` of block 0 of a 384-long axis. -/
abbrev q0 (k : Fin 128) : Fin 384 := ⟨k.val, by have := k.isLt; omega⟩
/-- Position `k` of block 1. -/
abbrev q1 (k : Fin 128) : Fin 384 := ⟨128 + k.val, by have := k.isLt; omega⟩
/-- Position `k` of block 2. -/
abbrev q2 (k : Fin 128) : Fin 384 := ⟨256 + k.val, by have := k.isLt; omega⟩

theorem q0_val (k : Fin 128) : (q0 k).val = 128 * (0 : Fin 3).val + k.val := by
  show k.val = 128 * 0 + k.val; omega
theorem q1_val (k : Fin 128) : (q1 k).val = 128 * (1 : Fin 3).val + k.val := by
  show 128 + k.val = 128 * 1 + k.val; omega
theorem q2_val (k : Fin 128) : (q2 k).val = 128 * (2 : Fin 3).val + k.val := by
  show 256 + k.val = 128 * 2 + k.val; omega

/-- THE HIDDEN LAYER: the kernel program's whole-array function is the reference's stage. -/
theorem hidden_eq : hidK x0 x1 x2 x3 = val_main_v77 (F := Ideal) x0 x1 x2 x3 := by
  funext i
  obtain ⟨R, j, rfl⟩ : ∃ (R : Fin 50000) (j : Fin 128), i = ix2 R j := ⟨i 0, i 1, eq_ix2 i⟩
  rw [Cert.ReferenceIdeal.Shape.hidden_apply x0 x1 x2 x3 R j, ref_T2a, ref_T1a]
  show dense0 (xcat x1 x0) (w1Cat (F := Ideal) x2) (shapeCast S1x128 x3 shapeCasts_S128_S1x128) (ix2 R j) = _
  rw [dense0_apply, ConcatDot.sum_fin384_blocks]
  refine congrArg₂ (fun s b : EReal => max (s + b) 0) ?_ (b1Row_apply x3 0 j)
  refine congrArg₂ (fun a b : EReal => a + b) (congrArg₂ (fun a b : EReal => a + b)
    (Finset.sum_congr rfl fun k _ => ?_) (Finset.sum_congr rfl fun k _ => ?_)) (Finset.sum_congr rfl fun k _ => ?_)
  · exact congrArg₂ (fun a b : EReal => a * b) (catCols_apply0 _ _ _ R k (q0 k) rfl) (w1Cat_apply0 x2 k j (q0 k) rfl)
  · exact congrArg₂ (fun a b : EReal => a * b) (catCols_apply1 _ _ _ R k (q1 k) rfl) (w1Cat_apply1 x2 k j (q1 k) rfl)
  · exact congrArg₂ (fun a b : EReal => a * b) (catCols_apply2 _ _ _ R k (q2 k) rfl) (w1Cat_apply2 x2 k j (q2 k) rfl)

/-- THE RESULT: the kernel program's second whole-array function, applied to its hidden layer, is
    the reference's last stage. -/
theorem result_eq :
    dense1 (xcat x1 (hidK x0 x1 x2 x3)) (w2p x4) (b2p x5) = val_main_v121 (F := Ideal) x0 x1 x2 x3 x4 x5 := by
  rw [hidden_eq]
  funext i
  obtain ⟨R, j, rfl⟩ : ∃ (R : Fin 50000) (j : Fin 40), i = ix2 R j := ⟨i 0, i 1, eq_ix2 i⟩
  rw [Cert.ReferenceIdeal.Shape.result_apply x0 x1 x2 x3 x4 x5 R j, ref_T2b, ref_T1b, dense1_apply]
  refine congrArg (fun l : Fin 40 → EReal => PaddedLogSoftmax.logSoftmax l j) (funext fun j' => ?_)
  rw [ConcatDot.sum_fin384_blocks]
  refine congrArg₂ (fun s b : EReal => s + b) ?_ (b2Pad_apply x5 _ 0 j' (Fin.castLE (by decide : 40 ≤ 128) j') rfl)
  refine congrArg₂ (fun a b : EReal => a + b) (congrArg₂ (fun a b : EReal => a + b)
    (Finset.sum_congr rfl fun k _ => ?_) (Finset.sum_congr rfl fun k _ => ?_)) (Finset.sum_congr rfl fun k _ => ?_)
  · exact congrArg₂ (fun a b : EReal => a * b) (catCols_apply0 _ _ _ R k (q0 k) rfl)
      (w2Pad_apply x4 _ 0 k j' (q0 k) (q0_val k) (Fin.castLE (by decide : 40 ≤ 128) j') rfl)
  · exact congrArg₂ (fun a b : EReal => a * b) (catCols_apply1 _ _ _ R k (q1 k) rfl)
      (w2Pad_apply x4 _ 1 k j' (q1 k) (q1_val k) (Fin.castLE (by decide : 40 ≤ 128) j') rfl)
  · exact congrArg₂ (fun a b : EReal => a * b) (catCols_apply2 _ _ _ R k (q2 k) rfl)
      (w2Pad_apply x4 _ 2 k j' (q2 k) (q2_val k) (Fin.castLE (by decide : 40 ≤ 128) j') rfl)

end Stages

end Cert.Bridge

end
-- ==== Proof.KernelValue.lean ====
/-
  What the kernel program's two output arrays hold, as functions of the six arguments.

  The first call's output array is its blocks folded into one array function (`dense0`) at the operands the host
  stretches before it computed — `[x, L x, 2·L(L x) − x]`, the stacked `W1`, `b1` — which is the hidden layer
  `hidK`. The second call's output array is `dense1` at `[h, L h, 2·L(L h) − h]`, the stacked and padded `W2`,
  the padded `b2`, with `h` that hidden layer; and that array function is the reference's result stage of the same
  six arguments (`Cert.Bridge.result_eq`).
-/
import proofs.«136246_j62663572848803_1_alg».proof.Proof.IdealOperands
import proofs.«136246_j62663572848803_1_alg».proof.Proof.IdealArrays
import proofs.«136246_j62663572848803_1_alg».proof.Proof.ValueBridge

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- What the first call leaves in its output array is the hidden layer as a function of the arguments. -/
theorem hidden_array (c : Dev nD) :
    hid m ρ c = Cert.Bridge.hidK (m ((c.tc : Thread nD τ).loc main_arg0)) (m ((c.tc : Thread nD τ).loc main_arg1)) (m ((c.tc : Thread nD τ).loc main_arg2)) (m ((c.tc : Thread nD τ).loc main_arg3)) := by
  have e : hid m ρ c = (dat0 (F := Ideal) (V4 m ρ) c).arrAt 3 cfg0.N := W5_arr m ρ c 3
  have e67 : V4 m ρ c main_v67 = _ := v67_at4 m ρ c
  have e68 : V4 m ρ c main_v68 = _ := v68_at4 m ρ c
  have e69 : V4 m ρ c main_v69 = _ := v69_at4 m ρ c
  rw [e, Arrays.final0 (V4 m ρ) c, e67, e68, e69]

/-- What the second call leaves in the result array is the reference's result stage of the same arguments. -/
theorem result_array (c : Dev nD) :
    (dat1 (F := Ideal) (V11 m ρ) c).arrAt 3 cfg1.N
      = Cert.ReferenceIdeal.Read.val_main_v121 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e108 : V11 m ρ c main_v108 = _ := v108_at11 m ρ c
  have e110 : V11 m ρ c main_v110 = _ := v110_at11 m ρ c
  have e112 : V11 m ρ c main_v112 = _ := v112_at11 m ρ c
  rw [Arrays.final1 (V11 m ρ) c, e108, e110, e112, hidden_array m ρ c]
  exact Cert.Bridge.result_eq _ _ _ _ _ _

end Cert.KernelIdeal.Hand

end
-- ==== Proof.RefRunStaged.lean ====
import proofs.«136246_j62663572848803_1_alg».proof.Proof.RefOps
import proofs.«136246_j62663572848803_1_alg».proof.Proof.RefRead

/-!
# The reference's run, stage by stage

The reference is one line of 163 host operations.  Its result is read off in nine segments: for a valuation `W` of the
buffers before a segment at which the buffers the segment reads hold their stage values (the generated per-operation
values `Read.val_…` of the arguments), the buffers that later segments read hold their stage values after it.  Every
comparison is between the terms of ONE segment.  A buffer a segment does not write keeps its contents.  Chained
across the cuts this gives the result buffer's value as the last stage, and from it the run.
-/

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-- Two lines of operations run one after the other: the second from what the first leaves. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- A reference in a list is, as a device buffer, among the list's device buffers. -/
theorem single_sub_of_mem {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-- One simplification pass over a literal line of operations: each operation's result at its own buffer is its
    function's value, at any other buffer what was there; then the given equations for the buffers the line reads. -/
macro "seg_simp" "[" hs:Lean.Parser.Tactic.simpLemma,* "]" : tactic =>
  `(tactic| simp (disch := decide) only [after_cons, after_nil,
      nullary_result', unary_result', binary_result', ternary_result', quaternary_result', reshape_result',
      nullary_result_ne', unary_result_ne', binary_result_ne', ternary_result_ne', quaternary_result_ne', reshape_result_ne',
      $hs,*])

/-- Contents carried to a buffer's own type and back are the contents. -/
theorem ofBuf_toBuf {T : BufTy} (x : TRef sig T) (v : T.Contents (Elt F)) : x.ofBuf (x.toBuf v) = v := by
  obtain ⟨r, h, _, _⟩ := x
  subst h
  rfl

/-! ## The segments -/

/-- Operations 1 to 25 of the reference, in order. -/
abbrev seg1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    unary main_arg1 main_v4 ((extractStridedSlice S1x800000 ![0, 0] · slices_S2x800000_S1x800000_0_0) : (⟨S2x800000, .i32⟩ : BufTy).Contents (Elt F) → (⟨S1x800000, .i32⟩ : BufTy).Contents (Elt F)),
    reshape main_v4 main_v5 rfl shapeCasts_S1x800000_S800000,
    unary main_arg1 main_v6 ((extractStridedSlice S1x800000 ![1, 0] · slices_S2x800000_S1x800000_1_0) : (⟨S2x800000, .i32⟩ : BufTy).Contents (Elt F) → (⟨S1x800000, .i32⟩ : BufTy).Contents (Elt F)),
    reshape main_v6 main_v7 rfl shapeCasts_S1x800000_S800000,
    nullary main_cst (constant S_ .f32 0x3F800000#32),
    unary main_cst main_v8 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v5 main_v10 (broadcastInDim S800000x1 ![0] bcast_S800000_S800000x1_0 : (⟨S800000, .i32⟩ : BufTy).Contents (Elt F) → (⟨S800000x1, .i32⟩ : BufTy).Contents (Elt F)),
    ternary main_v9 main_v10 main_v8 main_v11 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x2B8CBCCC#32),
    unary main_cst_2 main_v14 (broadcastInDim S50000 ![] bcast_S_S50000 : (⟨S_, .f32⟩ : BufTy).Contents (Elt F) → (⟨S50000, .f32⟩ : BufTy).Contents (Elt F)),
    binary main_v11 main_v14 main_v15 (maximumf : (⟨S50000, .f32⟩ : BufTy).Contents (Elt F) → (⟨S50000, .f32⟩ : BufTy).Contents (Elt F) → (⟨S50000, .f32⟩ : BufTy).Contents (Elt F)),
    unary main_v15 main_v16 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v16) (TRef.of (T := ⟨S50000, .f32⟩) main_call0_v1) (TRef.of (T := ⟨S50000, .f32⟩) main_v17) select ]

/-- Operations 26 to 45 of the reference, in order. -/
abbrev seg2 : List (HloOp τ sig (Elt F)) :=
  [ nullary main_c (constantI S_ 32 0#32),
    unary main_c main_v18 (broadcastInDim S800000 ![] bcast_S_S800000 : (⟨S_, .i32⟩ : BufTy).Contents (Elt F) → (⟨S800000, .i32⟩ : BufTy).Contents (Elt F)),
    binary main_v5 main_v18 main_v19 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v20 (broadcastInDim S800000 ![] bcast_S_S800000 : (⟨S_, .i32⟩ : BufTy).Contents (Elt F) → (⟨S800000, .i32⟩ : BufTy).Contents (Elt F)),
    binary main_v5 main_v20 main_v21 (addi : (⟨S800000, .i32⟩ : BufTy).Contents (Elt F) → (⟨S800000, .i32⟩ : BufTy).Contents (Elt F) → (⟨S800000, .i32⟩ : BufTy).Contents (Elt F)),
    ternary main_v19 main_v21 main_v5 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v22 main_v23 (broadcastInDim S800000x1 ![0] bcast_S800000_S800000x1_0 : (⟨S800000, .i32⟩ : BufTy).Contents (Elt F) → (⟨S800000x1, .i32⟩ : BufTy).Contents (Elt F)),
    binary main_v17 main_v23 main_v24 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    unary main_v24 main_v25 (Host.negf : (⟨S800000, .f32⟩ : BufTy).Contents (Elt F) → (⟨S800000, .f32⟩ : BufTy).Contents (Elt F)),
    nullary main_c_5 (constantI S_ 32 0#32),
    unary main_c_5 main_v26 (broadcastInDim S800000 ![] bcast_S_S800000 : (⟨S_, .i32⟩ : BufTy).Contents (Elt F) → (⟨S800000, .i32⟩ : BufTy).Contents (Elt F)),
    binary main_v7 main_v26 main_v27 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v28 (broadcastInDim S800000 ![] bcast_S_S800000 : (⟨S_, .i32⟩ : BufTy).Contents (Elt F) → (⟨S800000, .i32⟩ : BufTy).Contents (Elt F)),
    binary main_v7 main_v28 main_v29 (addi : (⟨S800000, .i32⟩ : BufTy).Contents (Elt F) → (⟨S800000, .i32⟩ : BufTy).Contents (Elt F) → (⟨S800000, .i32⟩ : BufTy).Contents (Elt F)),
    ternary main_v27 main_v29 main_v7 main_v30 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v30 main_v31 (broadcastInDim S800000x1 ![0] bcast_S800000_S800000x1_0 : (⟨S800000, .i32⟩ : BufTy).Contents (Elt F) → (⟨S800000x1, .i32⟩ : BufTy).Contents (Elt F)),
    binary main_v17 main_v31 main_v32 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v25 main_v32 main_v33 (mulf : (⟨S800000, .f32⟩ : BufTy).Contents (Elt F) → (⟨S800000, .f32⟩ : BufTy).Contents (Elt F) → (⟨S800000, .f32⟩ : BufTy).Contents (Elt F)) ]

/-- Operations 46 to 64 of the reference, in order. -/
abbrev seg3 : List (HloOp τ sig (Elt F)) :=
  [ unary main_arg2 main_v34 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v34 main_v35 rfl shapeCasts_S1x128x128_S128x128,
    binary main_arg0 main_v35 main_v36 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_7 (constantI S_ 32 0#32),
    unary main_c_7 main_v37 (broadcastInDim S800000 ![] bcast_S_S800000 : (⟨S_, .i32⟩ : BufTy).Contents (Elt F) → (⟨S800000, .i32⟩ : BufTy).Contents (Elt F)),
    binary main_v1 main_v37 main_v38 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v39 (broadcastInDim S800000 ![] bcast_S_S800000 : (⟨S_, .i32⟩ : BufTy).Contents (Elt F) → (⟨S800000, .i32⟩ : BufTy).Contents (Elt F)),
    binary main_v1 main_v39 main_v40 (addi : (⟨S800000, .i32⟩ : BufTy).Contents (Elt F) → (⟨S800000, .i32⟩ : BufTy).Contents (Elt F) → (⟨S800000, .i32⟩ : BufTy).Contents (Elt F)),
    ternary main_v38 main_v40 main_v1 main_v41 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v41 main_v42 (broadcastInDim S800000x1 ![0] bcast_S800000_S800000x1_0 : (⟨S800000, .i32⟩ : BufTy).Contents (Elt F) → (⟨S800000x1, .i32⟩ : BufTy).Contents (Elt F)),
    binary main_arg0 main_v42 main_v43 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v33 main_v44 (broadcastInDim S800000x1 ![0] bcast_S800000_S800000x1_0 : (⟨S800000, .f32⟩ : BufTy).Contents (Elt F) → (⟨S800000x1, .f32⟩ : BufTy).Contents (Elt F)),
    unary main_v44 main_v45 (broadcastInDim S800000x128 ![0, 1] bcast_S800000x1_S800000x128_0_1 : (⟨S800000x1, .f32⟩ : BufTy).Contents (Elt F) → (⟨S800000x128, .f32⟩ : BufTy).Contents (Elt F)),
    binary main_v43 main_v45 main_v46 (mulf : (⟨S800000x128, .f32⟩ : BufTy).Contents (Elt F) → (⟨S800000x128, .f32⟩ : BufTy).Contents (Elt F) → (⟨S800000x128, .f32⟩ : BufTy).Contents (Elt F)),
    nullary main_cst_9 (constant S_ .f32 0x00000000#32),
    unary main_cst_9 main_v47 (broadcastInDim S50000x128 ![] bcast_S_S50000x128 : (⟨S_, .f32⟩ : BufTy).Contents (Elt F) → (⟨S50000x128, .f32⟩ : BufTy).Contents (Elt F)),
    unary main_v3 main_v48 (broadcastInDim S800000x1 ![0] bcast_S800000_S800000x1_0 : (⟨S800000, .i32⟩ : BufTy).Contents (Elt F) → (⟨S800000x1, .i32⟩ : BufTy).Contents (Elt F)),
    ternary main_v47 main_v48 main_v46 main_v49 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- Operations 65 to 80 of the reference, in order. -/
abbrev seg4 : List (HloOp τ sig (Elt F)) :=
  [ unary main_arg2 main_v50 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v50 main_v51 rfl shapeCasts_S1x128x128_S128x128,
    binary main_v49 main_v51 main_v52 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v36 main_v52 main_v53 (addf : (⟨S50000x128, .f32⟩ : BufTy).Contents (Elt F) → (⟨S50000x128, .f32⟩ : BufTy).Contents (Elt F) → (⟨S50000x128, .f32⟩ : BufTy).Contents (Elt F)),
    nullary main_c_10 (constantI S_ 32 0#32),
    unary main_c_10 main_v54 (broadcastInDim S800000 ![] bcast_S_S800000 : (⟨S_, .i32⟩ : BufTy).Contents (Elt F) → (⟨S800000, .i32⟩ : BufTy).Contents (Elt F)),
    binary main_v1 main_v54 main_v55 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v56 (broadcastInDim S800000 ![] bcast_S_S800000 : (⟨S_, .i32⟩ : BufTy).Contents (Elt F) → (⟨S800000, .i32⟩ : BufTy).Contents (Elt F)),
    binary main_v1 main_v56 main_v57 (addi : (⟨S800000, .i32⟩ : BufTy).Contents (Elt F) → (⟨S800000, .i32⟩ : BufTy).Contents (Elt F) → (⟨S800000, .i32⟩ : BufTy).Contents (Elt F)),
    ternary main_v55 main_v57 main_v1 main_v58 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v58 main_v59 (broadcastInDim S800000x1 ![0] bcast_S800000_S800000x1_0 : (⟨S800000, .i32⟩ : BufTy).Contents (Elt F) → (⟨S800000x1, .i32⟩ : BufTy).Contents (Elt F)),
    binary main_v49 main_v59 main_v60 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v33 main_v61 (broadcastInDim S800000x1 ![0] bcast_S800000_S800000x1_0 : (⟨S800000, .f32⟩ : BufTy).Contents (Elt F) → (⟨S800000x1, .f32⟩ : BufTy).Contents (Elt F)),
    unary main_v61 main_v62 (broadcastInDim S800000x128 ![0, 1] bcast_S800000x1_S800000x128_0_1 : (⟨S800000x1, .f32⟩ : BufTy).Contents (Elt F) → (⟨S800000x128, .f32⟩ : BufTy).Contents (Elt F)),
    binary main_v60 main_v62 main_v63 (mulf : (⟨S800000x128, .f32⟩ : BufTy).Contents (Elt F) → (⟨S800000x128, .f32⟩ : BufTy).Contents (Elt F) → (⟨S800000x128, .f32⟩ : BufTy).Contents (Elt F)) ]

/-- Operations 81 to 98 of the reference, in order. -/
abbrev seg5 : List (HloOp τ sig (Elt F)) :=
  [ nullary main_cst_12 (constant S_ .f32 0x00000000#32),
    unary main_cst_12 main_v64 (broadcastInDim S50000x128 ![] bcast_S_S50000x128 : (⟨S_, .f32⟩ : BufTy).Contents (Elt F) → (⟨S50000x128, .f32⟩ : BufTy).Contents (Elt F)),
    unary main_v3 main_v65 (broadcastInDim S800000x1 ![0] bcast_S800000_S800000x1_0 : (⟨S800000, .i32⟩ : BufTy).Contents (Elt F) → (⟨S800000x1, .i32⟩ : BufTy).Contents (Elt F)),
    ternary main_v64 main_v65 main_v63 main_v66 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_13 (constant S_ .f32 0x40000000#32),
    unary main_cst_13 main_v67 (broadcastInDim S50000x128 ![] bcast_S_S50000x128 : (⟨S_, .f32⟩ : BufTy).Contents (Elt F) → (⟨S50000x128, .f32⟩ : BufTy).Contents (Elt F)),
    binary main_v67 main_v66 main_v68 (mulf : (⟨S50000x128, .f32⟩ : BufTy).Contents (Elt F) → (⟨S50000x128, .f32⟩ : BufTy).Contents (Elt F) → (⟨S50000x128, .f32⟩ : BufTy).Contents (Elt F)),
    binary main_v68 main_arg0 main_v69 (subf : (⟨S50000x128, .f32⟩ : BufTy).Contents (Elt F) → (⟨S50000x128, .f32⟩ : BufTy).Contents (Elt F) → (⟨S50000x128, .f32⟩ : BufTy).Contents (Elt F)),
    unary main_arg2 main_v70 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v70 main_v71 rfl shapeCasts_S1x128x128_S128x128,
    binary main_v69 main_v71 main_v72 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v53 main_v72 main_v73 (addf : (⟨S50000x128, .f32⟩ : BufTy).Contents (Elt F) → (⟨S50000x128, .f32⟩ : BufTy).Contents (Elt F) → (⟨S50000x128, .f32⟩ : BufTy).Contents (Elt F)),
    unary main_arg3 main_v74 (broadcastInDim S1x128 ![1] bcast_S128_S1x128_1 : (⟨S128, .f32⟩ : BufTy).Contents (Elt F) → (⟨S1x128, .f32⟩ : BufTy).Contents (Elt F)),
    unary main_v74 main_v75 (broadcastInDim S50000x128 ![0, 1] bcast_S1x128_S50000x128_0_1 : (⟨S1x128, .f32⟩ : BufTy).Contents (Elt F) → (⟨S50000x128, .f32⟩ : BufTy).Contents (Elt F)),
    binary main_v73 main_v75 main_v76 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v76) (TRef.of (T := ⟨S50000x128, .f32⟩) main_call1_v0) (TRef.of (T := ⟨S50000x128, .f32⟩) main_v77) maximumf ]

/-- Operations 99 to 121 of the reference, in order. -/
abbrev seg6 : List (HloOp τ sig (Elt F)) :=
  [ unary main_arg4 main_v78 ((extractStridedSlice S1x128x40 ![0, 0, 0] · slices_S3x128x40_S1x128x40_0_0_0) : (⟨S3x128x40, .f32⟩ : BufTy).Contents (Elt F) → (⟨S1x128x40, .f32⟩ : BufTy).Contents (Elt F)),
    reshape main_v78 main_v79 rfl shapeCasts_S1x128x40_S128x40,
    binary main_v77 main_v79 main_v80 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    nullary main_c_14 (constantI S_ 32 0#32),
    unary main_c_14 main_v81 (broadcastInDim S800000 ![] bcast_S_S800000 : (⟨S_, .i32⟩ : BufTy).Contents (Elt F) → (⟨S800000, .i32⟩ : BufTy).Contents (Elt F)),
    binary main_v1 main_v81 main_v82 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v83 (broadcastInDim S800000 ![] bcast_S_S800000 : (⟨S_, .i32⟩ : BufTy).Contents (Elt F) → (⟨S800000, .i32⟩ : BufTy).Contents (Elt F)),
    binary main_v1 main_v83 main_v84 (addi : (⟨S800000, .i32⟩ : BufTy).Contents (Elt F) → (⟨S800000, .i32⟩ : BufTy).Contents (Elt F) → (⟨S800000, .i32⟩ : BufTy).Contents (Elt F)),
    ternary main_v82 main_v84 main_v1 main_v85 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v85 main_v86 (broadcastInDim S800000x1 ![0] bcast_S800000_S800000x1_0 : (⟨S800000, .i32⟩ : BufTy).Contents (Elt F) → (⟨S800000x1, .i32⟩ : BufTy).Contents (Elt F)),
    binary main_v77 main_v86 main_v87 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v33 main_v88 (broadcastInDim S800000x1 ![0] bcast_S800000_S800000x1_0 : (⟨S800000, .f32⟩ : BufTy).Contents (Elt F) → (⟨S800000x1, .f32⟩ : BufTy).Contents (Elt F)),
    unary main_v88 main_v89 (broadcastInDim S800000x128 ![0, 1] bcast_S800000x1_S800000x128_0_1 : (⟨S800000x1, .f32⟩ : BufTy).Contents (Elt F) → (⟨S800000x128, .f32⟩ : BufTy).Contents (Elt F)),
    binary main_v87 main_v89 main_v90 (mulf : (⟨S800000x128, .f32⟩ : BufTy).Contents (Elt F) → (⟨S800000x128, .f32⟩ : BufTy).Contents (Elt F) → (⟨S800000x128, .f32⟩ : BufTy).Contents (Elt F)),
    nullary main_cst_16 (constant S_ .f32 0x00000000#32),
    unary main_cst_16 main_v91 (broadcastInDim S50000x128 ![] bcast_S_S50000x128 : (⟨S_, .f32⟩ : BufTy).Contents (Elt F) → (⟨S50000x128, .f32⟩ : BufTy).Contents (Elt F)),
    unary main_v3 main_v92 (broadcastInDim S800000x1 ![0] bcast_S800000_S800000x1_0 : (⟨S800000, .i32⟩ : BufTy).Contents (Elt F) → (⟨S800000x1, .i32⟩ : BufTy).Contents (Elt F)),
    ternary main_v91 main_v92 main_v90 main_v93 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg4 main_v94 ((extractStridedSlice S1x128x40 ![1, 0, 0] · slices_S3x128x40_S1x128x40_1_0_0) : (⟨S3x128x40, .f32⟩ : BufTy).Contents (Elt F) → (⟨S1x128x40, .f32⟩ : BufTy).Contents (Elt F)),
    reshape main_v94 main_v95 rfl shapeCasts_S1x128x40_S128x40,
    binary main_v93 main_v95 main_v96 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    binary main_v80 main_v96 main_v97 (addf : (⟨S50000x40, .f32⟩ : BufTy).Contents (Elt F) → (⟨S50000x40, .f32⟩ : BufTy).Contents (Elt F) → (⟨S50000x40, .f32⟩ : BufTy).Contents (Elt F)) ]

/-- Operations 122 to 137 of the reference, in order. -/
abbrev seg7 : List (HloOp τ sig (Elt F)) :=
  [ nullary main_c_17 (constantI S_ 32 0#32),
    unary main_c_17 main_v98 (broadcastInDim S800000 ![] bcast_S_S800000 : (⟨S_, .i32⟩ : BufTy).Contents (Elt F) → (⟨S800000, .i32⟩ : BufTy).Contents (Elt F)),
    binary main_v1 main_v98 main_v99 (cmpi .slt : (⟨S800000, .i32⟩ : BufTy).Contents (Elt F) → (⟨S800000, .i32⟩ : BufTy).Contents (Elt F) → (⟨S800000, .i1⟩ : BufTy).Contents (Elt F)),
    nullary main_c_18 (constantI S_ 32 50000#32),
    unary main_c_18 main_v100 (broadcastInDim S800000 ![] bcast_S_S800000 : (⟨S_, .i32⟩ : BufTy).Contents (Elt F) → (⟨S800000, .i32⟩ : BufTy).Contents (Elt F)),
    binary main_v1 main_v100 main_v101 (addi : (⟨S800000, .i32⟩ : BufTy).Contents (Elt F) → (⟨S800000, .i32⟩ : BufTy).Contents (Elt F) → (⟨S800000, .i32⟩ : BufTy).Contents (Elt F)),
    ternary main_v99 main_v101 main_v1 main_v102 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v102 main_v103 (broadcastInDim S800000x1 ![0] bcast_S800000_S800000x1_0 : (⟨S800000, .i32⟩ : BufTy).Contents (Elt F) → (⟨S800000x1, .i32⟩ : BufTy).Contents (Elt F)),
    binary main_v93 main_v103 main_v104 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v33 main_v105 (broadcastInDim S800000x1 ![0] bcast_S800000_S800000x1_0 : (⟨S800000, .f32⟩ : BufTy).Contents (Elt F) → (⟨S800000x1, .f32⟩ : BufTy).Contents (Elt F)),
    unary main_v105 main_v106 (broadcastInDim S800000x128 ![0, 1] bcast_S800000x1_S800000x128_0_1 : (⟨S800000x1, .f32⟩ : BufTy).Contents (Elt F) → (⟨S800000x128, .f32⟩ : BufTy).Contents (Elt F)),
    binary main_v104 main_v106 main_v107 (mulf : (⟨S800000x128, .f32⟩ : BufTy).Contents (Elt F) → (⟨S800000x128, .f32⟩ : BufTy).Contents (Elt F) → (⟨S800000x128, .f32⟩ : BufTy).Contents (Elt F)),
    nullary main_cst_19 (constant S_ .f32 0x00000000#32),
    unary main_cst_19 main_v108 (broadcastInDim S50000x128 ![] bcast_S_S50000x128 : (⟨S_, .f32⟩ : BufTy).Contents (Elt F) → (⟨S50000x128, .f32⟩ : BufTy).Contents (Elt F)),
    unary main_v3 main_v109 (broadcastInDim S800000x1 ![0] bcast_S800000_S800000x1_0 : (⟨S800000, .i32⟩ : BufTy).Contents (Elt F) → (⟨S800000x1, .i32⟩ : BufTy).Contents (Elt F)),
    ternary main_v108 main_v109 main_v107 main_v110 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- Operations 138 to 148 of the reference, in order. -/
abbrev seg8 : List (HloOp τ sig (Elt F)) :=
  [ nullary main_cst_20 (constant S_ .f32 0x40000000#32),
    unary main_cst_20 main_v111 (broadcastInDim S50000x128 ![] bcast_S_S50000x128 : (⟨S_, .f32⟩ : BufTy).Contents (Elt F) → (⟨S50000x128, .f32⟩ : BufTy).Contents (Elt F)),
    binary main_v111 main_v110 main_v112 (mulf : (⟨S50000x128, .f32⟩ : BufTy).Contents (Elt F) → (⟨S50000x128, .f32⟩ : BufTy).Contents (Elt F) → (⟨S50000x128, .f32⟩ : BufTy).Contents (Elt F)),
    binary main_v112 main_v77 main_v113 (subf : (⟨S50000x128, .f32⟩ : BufTy).Contents (Elt F) → (⟨S50000x128, .f32⟩ : BufTy).Contents (Elt F) → (⟨S50000x128, .f32⟩ : BufTy).Contents (Elt F)),
    unary main_arg4 main_v114 ((extractStridedSlice S1x128x40 ![2, 0, 0] · slices_S3x128x40_S1x128x40_2_0_0) : (⟨S3x128x40, .f32⟩ : BufTy).Contents (Elt F) → (⟨S1x128x40, .f32⟩ : BufTy).Contents (Elt F)),
    reshape main_v114 main_v115 rfl shapeCasts_S1x128x40_S128x40,
    binary main_v113 main_v115 main_v116 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    binary main_v97 main_v116 main_v117 (addf : (⟨S50000x40, .f32⟩ : BufTy).Contents (Elt F) → (⟨S50000x40, .f32⟩ : BufTy).Contents (Elt F) → (⟨S50000x40, .f32⟩ : BufTy).Contents (Elt F)),
    unary main_arg5 main_v118 (broadcastInDim S1x40 ![1] bcast_S40_S1x40_1 : (⟨S40, .f32⟩ : BufTy).Contents (Elt F) → (⟨S1x40, .f32⟩ : BufTy).Contents (Elt F)),
    unary main_v118 main_v119 (broadcastInDim S50000x40 ![0, 1] bcast_S1x40_S50000x40_0_1 : (⟨S1x40, .f32⟩ : BufTy).Contents (Elt F) → (⟨S50000x40, .f32⟩ : BufTy).Contents (Elt F)),
    binary main_v117 main_v119 main_v120 (addf : (⟨S50000x40, .f32⟩ : BufTy).Contents (Elt F) → (⟨S50000x40, .f32⟩ : BufTy).Contents (Elt F) → (⟨S50000x40, .f32⟩ : BufTy).Contents (Elt F)) ]

/-- Operations 149 to 163 of the reference, in order. -/
abbrev seg9 : List (HloOp τ sig (Elt F)) :=
  [ TRef.nullary (TRef.of (T := ⟨S_, .f32⟩) main_call2_cst) (constant S_ .f32 0xFF800000#32),
    TRef.binary (TRef.of (T := ⟨S50000x40, .f32⟩) main_v120) (TRef.of (T := ⟨S_, .f32⟩) main_call2_cst) (TRef.of (T := ⟨S50000, .f32⟩) main_call2_v0) (fun x v => Host.reduce FloatOps.maximumf x v reducesTo_S50000x40_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x40, .f32⟩) main_call2_v4) (broadcastInDim S50000x40 ![0, 1] bcast_S50000x1_S50000x40_0_1),
    TRef.binary (TRef.of (T := ⟨S50000x40, .f32⟩) main_v120) (TRef.of (T := ⟨S50000x40, .f32⟩) main_call2_v4) (TRef.of (T := ⟨S50000x40, .f32⟩) main_call2_v5) subf,
    TRef.unary (TRef.of (T := ⟨S50000x40, .f32⟩) main_call2_v5) (TRef.of (T := ⟨S50000x40, .f32⟩) main_call2_v6) Host.exp,
    TRef.nullary (TRef.of (T := ⟨S_, .f32⟩) main_call2_cst_1) (constant S_ .f32 0x00000000#32),
    TRef.binary (TRef.of (T := ⟨S50000x40, .f32⟩) main_call2_v6) (TRef.of (T := ⟨S_, .f32⟩) main_call2_cst_1) (TRef.of (T := ⟨S50000, .f32⟩) main_call2_v7) (fun x v => Host.reduceAdd x v reducesTo_S50000x40_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x40, .f32⟩) main_call2_v10) (broadcastInDim S50000x40 ![0, 1] bcast_S50000x1_S50000x40_0_1),
    TRef.binary (TRef.of (T := ⟨S50000x40, .f32⟩) main_call2_v5) (TRef.of (T := ⟨S50000x40, .f32⟩) main_call2_v10) (TRef.of (T := ⟨S50000x40, .f32⟩) main_v121) subf ]

/-- The reference's line is its nine segments one after the other. -/
theorem ops_eq : (Value.ops (F := F)) = ((seg1 (F := F)) ++ ((seg2 (F := F)) ++ ((seg3 (F := F)) ++ ((seg4 (F := F)) ++ ((seg5 (F := F)) ++ ((seg6 (F := F)) ++ ((seg7 (F := F)) ++ ((seg8 (F := F)) ++ (seg9 (F := F)))))))))) := rfl

/-! ## What each segment leaves alone -/

/-- The references segment 1 writes, in order. -/
abbrev seg1_writes : List (Ref sig .tc) :=
  [main_v0, main_v1, main_v2, main_v3, main_v4, main_v5, main_v6, main_v7, main_cst, main_v8, main_cst_0, main_v9, main_v10, main_v11, main_cst_1, main_v12, main_v13, main_cst_2, main_v14, main_v15, main_v16, main_cst_3, main_call0_v0, main_call0_v1, main_v17]

/-- A reference segment 1 does not write keeps its contents. -/
theorem seg1_keeps (W : Valuation τ sig (Elt F)) {r : Ref sig .tc} (hr : r ∉ seg1_writes) :
    after (seg1 (F := F)) W (Proc.devRef .tc r) = W (Proc.devRef .tc r) :=
  after_of_writes_sub _ W
    ⟨single_sub_of_mem (L := seg1_writes) (y := main_v0) (List.Mem.head _),
     single_sub_of_mem (L := seg1_writes) (y := main_v1) (List.Mem.tail _ (List.Mem.head _)),
     single_sub_of_mem (L := seg1_writes) (y := main_v2) (List.Mem.tail _ (List.Mem.tail _ (List.Mem.head _))),
     single_sub_of_mem (L := seg1_writes) (y := main_v3) (List.Mem.tail _ (List.Mem.tail _ (List.Mem.tail _ (List.Mem.head _)))),
     single_sub_of_mem (L := seg1_writes) (y := main_v4) (List.Mem.tail _ (List.Mem.tail _ (List.Mem.tail _ (List.Mem.tail _ (List.Mem.head _))))),
     single_sub_of_mem (L := seg1_writes) (y := main_v5) (List.Mem.tail _ (List.Mem.tail _ (List.Mem.tail _ (List.Mem.tail _ (List.Mem.tail _ (List.Mem.head _)))))),
     single_sub_of_mem (L := seg1_writes) (y := main_v6) (List.Mem.tail _ (List.Mem.tail _ (List.Mem.tail _ (List.Mem.tail _ (List.Mem.tail _ (List.Mem.tail _ (List.Mem.head _))))))),
     single_sub_of_mem (L := seg1_writes) (y := main_v7) (List.Mem.tail _ (List.Mem.tail _ (List.Mem.tail _ (List.Mem.tail _ (List.Mem.tail _ (List.Mem.tail _ (List.Mem.tail _ (List.Mem.head _)))))))),
     single_sub_of_mem (L := seg1_writes) (y := main_cst) (List.Mem.tail _ (List.Mem.tail _ (List.Mem.tail _ (List.Mem.tail _ (List.Mem.tail _ (List.Mem.tail _ (List.Mem.tail _ (List.Mem.tail _ (List.Mem.head _))))))))),
     single_sub_of_mem (L := seg1_writes) (y := main_v8) (List.Mem.tail _ (List.Mem.tail _ (List.Mem.tail _ (List.Mem.tail _ (List.Mem.tail _ (List.Mem.tail _ (List.Mem.tail _ (List.Mem.tail _ (List.Mem.tail _ (List.Mem.head _)))))))))),
     single_sub_of_mem (L := seg1_writes) (y := main_cst_0) (List.Mem.tail _ (List.Mem.tail _ (List.Mem.tail _ (List.Mem.tail _ (List.Mem.tail _ (List.Mem.tail _ (List.Mem.tail _ (List.Mem.tail _ (List.Mem.tail _ (List.Mem.tail _ (List.Mem.head _))))))))))),
     single_sub_of_mem (L := seg1_writes) (y := main_v9) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))),
     single_sub_of_mem (L := seg1_writes) (y := main_v10) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))),
     single_sub_of_mem (L := seg1_writes) (y := main_v11) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))),
     single_sub_of_mem (L := seg1_writes) (y := main_cst_1) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))),
     single_sub_of_mem (L := seg1_writes) (y := main_v12) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))),
     single_sub_of_mem (L := seg1_writes) (y := main_v13) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))),
     single_sub_of_mem (L := seg1_writes) (y := main_cst_2) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))),
     single_sub_of_mem (L := seg1_writes) (y := main_v14) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))),
     single_sub_of_mem (L := seg1_writes) (y := main_v15) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))),
     single_sub_of_mem (L := seg1_writes) (y := main_v16) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))),
     single_sub_of_mem (L := seg1_writes) (y := main_cst_3) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))),
     single_sub_of_mem (L := seg1_writes) (y := main_call0_v0) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))),
     single_sub_of_mem (L := seg1_writes) (y := main_call0_v1) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))),
     single_sub_of_mem (L := seg1_writes) (y := main_v17) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))⟩ hr

/-- The references segment 2 writes, in order. -/
abbrev seg2_writes : List (Ref sig .tc) :=
  [main_c, main_v18, main_v19, main_c_4, main_v20, main_v21, main_v22, main_v23, main_v24, main_v25, main_c_5, main_v26, main_v27, main_c_6, main_v28, main_v29, main_v30, main_v31, main_v32, main_v33]

/-- A reference segment 2 does not write keeps its contents. -/
theorem seg2_keeps (W : Valuation τ sig (Elt F)) {r : Ref sig .tc} (hr : r ∉ seg2_writes) :
    after (seg2 (F := F)) W (Proc.devRef .tc r) = W (Proc.devRef .tc r) :=
  after_of_writes_sub _ W
    ⟨single_sub_of_mem (L := seg2_writes) (y := main_c) (List.Mem.head _),
     single_sub_of_mem (L := seg2_writes) (y := main_v18) (List.Mem.tail _ (List.Mem.head _)),
     single_sub_of_mem (L := seg2_writes) (y := main_v19) (List.Mem.tail _ (List.Mem.tail _ (List.Mem.head _))),
     single_sub_of_mem (L := seg2_writes) (y := main_c_4) (List.Mem.tail _ (List.Mem.tail _ (List.Mem.tail _ (List.Mem.head _)))),
     single_sub_of_mem (L := seg2_writes) (y := main_v20) (List.Mem.tail _ (List.Mem.tail _ (List.Mem.tail _ (List.Mem.tail _ (List.Mem.head _))))),
     single_sub_of_mem (L := seg2_writes) (y := main_v21) (List.Mem.tail _ (List.Mem.tail _ (List.Mem.tail _ (List.Mem.tail _ (List.Mem.tail _ (List.Mem.head _)))))),
     single_sub_of_mem (L := seg2_writes) (y := main_v22) (List.Mem.tail _ (List.Mem.tail _ (List.Mem.tail _ (List.Mem.tail _ (List.Mem.tail _ (List.Mem.tail _ (List.Mem.head _))))))),
     single_sub_of_mem (L := seg2_writes) (y := main_v23) (List.Mem.tail _ (List.Mem.tail _ (List.Mem.tail _ (List.Mem.tail _ (List.Mem.tail _ (List.Mem.tail _ (List.Mem.tail _ (List.Mem.head _)))))))),
     single_sub_of_mem (L := seg2_writes) (y := main_v24) (List.Mem.tail _ (List.Mem.tail _ (List.Mem.tail _ (List.Mem.tail _ (List.Mem.tail _ (List.Mem.tail _ (List.Mem.tail _ (List.Mem.tail _ (List.Mem.head _))))))))),
     single_sub_of_mem (L := seg2_writes) (y := main_v25) (List.Mem.tail _ (List.Mem.tail _ (List.Mem.tail _ (List.Mem.tail _ (List.Mem.tail _ (List.Mem.tail _ (List.Mem.tail _ (List.Mem.tail _ (List.Mem.tail _ (List.Mem.head _)))))))))),
     single_sub_of_mem (L := seg2_writes) (y := main_c_5) (List.Mem.tail _ (List.Mem.tail _ (List.Mem.tail _ (List.Mem.tail _ (List.Mem.tail _ (List.Mem.tail _ (List.Mem.tail _ (List.Mem.tail _ (List.Mem.tail _ (List.Mem.tail _ (List.Mem.head _))))))))))),
     single_sub_of_mem (L := seg2_writes) (y := main_v26) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))),
     single_sub_of_mem (L := seg2_writes) (y := main_v27) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))),
     single_sub_of_mem (L := seg2_writes) (y := main_c_6) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))),
     single_sub_of_mem (L := seg2_writes) (y := main_v28) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))),
     single_sub_of_mem (L := seg2_writes) (y := main_v29) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))),
     single_sub_of_mem (L := seg2_writes) (y := main_v30) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))),
     single_sub_of_mem (L := seg2_writes) (y := main_v31) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))),
     single_sub_of_mem (L := seg2_writes) (y := main_v32) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))),
     single_sub_of_mem (L := seg2_writes) (y := main_v33) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))⟩ hr

/-- The references segment 3 writes, in order. -/
abbrev seg3_writes : List (Ref sig .tc) :=
  [main_v34, main_v35, main_v36, main_c_7, main_v37, main_v38, main_c_8, main_v39, main_v40, main_v41, main_v42, main_v43, main_v44, main_v45, main_v46, main_cst_9, main_v47, main_v48, main_v49]

/-- A reference segment 3 does not write keeps its contents. -/
theorem seg3_keeps (W : Valuation τ sig (Elt F)) {r : Ref sig .tc} (hr : r ∉ seg3_writes) :
    after (seg3 (F := F)) W (Proc.devRef .tc r) = W (Proc.devRef .tc r) :=
  after_of_writes_sub _ W
    ⟨single_sub_of_mem (L := seg3_writes) (y := main_v34) (List.Mem.head _),
     single_sub_of_mem (L := seg3_writes) (y := main_v35) (List.Mem.tail _ (List.Mem.head _)),
     single_sub_of_mem (L := seg3_writes) (y := main_v36) (List.Mem.tail _ (List.Mem.tail _ (List.Mem.head _))),
     single_sub_of_mem (L := seg3_writes) (y := main_c_7) (List.Mem.tail _ (List.Mem.tail _ (List.Mem.tail _ (List.Mem.head _)))),
     single_sub_of_mem (L := seg3_writes) (y := main_v37) (List.Mem.tail _ (List.Mem.tail _ (List.Mem.tail _ (List.Mem.tail _ (List.Mem.head _))))),
     single_sub_of_mem (L := seg3_writes) (y := main_v38) (List.Mem.tail _ (List.Mem.tail _ (List.Mem.tail _ (List.Mem.tail _ (List.Mem.tail _ (List.Mem.head _)))))),
     single_sub_of_mem (L := seg3_writes) (y := main_c_8) (List.Mem.tail _ (List.Mem.tail _ (List.Mem.tail _ (List.Mem.tail _ (List.Mem.tail _ (List.Mem.tail _ (List.Mem.head _))))))),
     single_sub_of_mem (L := seg3_writes) (y := main_v39) (List.Mem.tail _ (List.Mem.tail _ (List.Mem.tail _ (List.Mem.tail _ (List.Mem.tail _ (List.Mem.tail _ (List.Mem.tail _ (List.Mem.head _)))))))),
     single_sub_of_mem (L := seg3_writes) (y := main_v40) (List.Mem.tail _ (List.Mem.tail _ (List.Mem.tail _ (List.Mem.tail _ (List.Mem.tail _ (List.Mem.tail _ (List.Mem.tail _ (List.Mem.tail _ (List.Mem.head _))))))))),
     single_sub_of_mem (L := seg3_writes) (y := main_v41) (List.Mem.tail _ (List.Mem.tail _ (List.Mem.tail _ (List.Mem.tail _ (List.Mem.tail _ (List.Mem.tail _ (List.Mem.tail _ (List.Mem.tail _ (List.Mem.tail _ (List.Mem.head _)))))))))),
     single_sub_of_mem (L := seg3_writes) (y := main_v42) (List.Mem.tail _ (List.Mem.tail _ (List.Mem.tail _ (List.Mem.tail _ (List.Mem.tail _ (List.Mem.tail _ (List.Mem.tail _ (List.Mem.tail _ (List.Mem.tail _ (List.Mem.tail _ (List.Mem.head _))))))))))),
     single_sub_of_mem (L := seg3_writes) (y := main_v43) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))),
     single_sub_of_mem (L := seg3_writes) (y := main_v44) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))),
     single_sub_of_mem (L := seg3_writes) (y := main_v45) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))),
     single_sub_of_mem (L := seg3_writes) (y := main_v46) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))),
     single_sub_of_mem (L := seg3_writes) (y := main_cst_9) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))),
     single_sub_of_mem (L := seg3_writes) (y := main_v47) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))),
     single_sub_of_mem (L := seg3_writes) (y := main_v48) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))),
     single_sub_of_mem (L := seg3_writes) (y := main_v49) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))⟩ hr

/-- The references segment 4 writes, in order. -/
abbrev seg4_writes : List (Ref sig .tc) :=
  [main_v50, main_v51, main_v52, main_v53, main_c_10, main_v54, main_v55, main_c_11, main_v56, main_v57, main_v58, main_v59, main_v60, main_v61, main_v62, main_v63]

/-- A reference segment 4 does not write keeps its contents. -/
theorem seg4_keeps (W : Valuation τ sig (Elt F)) {r : Ref sig .tc} (hr : r ∉ seg4_writes) :
    after (seg4 (F := F)) W (Proc.devRef .tc r) = W (Proc.devRef .tc r) :=
  after_of_writes_sub _ W
    ⟨single_sub_of_mem (L := seg4_writes) (y := main_v50) (List.Mem.head _),
     single_sub_of_mem (L := seg4_writes) (y := main_v51) (List.Mem.tail _ (List.Mem.head _)),
     single_sub_of_mem (L := seg4_writes) (y := main_v52) (List.Mem.tail _ (List.Mem.tail _ (List.Mem.head _))),
     single_sub_of_mem (L := seg4_writes) (y := main_v53) (List.Mem.tail _ (List.Mem.tail _ (List.Mem.tail _ (List.Mem.head _)))),
     single_sub_of_mem (L := seg4_writes) (y := main_c_10) (List.Mem.tail _ (List.Mem.tail _ (List.Mem.tail _ (List.Mem.tail _ (List.Mem.head _))))),
     single_sub_of_mem (L := seg4_writes) (y := main_v54) (List.Mem.tail _ (List.Mem.tail _ (List.Mem.tail _ (List.Mem.tail _ (List.Mem.tail _ (List.Mem.head _)))))),
     single_sub_of_mem (L := seg4_writes) (y := main_v55) (List.Mem.tail _ (List.Mem.tail _ (List.Mem.tail _ (List.Mem.tail _ (List.Mem.tail _ (List.Mem.tail _ (List.Mem.head _))))))),
     single_sub_of_mem (L := seg4_writes) (y := main_c_11) (List.Mem.tail _ (List.Mem.tail _ (List.Mem.tail _ (List.Mem.tail _ (List.Mem.tail _ (List.Mem.tail _ (List.Mem.tail _ (List.Mem.head _)))))))),
     single_sub_of_mem (L := seg4_writes) (y := main_v56) (List.Mem.tail _ (List.Mem.tail _ (List.Mem.tail _ (List.Mem.tail _ (List.Mem.tail _ (List.Mem.tail _ (List.Mem.tail _ (List.Mem.tail _ (List.Mem.head _))))))))),
     single_sub_of_mem (L := seg4_writes) (y := main_v57) (List.Mem.tail _ (List.Mem.tail _ (List.Mem.tail _ (List.Mem.tail _ (List.Mem.tail _ (List.Mem.tail _ (List.Mem.tail _ (List.Mem.tail _ (List.Mem.tail _ (List.Mem.head _)))))))))),
     single_sub_of_mem (L := seg4_writes) (y := main_v58) (List.Mem.tail _ (List.Mem.tail _ (List.Mem.tail _ (List.Mem.tail _ (List.Mem.tail _ (List.Mem.tail _ (List.Mem.tail _ (List.Mem.tail _ (List.Mem.tail _ (List.Mem.tail _ (List.Mem.head _))))))))))),
     single_sub_of_mem (L := seg4_writes) (y := main_v59) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))),
     single_sub_of_mem (L := seg4_writes) (y := main_v60) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))),
     single_sub_of_mem (L := seg4_writes) (y := main_v61) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))),
     single_sub_of_mem (L := seg4_writes) (y := main_v62) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))),
     single_sub_of_mem (L := seg4_writes) (y := main_v63) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))⟩ hr

/-- The references segment 5 writes, in order. -/
abbrev seg5_writes : List (Ref sig .tc) :=
  [main_cst_12, main_v64, main_v65, main_v66, main_cst_13, main_v67, main_v68, main_v69, main_v70, main_v71, main_v72, main_v73, main_v74, main_v75, main_v76, main_call1_cst, main_call1_v0, main_v77]

/-- A reference segment 5 does not write keeps its contents. -/
theorem seg5_keeps (W : Valuation τ sig (Elt F)) {r : Ref sig .tc} (hr : r ∉ seg5_writes) :
    after (seg5 (F := F)) W (Proc.devRef .tc r) = W (Proc.devRef .tc r) :=
  after_of_writes_sub _ W
    ⟨single_sub_of_mem (L := seg5_writes) (y := main_cst_12) (List.Mem.head _),
     single_sub_of_mem (L := seg5_writes) (y := main_v64) (List.Mem.tail _ (List.Mem.head _)),
     single_sub_of_mem (L := seg5_writes) (y := main_v65) (List.Mem.tail _ (List.Mem.tail _ (List.Mem.head _))),
     single_sub_of_mem (L := seg5_writes) (y := main_v66) (List.Mem.tail _ (List.Mem.tail _ (List.Mem.tail _ (List.Mem.head _)))),
     single_sub_of_mem (L := seg5_writes) (y := main_cst_13) (List.Mem.tail _ (List.Mem.tail _ (List.Mem.tail _ (List.Mem.tail _ (List.Mem.head _))))),
     single_sub_of_mem (L := seg5_writes) (y := main_v67) (List.Mem.tail _ (List.Mem.tail _ (List.Mem.tail _ (List.Mem.tail _ (List.Mem.tail _ (List.Mem.head _)))))),
     single_sub_of_mem (L := seg5_writes) (y := main_v68) (List.Mem.tail _ (List.Mem.tail _ (List.Mem.tail _ (List.Mem.tail _ (List.Mem.tail _ (List.Mem.tail _ (List.Mem.head _))))))),
     single_sub_of_mem (L := seg5_writes) (y := main_v69) (List.Mem.tail _ (List.Mem.tail _ (List.Mem.tail _ (List.Mem.tail _ (List.Mem.tail _ (List.Mem.tail _ (List.Mem.tail _ (List.Mem.head _)))))))),
     single_sub_of_mem (L := seg5_writes) (y := main_v70) (List.Mem.tail _ (List.Mem.tail _ (List.Mem.tail _ (List.Mem.tail _ (List.Mem.tail _ (List.Mem.tail _ (List.Mem.tail _ (List.Mem.tail _ (List.Mem.head _))))))))),
     single_sub_of_mem (L := seg5_writes) (y := main_v71) (List.Mem.tail _ (List.Mem.tail _ (List.Mem.tail _ (List.Mem.tail _ (List.Mem.tail _ (List.Mem.tail _ (List.Mem.tail _ (List.Mem.tail _ (List.Mem.tail _ (List.Mem.head _)))))))))),
     single_sub_of_mem (L := seg5_writes) (y := main_v72) (List.Mem.tail _ (List.Mem.tail _ (List.Mem.tail _ (List.Mem.tail _ (List.Mem.tail _ (List.Mem.tail _ (List.Mem.tail _ (List.Mem.tail _ (List.Mem.tail _ (List.Mem.tail _ (List.Mem.head _))))))))))),
     single_sub_of_mem (L := seg5_writes) (y := main_v73) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))),
     single_sub_of_mem (L := seg5_writes) (y := main_v74) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))),
     single_sub_of_mem (L := seg5_writes) (y := main_v75) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))),
     single_sub_of_mem (L := seg5_writes) (y := main_v76) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))),
     single_sub_of_mem (L := seg5_writes) (y := main_call1_cst) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))),
     single_sub_of_mem (L := seg5_writes) (y := main_call1_v0) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))),
     single_sub_of_mem (L := seg5_writes) (y := main_v77) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))⟩ hr

/-- The references segment 6 writes, in order. -/
abbrev seg6_writes : List (Ref sig .tc) :=
  [main_v78, main_v79, main_v80, main_c_14, main_v81, main_v82, main_c_15, main_v83, main_v84, main_v85, main_v86, main_v87, main_v88, main_v89, main_v90, main_cst_16, main_v91, main_v92, main_v93, main_v94, main_v95, main_v96, main_v97]

/-- A reference segment 6 does not write keeps its contents. -/
theorem seg6_keeps (W : Valuation τ sig (Elt F)) {r : Ref sig .tc} (hr : r ∉ seg6_writes) :
    after (seg6 (F := F)) W (Proc.devRef .tc r) = W (Proc.devRef .tc r) :=
  after_of_writes_sub _ W
    ⟨single_sub_of_mem (L := seg6_writes) (y := main_v78) (List.Mem.head _),
     single_sub_of_mem (L := seg6_writes) (y := main_v79) (List.Mem.tail _ (List.Mem.head _)),
     single_sub_of_mem (L := seg6_writes) (y := main_v80) (List.Mem.tail _ (List.Mem.tail _ (List.Mem.head _))),
     single_sub_of_mem (L := seg6_writes) (y := main_c_14) (List.Mem.tail _ (List.Mem.tail _ (List.Mem.tail _ (List.Mem.head _)))),
     single_sub_of_mem (L := seg6_writes) (y := main_v81) (List.Mem.tail _ (List.Mem.tail _ (List.Mem.tail _ (List.Mem.tail _ (List.Mem.head _))))),
     single_sub_of_mem (L := seg6_writes) (y := main_v82) (List.Mem.tail _ (List.Mem.tail _ (List.Mem.tail _ (List.Mem.tail _ (List.Mem.tail _ (List.Mem.head _)))))),
     single_sub_of_mem (L := seg6_writes) (y := main_c_15) (List.Mem.tail _ (List.Mem.tail _ (List.Mem.tail _ (List.Mem.tail _ (List.Mem.tail _ (List.Mem.tail _ (List.Mem.head _))))))),
     single_sub_of_mem (L := seg6_writes) (y := main_v83) (List.Mem.tail _ (List.Mem.tail _ (List.Mem.tail _ (List.Mem.tail _ (List.Mem.tail _ (List.Mem.tail _ (List.Mem.tail _ (List.Mem.head _)))))))),
     single_sub_of_mem (L := seg6_writes) (y := main_v84) (List.Mem.tail _ (List.Mem.tail _ (List.Mem.tail _ (List.Mem.tail _ (List.Mem.tail _ (List.Mem.tail _ (List.Mem.tail _ (List.Mem.tail _ (List.Mem.head _))))))))),
     single_sub_of_mem (L := seg6_writes) (y := main_v85) (List.Mem.tail _ (List.Mem.tail _ (List.Mem.tail _ (List.Mem.tail _ (List.Mem.tail _ (List.Mem.tail _ (List.Mem.tail _ (List.Mem.tail _ (List.Mem.tail _ (List.Mem.head _)))))))))),
     single_sub_of_mem (L := seg6_writes) (y := main_v86) (List.Mem.tail _ (List.Mem.tail _ (List.Mem.tail _ (List.Mem.tail _ (List.Mem.tail _ (List.Mem.tail _ (List.Mem.tail _ (List.Mem.tail _ (List.Mem.tail _ (List.Mem.tail _ (List.Mem.head _))))))))))),
     single_sub_of_mem (L := seg6_writes) (y := main_v87) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))),
     single_sub_of_mem (L := seg6_writes) (y := main_v88) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))),
     single_sub_of_mem (L := seg6_writes) (y := main_v89) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))),
     single_sub_of_mem (L := seg6_writes) (y := main_v90) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))),
     single_sub_of_mem (L := seg6_writes) (y := main_cst_16) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))),
     single_sub_of_mem (L := seg6_writes) (y := main_v91) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))),
     single_sub_of_mem (L := seg6_writes) (y := main_v92) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))),
     single_sub_of_mem (L := seg6_writes) (y := main_v93) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))),
     single_sub_of_mem (L := seg6_writes) (y := main_v94) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))),
     single_sub_of_mem (L := seg6_writes) (y := main_v95) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))),
     single_sub_of_mem (L := seg6_writes) (y := main_v96) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))),
     single_sub_of_mem (L := seg6_writes) (y := main_v97) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))⟩ hr

/-- The references segment 7 writes, in order. -/
abbrev seg7_writes : List (Ref sig .tc) :=
  [main_c_17, main_v98, main_v99, main_c_18, main_v100, main_v101, main_v102, main_v103, main_v104, main_v105, main_v106, main_v107, main_cst_19, main_v108, main_v109, main_v110]

/-- A reference segment 7 does not write keeps its contents. -/
theorem seg7_keeps (W : Valuation τ sig (Elt F)) {r : Ref sig .tc} (hr : r ∉ seg7_writes) :
    after (seg7 (F := F)) W (Proc.devRef .tc r) = W (Proc.devRef .tc r) :=
  after_of_writes_sub _ W
    ⟨single_sub_of_mem (L := seg7_writes) (y := main_c_17) (List.Mem.head _),
     single_sub_of_mem (L := seg7_writes) (y := main_v98) (List.Mem.tail _ (List.Mem.head _)),
     single_sub_of_mem (L := seg7_writes) (y := main_v99) (List.Mem.tail _ (List.Mem.tail _ (List.Mem.head _))),
     single_sub_of_mem (L := seg7_writes) (y := main_c_18) (List.Mem.tail _ (List.Mem.tail _ (List.Mem.tail _ (List.Mem.head _)))),
     single_sub_of_mem (L := seg7_writes) (y := main_v100) (List.Mem.tail _ (List.Mem.tail _ (List.Mem.tail _ (List.Mem.tail _ (List.Mem.head _))))),
     single_sub_of_mem (L := seg7_writes) (y := main_v101) (List.Mem.tail _ (List.Mem.tail _ (List.Mem.tail _ (List.Mem.tail _ (List.Mem.tail _ (List.Mem.head _)))))),
     single_sub_of_mem (L := seg7_writes) (y := main_v102) (List.Mem.tail _ (List.Mem.tail _ (List.Mem.tail _ (List.Mem.tail _ (List.Mem.tail _ (List.Mem.tail _ (List.Mem.head _))))))),
     single_sub_of_mem (L := seg7_writes) (y := main_v103) (List.Mem.tail _ (List.Mem.tail _ (List.Mem.tail _ (List.Mem.tail _ (List.Mem.tail _ (List.Mem.tail _ (List.Mem.tail _ (List.Mem.head _)))))))),
     single_sub_of_mem (L := seg7_writes) (y := main_v104) (List.Mem.tail _ (List.Mem.tail _ (List.Mem.tail _ (List.Mem.tail _ (List.Mem.tail _ (List.Mem.tail _ (List.Mem.tail _ (List.Mem.tail _ (List.Mem.head _))))))))),
     single_sub_of_mem (L := seg7_writes) (y := main_v105) (List.Mem.tail _ (List.Mem.tail _ (List.Mem.tail _ (List.Mem.tail _ (List.Mem.tail _ (List.Mem.tail _ (List.Mem.tail _ (List.Mem.tail _ (List.Mem.tail _ (List.Mem.head _)))))))))),
     single_sub_of_mem (L := seg7_writes) (y := main_v106) (List.Mem.tail _ (List.Mem.tail _ (List.Mem.tail _ (List.Mem.tail _ (List.Mem.tail _ (List.Mem.tail _ (List.Mem.tail _ (List.Mem.tail _ (List.Mem.tail _ (List.Mem.tail _ (List.Mem.head _))))))))))),
     single_sub_of_mem (L := seg7_writes) (y := main_v107) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))),
     single_sub_of_mem (L := seg7_writes) (y := main_cst_19) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))),
     single_sub_of_mem (L := seg7_writes) (y := main_v108) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))),
     single_sub_of_mem (L := seg7_writes) (y := main_v109) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))),
     single_sub_of_mem (L := seg7_writes) (y := main_v110) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))⟩ hr

/-- The references segment 8 writes, in order. -/
abbrev seg8_writes : List (Ref sig .tc) :=
  [main_cst_20, main_v111, main_v112, main_v113, main_v114, main_v115, main_v116, main_v117, main_v118, main_v119, main_v120]

/-- A reference segment 8 does not write keeps its contents. -/
theorem seg8_keeps (W : Valuation τ sig (Elt F)) {r : Ref sig .tc} (hr : r ∉ seg8_writes) :
    after (seg8 (F := F)) W (Proc.devRef .tc r) = W (Proc.devRef .tc r) :=
  after_of_writes_sub _ W
    ⟨single_sub_of_mem (L := seg8_writes) (y := main_cst_20) (List.Mem.head _),
     single_sub_of_mem (L := seg8_writes) (y := main_v111) (List.Mem.tail _ (List.Mem.head _)),
     single_sub_of_mem (L := seg8_writes) (y := main_v112) (List.Mem.tail _ (List.Mem.tail _ (List.Mem.head _))),
     single_sub_of_mem (L := seg8_writes) (y := main_v113) (List.Mem.tail _ (List.Mem.tail _ (List.Mem.tail _ (List.Mem.head _)))),
     single_sub_of_mem (L := seg8_writes) (y := main_v114) (List.Mem.tail _ (List.Mem.tail _ (List.Mem.tail _ (List.Mem.tail _ (List.Mem.head _))))),
     single_sub_of_mem (L := seg8_writes) (y := main_v115) (List.Mem.tail _ (List.Mem.tail _ (List.Mem.tail _ (List.Mem.tail _ (List.Mem.tail _ (List.Mem.head _)))))),
     single_sub_of_mem (L := seg8_writes) (y := main_v116) (List.Mem.tail _ (List.Mem.tail _ (List.Mem.tail _ (List.Mem.tail _ (List.Mem.tail _ (List.Mem.tail _ (List.Mem.head _))))))),
     single_sub_of_mem (L := seg8_writes) (y := main_v117) (List.Mem.tail _ (List.Mem.tail _ (List.Mem.tail _ (List.Mem.tail _ (List.Mem.tail _ (List.Mem.tail _ (List.Mem.tail _ (List.Mem.head _)))))))),
     single_sub_of_mem (L := seg8_writes) (y := main_v118) (List.Mem.tail _ (List.Mem.tail _ (List.Mem.tail _ (List.Mem.tail _ (List.Mem.tail _ (List.Mem.tail _ (List.Mem.tail _ (List.Mem.tail _ (List.Mem.head _))))))))),
     single_sub_of_mem (L := seg8_writes) (y := main_v119) (List.Mem.tail _ (List.Mem.tail _ (List.Mem.tail _ (List.Mem.tail _ (List.Mem.tail _ (List.Mem.tail _ (List.Mem.tail _ (List.Mem.tail _ (List.Mem.tail _ (List.Mem.head _)))))))))),
     single_sub_of_mem (L := seg8_writes) (y := main_v120) (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))⟩ hr

/-- The references segment 9 writes, in order. -/
abbrev seg9_writes : List (Ref sig .tc) :=
  [main_call2_cst, main_call2_v0, main_call2_cst_0, main_call2_v1, main_call2_v2, main_call2_v3, main_call2_v4, main_call2_v5, main_call2_v6, main_call2_cst_1, main_call2_v7, main_call2_v8, main_call2_v9, main_call2_v10, main_v121]

/-- A reference segment 9 does not write keeps its contents. -/
theorem seg9_keeps (W : Valuation τ sig (Elt F)) {r : Ref sig .tc} (hr : r ∉ seg9_writes) :
    after (seg9 (F := F)) W (Proc.devRef .tc r) = W (Proc.devRef .tc r) :=
  after_of_writes_sub _ W
    ⟨single_sub_of_mem (L := seg9_writes) (y := main_call2_cst) (List.Mem.head _),
     single_sub_of_mem (L := seg9_writes) (y := main_call2_v0) (List.Mem.tail _ (List.Mem.head _)),
     single_sub_of_mem (L := seg9_writes) (y := main_call2_cst_0) (List.Mem.tail _ (List.Mem.tail _ (List.Mem.head _))),
     single_sub_of_mem (L := seg9_writes) (y := main_call2_v1) (List.Mem.tail _ (List.Mem.tail _ (List.Mem.tail _ (List.Mem.head _)))),
     single_sub_of_mem (L := seg9_writes) (y := main_call2_v2) (List.Mem.tail _ (List.Mem.tail _ (List.Mem.tail _ (List.Mem.tail _ (List.Mem.head _))))),
     single_sub_of_mem (L := seg9_writes) (y := main_call2_v3) (List.Mem.tail _ (List.Mem.tail _ (List.Mem.tail _ (List.Mem.tail _ (List.Mem.tail _ (List.Mem.head _)))))),
     single_sub_of_mem (L := seg9_writes) (y := main_call2_v4) (List.Mem.tail _ (List.Mem.tail _ (List.Mem.tail _ (List.Mem.tail _ (List.Mem.tail _ (List.Mem.tail _ (List.Mem.head _))))))),
     single_sub_of_mem (L := seg9_writes) (y := main_call2_v5) (List.Mem.tail _ (List.Mem.tail _ (List.Mem.tail _ (List.Mem.tail _ (List.Mem.tail _ (List.Mem.tail _ (List.Mem.tail _ (List.Mem.head _)))))))),
     single_sub_of_mem (L := seg9_writes) (y := main_call2_v6) (List.Mem.tail _ (List.Mem.tail _ (List.Mem.tail _ (List.Mem.tail _ (List.Mem.tail _ (List.Mem.tail _ (List.Mem.tail _ (List.Mem.tail _ (List.Mem.head _))))))))),
     single_sub_of_mem (L := seg9_writes) (y := main_call2_cst_1) (List.Mem.tail _ (List.Mem.tail _ (List.Mem.tail _ (List.Mem.tail _ (List.Mem.tail _ (List.Mem.tail _ (List.Mem.tail _ (List.Mem.tail _ (List.Mem.tail _ (List.Mem.head _)))))))))),
     single_sub_of_mem (L := seg9_writes) (y := main_call2_v7) (List.Mem.tail _ (List.Mem.tail _ (List.Mem.tail _ (List.Mem.tail _ (List.Mem.tail _ (List.Mem.tail _ (List.Mem.tail _ (List.Mem.tail _ (List.Mem.tail _ (List.Mem.tail _ (List.Mem.head _))))))))))),
     single_sub_of_mem (L := seg9_writes) (y := main_call2_v8) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))),
     single_sub_of_mem (L := seg9_writes) (y := main_call2_v9) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))),
     single_sub_of_mem (L := seg9_writes) (y := main_call2_v10) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))),
     single_sub_of_mem (L := seg9_writes) (y := main_v121) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))⟩ hr

/-- No operation of the reference writes an argument. -/
theorem arg_kept (V : Valuation τ sig (Elt F)) {r : Ref sig .tc}
    (hr : r ∈ [main_arg0, main_arg1, main_arg2, main_arg3, main_arg4, main_arg5]) :
    after (Value.ops (F := F)) V (Proc.devRef .tc r) = V (Proc.devRef .tc r) := by
  have key : ∀ r' ∈ ([main_arg0, main_arg1, main_arg2, main_arg3, main_arg4, main_arg5] : List (Ref sig .tc)),
      r' ∉ seg1_writes ∧ r' ∉ seg2_writes ∧ r' ∉ seg3_writes ∧ r' ∉ seg4_writes ∧ r' ∉ seg5_writes ∧ r' ∉ seg6_writes ∧ r' ∉ seg7_writes ∧ r' ∉ seg8_writes ∧ r' ∉ seg9_writes := by decide
  obtain ⟨k1, k2, k3, k4, k5, k6, k7, k8, k9⟩ := key r hr
  rw [ops_eq]; simp only [after_app]
  rw [seg9_keeps _ k9, seg8_keeps _ k8, seg7_keeps _ k7, seg6_keeps _ k6, seg5_keeps _ k5, seg4_keeps _ k4, seg3_keeps _ k3, seg2_keeps _ k2, seg1_keeps _ k1]

/-! ## Each segment against the stages -/

theorem seg1_main_v1 (W : Valuation τ sig (Elt F)) (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S128, .f32⟩ : BufTy).Contents (Elt F)) (x4 : (⟨S3x128x40, .f32⟩ : BufTy).Contents (Elt F)) (x5 : (⟨S40, .f32⟩ : BufTy).Contents (Elt F))
    (h_main_arg1 : W (Proc.devRef .tc main_arg1) = x1) :
    after (seg1 (F := F)) W (Proc.devRef .tc main_v1) = Read.val_main_v1 (F := F) x1 := by
  seg_simp [h_main_arg1]
  try simp only [ofBuf_toBuf]
  try rw [h_main_arg1]
  rfl

theorem seg1_main_v3 (W : Valuation τ sig (Elt F)) (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S128, .f32⟩ : BufTy).Contents (Elt F)) (x4 : (⟨S3x128x40, .f32⟩ : BufTy).Contents (Elt F)) (x5 : (⟨S40, .f32⟩ : BufTy).Contents (Elt F))
    (h_main_arg1 : W (Proc.devRef .tc main_arg1) = x1) :
    after (seg1 (F := F)) W (Proc.devRef .tc main_v3) = Read.val_main_v3 (F := F) x1 := by
  seg_simp [h_main_arg1]
  try simp only [ofBuf_toBuf]
  try rw [h_main_arg1]
  rfl

theorem seg1_main_v5 (W : Valuation τ sig (Elt F)) (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S128, .f32⟩ : BufTy).Contents (Elt F)) (x4 : (⟨S3x128x40, .f32⟩ : BufTy).Contents (Elt F)) (x5 : (⟨S40, .f32⟩ : BufTy).Contents (Elt F))
    (h_main_arg1 : W (Proc.devRef .tc main_arg1) = x1) :
    after (seg1 (F := F)) W (Proc.devRef .tc main_v5) = Read.val_main_v5 (F := F) x1 := by
  seg_simp [h_main_arg1]
  try simp only [ofBuf_toBuf]
  try rw [h_main_arg1]
  rfl

theorem seg1_main_v7 (W : Valuation τ sig (Elt F)) (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S128, .f32⟩ : BufTy).Contents (Elt F)) (x4 : (⟨S3x128x40, .f32⟩ : BufTy).Contents (Elt F)) (x5 : (⟨S40, .f32⟩ : BufTy).Contents (Elt F))
    (h_main_arg1 : W (Proc.devRef .tc main_arg1) = x1) :
    after (seg1 (F := F)) W (Proc.devRef .tc main_v7) = Read.val_main_v7 (F := F) x1 := by
  seg_simp [h_main_arg1]
  try simp only [ofBuf_toBuf]
  try rw [h_main_arg1]
  rfl

theorem seg1_main_v17 (W : Valuation τ sig (Elt F)) (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S128, .f32⟩ : BufTy).Contents (Elt F)) (x4 : (⟨S3x128x40, .f32⟩ : BufTy).Contents (Elt F)) (x5 : (⟨S40, .f32⟩ : BufTy).Contents (Elt F))
    (h_main_arg1 : W (Proc.devRef .tc main_arg1) = x1) :
    after (seg1 (F := F)) W (Proc.devRef .tc main_v17) = Read.val_main_v17 (F := F) x1 := by
  seg_simp [h_main_arg1]
  try simp only [ofBuf_toBuf]
  try rw [h_main_arg1]
  rfl

theorem seg2_main_v33 (W : Valuation τ sig (Elt F)) (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S128, .f32⟩ : BufTy).Contents (Elt F)) (x4 : (⟨S3x128x40, .f32⟩ : BufTy).Contents (Elt F)) (x5 : (⟨S40, .f32⟩ : BufTy).Contents (Elt F))
    (h_main_v17 : W (Proc.devRef .tc main_v17) = Read.val_main_v17 (F := F) x1)
    (h_main_v5 : W (Proc.devRef .tc main_v5) = Read.val_main_v5 (F := F) x1)
    (h_main_v7 : W (Proc.devRef .tc main_v7) = Read.val_main_v7 (F := F) x1) :
    after (seg2 (F := F)) W (Proc.devRef .tc main_v33) = Read.val_main_v33 (F := F) x1 := by
  seg_simp [h_main_v17, h_main_v5, h_main_v7]
  try simp only [ofBuf_toBuf]
  try rw [h_main_v17]
  try rw [h_main_v5]
  try rw [h_main_v7]
  rfl

theorem seg3_main_v36 (W : Valuation τ sig (Elt F)) (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S128, .f32⟩ : BufTy).Contents (Elt F)) (x4 : (⟨S3x128x40, .f32⟩ : BufTy).Contents (Elt F)) (x5 : (⟨S40, .f32⟩ : BufTy).Contents (Elt F))
    (h_main_arg0 : W (Proc.devRef .tc main_arg0) = x0)
    (h_main_arg2 : W (Proc.devRef .tc main_arg2) = x2) :
    after (seg3 (F := F)) W (Proc.devRef .tc main_v36) = Read.val_main_v36 (F := F) x0 x2 := by
  seg_simp [h_main_arg0, h_main_arg2]
  try simp only [ofBuf_toBuf]
  try rw [h_main_arg0]
  try rw [h_main_arg2]
  rfl

theorem seg3_main_v49 (W : Valuation τ sig (Elt F)) (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S128, .f32⟩ : BufTy).Contents (Elt F)) (x4 : (⟨S3x128x40, .f32⟩ : BufTy).Contents (Elt F)) (x5 : (⟨S40, .f32⟩ : BufTy).Contents (Elt F))
    (h_main_v3 : W (Proc.devRef .tc main_v3) = Read.val_main_v3 (F := F) x1)
    (h_main_arg0 : W (Proc.devRef .tc main_arg0) = x0)
    (h_main_v1 : W (Proc.devRef .tc main_v1) = Read.val_main_v1 (F := F) x1)
    (h_main_v33 : W (Proc.devRef .tc main_v33) = Read.val_main_v33 (F := F) x1) :
    after (seg3 (F := F)) W (Proc.devRef .tc main_v49) = Read.val_main_v49 (F := F) x0 x1 := by
  seg_simp [h_main_v3, h_main_arg0, h_main_v1, h_main_v33]
  try simp only [ofBuf_toBuf]
  try rw [h_main_v3]
  try rw [h_main_arg0]
  try rw [h_main_v1]
  try rw [h_main_v33]
  rfl

theorem seg4_main_v53 (W : Valuation τ sig (Elt F)) (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S128, .f32⟩ : BufTy).Contents (Elt F)) (x4 : (⟨S3x128x40, .f32⟩ : BufTy).Contents (Elt F)) (x5 : (⟨S40, .f32⟩ : BufTy).Contents (Elt F))
    (h_main_v36 : W (Proc.devRef .tc main_v36) = Read.val_main_v36 (F := F) x0 x2)
    (h_main_v49 : W (Proc.devRef .tc main_v49) = Read.val_main_v49 (F := F) x0 x1)
    (h_main_arg2 : W (Proc.devRef .tc main_arg2) = x2) :
    after (seg4 (F := F)) W (Proc.devRef .tc main_v53) = Read.val_main_v53 (F := F) x0 x1 x2 := by
  seg_simp [h_main_v36, h_main_v49, h_main_arg2]
  try simp only [ofBuf_toBuf]
  try rw [h_main_v36]
  try rw [h_main_v49]
  try rw [h_main_arg2]
  rfl

theorem seg4_main_v63 (W : Valuation τ sig (Elt F)) (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S128, .f32⟩ : BufTy).Contents (Elt F)) (x4 : (⟨S3x128x40, .f32⟩ : BufTy).Contents (Elt F)) (x5 : (⟨S40, .f32⟩ : BufTy).Contents (Elt F))
    (h_main_v49 : W (Proc.devRef .tc main_v49) = Read.val_main_v49 (F := F) x0 x1)
    (h_main_v1 : W (Proc.devRef .tc main_v1) = Read.val_main_v1 (F := F) x1)
    (h_main_v33 : W (Proc.devRef .tc main_v33) = Read.val_main_v33 (F := F) x1) :
    after (seg4 (F := F)) W (Proc.devRef .tc main_v63) = Read.val_main_v63 (F := F) x0 x1 := by
  seg_simp [h_main_v49, h_main_v1, h_main_v33]
  try simp only [ofBuf_toBuf]
  try rw [h_main_v49]
  try rw [h_main_v1]
  try rw [h_main_v33]
  rfl

theorem seg5_main_v77 (W : Valuation τ sig (Elt F)) (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S128, .f32⟩ : BufTy).Contents (Elt F)) (x4 : (⟨S3x128x40, .f32⟩ : BufTy).Contents (Elt F)) (x5 : (⟨S40, .f32⟩ : BufTy).Contents (Elt F))
    (h_main_v53 : W (Proc.devRef .tc main_v53) = Read.val_main_v53 (F := F) x0 x1 x2)
    (h_main_v3 : W (Proc.devRef .tc main_v3) = Read.val_main_v3 (F := F) x1)
    (h_main_v63 : W (Proc.devRef .tc main_v63) = Read.val_main_v63 (F := F) x0 x1)
    (h_main_arg0 : W (Proc.devRef .tc main_arg0) = x0)
    (h_main_arg2 : W (Proc.devRef .tc main_arg2) = x2)
    (h_main_arg3 : W (Proc.devRef .tc main_arg3) = x3) :
    after (seg5 (F := F)) W (Proc.devRef .tc main_v77) = Read.val_main_v77 (F := F) x0 x1 x2 x3 := by
  seg_simp [h_main_v53, h_main_v3, h_main_v63, h_main_arg0, h_main_arg2, h_main_arg3]
  try simp only [ofBuf_toBuf]
  try rw [h_main_v53]
  try rw [h_main_v3]
  try rw [h_main_v63]
  try rw [h_main_arg0]
  try rw [h_main_arg2]
  try rw [h_main_arg3]
  rfl

theorem seg6_main_v93 (W : Valuation τ sig (Elt F)) (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S128, .f32⟩ : BufTy).Contents (Elt F)) (x4 : (⟨S3x128x40, .f32⟩ : BufTy).Contents (Elt F)) (x5 : (⟨S40, .f32⟩ : BufTy).Contents (Elt F))
    (h_main_v3 : W (Proc.devRef .tc main_v3) = Read.val_main_v3 (F := F) x1)
    (h_main_v77 : W (Proc.devRef .tc main_v77) = Read.val_main_v77 (F := F) x0 x1 x2 x3)
    (h_main_v1 : W (Proc.devRef .tc main_v1) = Read.val_main_v1 (F := F) x1)
    (h_main_v33 : W (Proc.devRef .tc main_v33) = Read.val_main_v33 (F := F) x1) :
    after (seg6 (F := F)) W (Proc.devRef .tc main_v93) = Read.val_main_v93 (F := F) x0 x1 x2 x3 := by
  seg_simp [h_main_v3, h_main_v77, h_main_v1, h_main_v33]
  try simp only [ofBuf_toBuf]
  try rw [h_main_v3]
  try rw [h_main_v77]
  try rw [h_main_v1]
  try rw [h_main_v33]
  rfl

theorem seg6_main_v97 (W : Valuation τ sig (Elt F)) (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S128, .f32⟩ : BufTy).Contents (Elt F)) (x4 : (⟨S3x128x40, .f32⟩ : BufTy).Contents (Elt F)) (x5 : (⟨S40, .f32⟩ : BufTy).Contents (Elt F))
    (h_main_v77 : W (Proc.devRef .tc main_v77) = Read.val_main_v77 (F := F) x0 x1 x2 x3)
    (h_main_arg4 : W (Proc.devRef .tc main_arg4) = x4)
    (h_main_v3 : W (Proc.devRef .tc main_v3) = Read.val_main_v3 (F := F) x1)
    (h_main_v1 : W (Proc.devRef .tc main_v1) = Read.val_main_v1 (F := F) x1)
    (h_main_v33 : W (Proc.devRef .tc main_v33) = Read.val_main_v33 (F := F) x1) :
    after (seg6 (F := F)) W (Proc.devRef .tc main_v97) = Read.val_main_v97 (F := F) x0 x1 x2 x3 x4 := by
  seg_simp [h_main_v77, h_main_arg4, h_main_v3, h_main_v1, h_main_v33]
  try simp only [ofBuf_toBuf]
  try rw [h_main_v77]
  try rw [h_main_arg4]
  try rw [h_main_v3]
  try rw [h_main_v1]
  try rw [h_main_v33]
  rfl

theorem seg7_main_v110 (W : Valuation τ sig (Elt F)) (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S128, .f32⟩ : BufTy).Contents (Elt F)) (x4 : (⟨S3x128x40, .f32⟩ : BufTy).Contents (Elt F)) (x5 : (⟨S40, .f32⟩ : BufTy).Contents (Elt F))
    (h_main_v3 : W (Proc.devRef .tc main_v3) = Read.val_main_v3 (F := F) x1)
    (h_main_v93 : W (Proc.devRef .tc main_v93) = Read.val_main_v93 (F := F) x0 x1 x2 x3)
    (h_main_v1 : W (Proc.devRef .tc main_v1) = Read.val_main_v1 (F := F) x1)
    (h_main_v33 : W (Proc.devRef .tc main_v33) = Read.val_main_v33 (F := F) x1) :
    after (seg7 (F := F)) W (Proc.devRef .tc main_v110) = Read.val_main_v110 (F := F) x0 x1 x2 x3 := by
  seg_simp [h_main_v3, h_main_v93, h_main_v1, h_main_v33]
  try simp only [ofBuf_toBuf]
  try rw [h_main_v3]
  try rw [h_main_v93]
  try rw [h_main_v1]
  try rw [h_main_v33]
  rfl

theorem seg8_main_v120 (W : Valuation τ sig (Elt F)) (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S128, .f32⟩ : BufTy).Contents (Elt F)) (x4 : (⟨S3x128x40, .f32⟩ : BufTy).Contents (Elt F)) (x5 : (⟨S40, .f32⟩ : BufTy).Contents (Elt F))
    (h_main_v97 : W (Proc.devRef .tc main_v97) = Read.val_main_v97 (F := F) x0 x1 x2 x3 x4)
    (h_main_v110 : W (Proc.devRef .tc main_v110) = Read.val_main_v110 (F := F) x0 x1 x2 x3)
    (h_main_v77 : W (Proc.devRef .tc main_v77) = Read.val_main_v77 (F := F) x0 x1 x2 x3)
    (h_main_arg4 : W (Proc.devRef .tc main_arg4) = x4)
    (h_main_arg5 : W (Proc.devRef .tc main_arg5) = x5) :
    after (seg8 (F := F)) W (Proc.devRef .tc main_v120) = Read.val_main_v120 (F := F) x0 x1 x2 x3 x4 x5 := by
  seg_simp [h_main_v97, h_main_v110, h_main_v77, h_main_arg4, h_main_arg5]
  try simp only [ofBuf_toBuf]
  try rw [h_main_v97]
  try rw [h_main_v110]
  try rw [h_main_v77]
  try rw [h_main_arg4]
  try rw [h_main_arg5]
  rfl

theorem seg9_main_v121 (W : Valuation τ sig (Elt F)) (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S128, .f32⟩ : BufTy).Contents (Elt F)) (x4 : (⟨S3x128x40, .f32⟩ : BufTy).Contents (Elt F)) (x5 : (⟨S40, .f32⟩ : BufTy).Contents (Elt F))
    (h_main_v120 : W (Proc.devRef .tc main_v120) = Read.val_main_v120 (F := F) x0 x1 x2 x3 x4 x5) :
    after (seg9 (F := F)) W (Proc.devRef .tc main_v121) = Read.val_main_v121 (F := F) x0 x1 x2 x3 x4 x5 := by
  seg_simp [h_main_v120]
  try simp only [ofBuf_toBuf]
  try rw [h_main_v120]
  rfl

/-! ## The chain -/

theorem result_term (V : Valuation τ sig (Elt F)) :
    after (Value.ops (F := F)) V (Proc.devRef .tc main_v121)
      = Read.val_main_v121 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ops_eq]; simp only [after_app]
  have f0_main_arg0 : V (Proc.devRef .tc main_arg0) = V (Proc.devRef .tc main_arg0) := rfl
  have f0_main_arg2 : V (Proc.devRef .tc main_arg2) = V (Proc.devRef .tc main_arg2) := rfl
  have f0_main_arg1 : V (Proc.devRef .tc main_arg1) = V (Proc.devRef .tc main_arg1) := rfl
  have f0_main_arg3 : V (Proc.devRef .tc main_arg3) = V (Proc.devRef .tc main_arg3) := rfl
  have f0_main_arg4 : V (Proc.devRef .tc main_arg4) = V (Proc.devRef .tc main_arg4) := rfl
  have f0_main_arg5 : V (Proc.devRef .tc main_arg5) = V (Proc.devRef .tc main_arg5) := rfl
  have f1_main_arg0 := (seg1_keeps V (r := main_arg0) (by decide)).trans f0_main_arg0
  have f1_main_arg2 := (seg1_keeps V (r := main_arg2) (by decide)).trans f0_main_arg2
  have f1_main_v3 := seg1_main_v3 V (V (Proc.devRef .tc main_arg0)) (V (Proc.devRef .tc main_arg1)) (V (Proc.devRef .tc main_arg2)) (V (Proc.devRef .tc main_arg3)) (V (Proc.devRef .tc main_arg4)) (V (Proc.devRef .tc main_arg5)) f0_main_arg1
  have f1_main_v1 := seg1_main_v1 V (V (Proc.devRef .tc main_arg0)) (V (Proc.devRef .tc main_arg1)) (V (Proc.devRef .tc main_arg2)) (V (Proc.devRef .tc main_arg3)) (V (Proc.devRef .tc main_arg4)) (V (Proc.devRef .tc main_arg5)) f0_main_arg1
  have f1_main_v17 := seg1_main_v17 V (V (Proc.devRef .tc main_arg0)) (V (Proc.devRef .tc main_arg1)) (V (Proc.devRef .tc main_arg2)) (V (Proc.devRef .tc main_arg3)) (V (Proc.devRef .tc main_arg4)) (V (Proc.devRef .tc main_arg5)) f0_main_arg1
  have f1_main_v5 := seg1_main_v5 V (V (Proc.devRef .tc main_arg0)) (V (Proc.devRef .tc main_arg1)) (V (Proc.devRef .tc main_arg2)) (V (Proc.devRef .tc main_arg3)) (V (Proc.devRef .tc main_arg4)) (V (Proc.devRef .tc main_arg5)) f0_main_arg1
  have f1_main_v7 := seg1_main_v7 V (V (Proc.devRef .tc main_arg0)) (V (Proc.devRef .tc main_arg1)) (V (Proc.devRef .tc main_arg2)) (V (Proc.devRef .tc main_arg3)) (V (Proc.devRef .tc main_arg4)) (V (Proc.devRef .tc main_arg5)) f0_main_arg1
  have f1_main_arg3 := (seg1_keeps V (r := main_arg3) (by decide)).trans f0_main_arg3
  have f1_main_arg4 := (seg1_keeps V (r := main_arg4) (by decide)).trans f0_main_arg4
  have f1_main_arg5 := (seg1_keeps V (r := main_arg5) (by decide)).trans f0_main_arg5
  have f2_main_arg0 := (seg2_keeps (after (seg1 (F := F)) V) (r := main_arg0) (by decide)).trans f1_main_arg0
  have f2_main_arg2 := (seg2_keeps (after (seg1 (F := F)) V) (r := main_arg2) (by decide)).trans f1_main_arg2
  have f2_main_v3 := (seg2_keeps (after (seg1 (F := F)) V) (r := main_v3) (by decide)).trans f1_main_v3
  have f2_main_v1 := (seg2_keeps (after (seg1 (F := F)) V) (r := main_v1) (by decide)).trans f1_main_v1
  have f2_main_v33 := seg2_main_v33 (after (seg1 (F := F)) V) (V (Proc.devRef .tc main_arg0)) (V (Proc.devRef .tc main_arg1)) (V (Proc.devRef .tc main_arg2)) (V (Proc.devRef .tc main_arg3)) (V (Proc.devRef .tc main_arg4)) (V (Proc.devRef .tc main_arg5)) f1_main_v17 f1_main_v5 f1_main_v7
  have f2_main_arg3 := (seg2_keeps (after (seg1 (F := F)) V) (r := main_arg3) (by decide)).trans f1_main_arg3
  have f2_main_arg4 := (seg2_keeps (after (seg1 (F := F)) V) (r := main_arg4) (by decide)).trans f1_main_arg4
  have f2_main_arg5 := (seg2_keeps (after (seg1 (F := F)) V) (r := main_arg5) (by decide)).trans f1_main_arg5
  have f3_main_v36 := seg3_main_v36 (after (seg2 (F := F)) (after (seg1 (F := F)) V)) (V (Proc.devRef .tc main_arg0)) (V (Proc.devRef .tc main_arg1)) (V (Proc.devRef .tc main_arg2)) (V (Proc.devRef .tc main_arg3)) (V (Proc.devRef .tc main_arg4)) (V (Proc.devRef .tc main_arg5)) f2_main_arg0 f2_main_arg2
  have f3_main_v49 := seg3_main_v49 (after (seg2 (F := F)) (after (seg1 (F := F)) V)) (V (Proc.devRef .tc main_arg0)) (V (Proc.devRef .tc main_arg1)) (V (Proc.devRef .tc main_arg2)) (V (Proc.devRef .tc main_arg3)) (V (Proc.devRef .tc main_arg4)) (V (Proc.devRef .tc main_arg5)) f2_main_v3 f2_main_arg0 f2_main_v1 f2_main_v33
  have f3_main_arg2 := (seg3_keeps (after (seg2 (F := F)) (after (seg1 (F := F)) V)) (r := main_arg2) (by decide)).trans f2_main_arg2
  have f3_main_v3 := (seg3_keeps (after (seg2 (F := F)) (after (seg1 (F := F)) V)) (r := main_v3) (by decide)).trans f2_main_v3
  have f3_main_v1 := (seg3_keeps (after (seg2 (F := F)) (after (seg1 (F := F)) V)) (r := main_v1) (by decide)).trans f2_main_v1
  have f3_main_v33 := (seg3_keeps (after (seg2 (F := F)) (after (seg1 (F := F)) V)) (r := main_v33) (by decide)).trans f2_main_v33
  have f3_main_arg0 := (seg3_keeps (after (seg2 (F := F)) (after (seg1 (F := F)) V)) (r := main_arg0) (by decide)).trans f2_main_arg0
  have f3_main_arg3 := (seg3_keeps (after (seg2 (F := F)) (after (seg1 (F := F)) V)) (r := main_arg3) (by decide)).trans f2_main_arg3
  have f3_main_arg4 := (seg3_keeps (after (seg2 (F := F)) (after (seg1 (F := F)) V)) (r := main_arg4) (by decide)).trans f2_main_arg4
  have f3_main_arg5 := (seg3_keeps (after (seg2 (F := F)) (after (seg1 (F := F)) V)) (r := main_arg5) (by decide)).trans f2_main_arg5
  have f4_main_v53 := seg4_main_v53 (after (seg3 (F := F)) (after (seg2 (F := F)) (after (seg1 (F := F)) V))) (V (Proc.devRef .tc main_arg0)) (V (Proc.devRef .tc main_arg1)) (V (Proc.devRef .tc main_arg2)) (V (Proc.devRef .tc main_arg3)) (V (Proc.devRef .tc main_arg4)) (V (Proc.devRef .tc main_arg5)) f3_main_v36 f3_main_v49 f3_main_arg2
  have f4_main_v3 := (seg4_keeps (after (seg3 (F := F)) (after (seg2 (F := F)) (after (seg1 (F := F)) V))) (r := main_v3) (by decide)).trans f3_main_v3
  have f4_main_v63 := seg4_main_v63 (after (seg3 (F := F)) (after (seg2 (F := F)) (after (seg1 (F := F)) V))) (V (Proc.devRef .tc main_arg0)) (V (Proc.devRef .tc main_arg1)) (V (Proc.devRef .tc main_arg2)) (V (Proc.devRef .tc main_arg3)) (V (Proc.devRef .tc main_arg4)) (V (Proc.devRef .tc main_arg5)) f3_main_v49 f3_main_v1 f3_main_v33
  have f4_main_arg0 := (seg4_keeps (after (seg3 (F := F)) (after (seg2 (F := F)) (after (seg1 (F := F)) V))) (r := main_arg0) (by decide)).trans f3_main_arg0
  have f4_main_arg2 := (seg4_keeps (after (seg3 (F := F)) (after (seg2 (F := F)) (after (seg1 (F := F)) V))) (r := main_arg2) (by decide)).trans f3_main_arg2
  have f4_main_arg3 := (seg4_keeps (after (seg3 (F := F)) (after (seg2 (F := F)) (after (seg1 (F := F)) V))) (r := main_arg3) (by decide)).trans f3_main_arg3
  have f4_main_arg4 := (seg4_keeps (after (seg3 (F := F)) (after (seg2 (F := F)) (after (seg1 (F := F)) V))) (r := main_arg4) (by decide)).trans f3_main_arg4
  have f4_main_v1 := (seg4_keeps (after (seg3 (F := F)) (after (seg2 (F := F)) (after (seg1 (F := F)) V))) (r := main_v1) (by decide)).trans f3_main_v1
  have f4_main_v33 := (seg4_keeps (after (seg3 (F := F)) (after (seg2 (F := F)) (after (seg1 (F := F)) V))) (r := main_v33) (by decide)).trans f3_main_v33
  have f4_main_arg5 := (seg4_keeps (after (seg3 (F := F)) (after (seg2 (F := F)) (after (seg1 (F := F)) V))) (r := main_arg5) (by decide)).trans f3_main_arg5
  have f5_main_v77 := seg5_main_v77 (after (seg4 (F := F)) (after (seg3 (F := F)) (after (seg2 (F := F)) (after (seg1 (F := F)) V)))) (V (Proc.devRef .tc main_arg0)) (V (Proc.devRef .tc main_arg1)) (V (Proc.devRef .tc main_arg2)) (V (Proc.devRef .tc main_arg3)) (V (Proc.devRef .tc main_arg4)) (V (Proc.devRef .tc main_arg5)) f4_main_v53 f4_main_v3 f4_main_v63 f4_main_arg0 f4_main_arg2 f4_main_arg3
  have f5_main_arg4 := (seg5_keeps (after (seg4 (F := F)) (after (seg3 (F := F)) (after (seg2 (F := F)) (after (seg1 (F := F)) V)))) (r := main_arg4) (by decide)).trans f4_main_arg4
  have f5_main_v3 := (seg5_keeps (after (seg4 (F := F)) (after (seg3 (F := F)) (after (seg2 (F := F)) (after (seg1 (F := F)) V)))) (r := main_v3) (by decide)).trans f4_main_v3
  have f5_main_v1 := (seg5_keeps (after (seg4 (F := F)) (after (seg3 (F := F)) (after (seg2 (F := F)) (after (seg1 (F := F)) V)))) (r := main_v1) (by decide)).trans f4_main_v1
  have f5_main_v33 := (seg5_keeps (after (seg4 (F := F)) (after (seg3 (F := F)) (after (seg2 (F := F)) (after (seg1 (F := F)) V)))) (r := main_v33) (by decide)).trans f4_main_v33
  have f5_main_arg5 := (seg5_keeps (after (seg4 (F := F)) (after (seg3 (F := F)) (after (seg2 (F := F)) (after (seg1 (F := F)) V)))) (r := main_arg5) (by decide)).trans f4_main_arg5
  have f6_main_v97 := seg6_main_v97 (after (seg5 (F := F)) (after (seg4 (F := F)) (after (seg3 (F := F)) (after (seg2 (F := F)) (after (seg1 (F := F)) V))))) (V (Proc.devRef .tc main_arg0)) (V (Proc.devRef .tc main_arg1)) (V (Proc.devRef .tc main_arg2)) (V (Proc.devRef .tc main_arg3)) (V (Proc.devRef .tc main_arg4)) (V (Proc.devRef .tc main_arg5)) f5_main_v77 f5_main_arg4 f5_main_v3 f5_main_v1 f5_main_v33
  have f6_main_v3 := (seg6_keeps (after (seg5 (F := F)) (after (seg4 (F := F)) (after (seg3 (F := F)) (after (seg2 (F := F)) (after (seg1 (F := F)) V))))) (r := main_v3) (by decide)).trans f5_main_v3
  have f6_main_v93 := seg6_main_v93 (after (seg5 (F := F)) (after (seg4 (F := F)) (after (seg3 (F := F)) (after (seg2 (F := F)) (after (seg1 (F := F)) V))))) (V (Proc.devRef .tc main_arg0)) (V (Proc.devRef .tc main_arg1)) (V (Proc.devRef .tc main_arg2)) (V (Proc.devRef .tc main_arg3)) (V (Proc.devRef .tc main_arg4)) (V (Proc.devRef .tc main_arg5)) f5_main_v3 f5_main_v77 f5_main_v1 f5_main_v33
  have f6_main_v1 := (seg6_keeps (after (seg5 (F := F)) (after (seg4 (F := F)) (after (seg3 (F := F)) (after (seg2 (F := F)) (after (seg1 (F := F)) V))))) (r := main_v1) (by decide)).trans f5_main_v1
  have f6_main_v33 := (seg6_keeps (after (seg5 (F := F)) (after (seg4 (F := F)) (after (seg3 (F := F)) (after (seg2 (F := F)) (after (seg1 (F := F)) V))))) (r := main_v33) (by decide)).trans f5_main_v33
  have f6_main_v77 := (seg6_keeps (after (seg5 (F := F)) (after (seg4 (F := F)) (after (seg3 (F := F)) (after (seg2 (F := F)) (after (seg1 (F := F)) V))))) (r := main_v77) (by decide)).trans f5_main_v77
  have f6_main_arg4 := (seg6_keeps (after (seg5 (F := F)) (after (seg4 (F := F)) (after (seg3 (F := F)) (after (seg2 (F := F)) (after (seg1 (F := F)) V))))) (r := main_arg4) (by decide)).trans f5_main_arg4
  have f6_main_arg5 := (seg6_keeps (after (seg5 (F := F)) (after (seg4 (F := F)) (after (seg3 (F := F)) (after (seg2 (F := F)) (after (seg1 (F := F)) V))))) (r := main_arg5) (by decide)).trans f5_main_arg5
  have f7_main_v97 := (seg7_keeps (after (seg6 (F := F)) (after (seg5 (F := F)) (after (seg4 (F := F)) (after (seg3 (F := F)) (after (seg2 (F := F)) (after (seg1 (F := F)) V)))))) (r := main_v97) (by decide)).trans f6_main_v97
  have f7_main_v110 := seg7_main_v110 (after (seg6 (F := F)) (after (seg5 (F := F)) (after (seg4 (F := F)) (after (seg3 (F := F)) (after (seg2 (F := F)) (after (seg1 (F := F)) V)))))) (V (Proc.devRef .tc main_arg0)) (V (Proc.devRef .tc main_arg1)) (V (Proc.devRef .tc main_arg2)) (V (Proc.devRef .tc main_arg3)) (V (Proc.devRef .tc main_arg4)) (V (Proc.devRef .tc main_arg5)) f6_main_v3 f6_main_v93 f6_main_v1 f6_main_v33
  have f7_main_v77 := (seg7_keeps (after (seg6 (F := F)) (after (seg5 (F := F)) (after (seg4 (F := F)) (after (seg3 (F := F)) (after (seg2 (F := F)) (after (seg1 (F := F)) V)))))) (r := main_v77) (by decide)).trans f6_main_v77
  have f7_main_arg4 := (seg7_keeps (after (seg6 (F := F)) (after (seg5 (F := F)) (after (seg4 (F := F)) (after (seg3 (F := F)) (after (seg2 (F := F)) (after (seg1 (F := F)) V)))))) (r := main_arg4) (by decide)).trans f6_main_arg4
  have f7_main_arg5 := (seg7_keeps (after (seg6 (F := F)) (after (seg5 (F := F)) (after (seg4 (F := F)) (after (seg3 (F := F)) (after (seg2 (F := F)) (after (seg1 (F := F)) V)))))) (r := main_arg5) (by decide)).trans f6_main_arg5
  have f8_main_v120 := seg8_main_v120 (after (seg7 (F := F)) (after (seg6 (F := F)) (after (seg5 (F := F)) (after (seg4 (F := F)) (after (seg3 (F := F)) (after (seg2 (F := F)) (after (seg1 (F := F)) V))))))) (V (Proc.devRef .tc main_arg0)) (V (Proc.devRef .tc main_arg1)) (V (Proc.devRef .tc main_arg2)) (V (Proc.devRef .tc main_arg3)) (V (Proc.devRef .tc main_arg4)) (V (Proc.devRef .tc main_arg5)) f7_main_v97 f7_main_v110 f7_main_v77 f7_main_arg4 f7_main_arg5
  exact seg9_main_v121 (after (seg8 (F := F)) (after (seg7 (F := F)) (after (seg6 (F := F)) (after (seg5 (F := F)) (after (seg4 (F := F)) (after (seg3 (F := F)) (after (seg2 (F := F)) (after (seg1 (F := F)) V)))))))) (V (Proc.devRef .tc main_arg0)) (V (Proc.devRef .tc main_arg1)) (V (Proc.devRef .tc main_arg2)) (V (Proc.devRef .tc main_arg3)) (V (Proc.devRef .tc main_arg4)) (V (Proc.devRef .tc main_arg5)) f8_main_v120

/-! ## The run -/

/-- On every device, for any float values, from any memory with zero counters: every weakly fair execution of
    @main terminates with the result at the reference's last stage, as a function of the arguments' launch
    contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v121)
          = Read.val_main_v121 (F := F) (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v121).trans (result_term (launchContents m c)),
       (h c main_arg0).trans (arg_kept (launchContents m c) (by decide)),
       (h c main_arg1).trans (arg_kept (launchContents m c) (by decide)),
       (h c main_arg2).trans (arg_kept (launchContents m c) (by decide)),
       (h c main_arg3).trans (arg_kept (launchContents m c) (by decide)),
       (h c main_arg4).trans (arg_kept (launchContents m c) (by decide)),
       (h c main_arg5).trans (arg_kept (launchContents m c) (by decide))⟩)
    (run_seq Value.scopedRefs_eq Value.scopedSems_eq defs main (fun _ => Value.ops) Value.main_eq (fun _ => Value.ops_sub) m ρ)

end Cert.ReferenceIdeal.Staged

end
-- ==== Proof.lean ====
/-
  The five claims of this certificate, assembled.

  The kernel program (a two-layer Chebyshev graph network): host operations compute, from the edge list, one weight
  per edge and the weighted neighbour sum L; the first pallas_call computes h = relu([x, L x, 2·L(L x) − x] · W1cat + b1)
  as ONE product over the 384 concatenated columns, block of 2000 rows by block; host operations repeat the
  neighbour sums on h; the second pallas_call computes, per row, the log-softmax over the 40 class logits of
  [h, L h, 2·L(L h) − h] · W2cat + b2, computed on 128 lanes of which 88 are padding filled with −∞.
  The reference computes (x·W[0] + L x·W[1]) + (2·L(L x) − x)·W[2] + b per layer and the log-softmax over 40 columns.

  * The two kernel frames and the statement about the named fill constant are in Proof/KernelClaims.lean.
  * The reference's frame is its run with the result forgotten.
  * The two results are equal because: the host operations are the same operations in both programs, so the
    neighbour sums agree as arrays; a sum over 384 concatenated columns is the sum of the three sums over 128
    (addition on the extended reals is commutative and associative; nothing is distributed or cancelled, so no
    finiteness is used); a padded lane holds −∞, which a maximum ignores and whose shifted exponential is 0, so
    the row maximum and the exponential sum over 128 lanes are those over the 40 real columns. The kernel's run
    ends with its result buffer at that array function (Proof/KernelValue.lean), the reference's at its result
    stage of the same arguments.
-/
import proofs.«136246_j62663572848803_1_alg».proof.Defs
import proofs.«136246_j62663572848803_1_alg».proof.Proof.Gen.Kernel
import proofs.«136246_j62663572848803_1_alg».proof.Proof.Gen.KernelIdeal
import proofs.«136246_j62663572848803_1_alg».proof.Proof.Gen.ReferenceIdeal
import proofs.«136246_j62663572848803_1_alg».proof.Proof.Gen.Pre_finite_inputs
import proofs.«136246_j62663572848803_1_alg».proof.Proof.KernelClaims
import proofs.«136246_j62663572848803_1_alg».proof.Proof.KernelValue
import proofs.«136246_j62663572848803_1_alg».proof.Proof.RefRunStaged
import Idealize.ShloMosaic.Adequacy
import Idealize.ShloMosaic.Init

noncomputable section

namespace Cert.Proof

open Idealize.ShloMosaic Idealize.ShloMosaic.TcCoe Idealize.SL.Sem

/-- The reference's frame: its run, the result forgotten. -/
theorem frame_ri : Cert.frame_ReferenceIdeal := fun m ρ _ =>
  (θ_run Cert.ReferenceIdeal.defs _ _).mono (fun _ h c => (h c).2) (Cert.ReferenceIdeal.Staged.run (F := Ideal) m ρ)

/-- Both idealized programs, run from memories that agree on the six arguments, end with the same result array:
    the kernel's run ends with the result buffer at the second call's fold, which is the reference's result stage
    of the kernel's arguments; the reference's run ends at that stage of its own arguments, which are the same. -/
theorem algebraic : Cert.algebraic_KernelIdeal_ReferenceIdeal := by
  intro m ρ m' ρ' _ hagree
  refine ⟨_, Cert.KernelIdeal.Hand.run_main (F := Ideal) m ρ, ?_⟩
  refine (θ_run Cert.ReferenceIdeal.defs _ _).mono (fun _ h c => ⟨(h c).1.trans ?_, (h c).2⟩)
    (Cert.ReferenceIdeal.Staged.run (F := Ideal) m' ρ')
  rw [(hagree c).1, (hagree c).2.1, (hagree c).2.2.1, (hagree c).2.2.2.1, (hagree c).2.2.2.2.1, (hagree c).2.2.2.2.2]
  exact (Cert.KernelIdeal.Hand.result_array m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
